-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S2x1x1 : Shape := ⟨3, ![2, 1, 1]⟩
abbrev S512x256 : Shape := ⟨2, ![512, 256]⟩
abbrev S2048x256 : Shape := ⟨2, ![2048, 256]⟩
abbrev S512x1 : Shape := ⟨2, ![512, 1]⟩
abbrev S1x2048 : Shape := ⟨2, ![1, 2048]⟩
abbrev S1x1x1 : Shape := ⟨3, ![1, 1, 1]⟩
abbrev S512x2048 : Shape := ⟨2, ![512, 2048]⟩
abbrev S512 : Shape := ⟨1, ![512]⟩
abbrev S1 : Shape := ⟨1, ![1]⟩
abbrev S1x1 : Shape := ⟨2, ![1, 1]⟩

abbrev nBuf : Space → Nat
  | .hbm => 51
  | .vmem => 30
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S2x1x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8192x256, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x256, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S1x8192, .f32⟩
  | .hbm, ⟨25, _⟩ => ⟨S2x1x1, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192x256, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x256, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S1x8192, .f32⟩
  | .hbm, ⟨39, _⟩ => ⟨S2x1x1, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S2048x256, .f32⟩
  | .local _ .vmem, ⟨3, _⟩ => ⟨S2048x256, .f32⟩
  | .local _ .vmem, ⟨4, _⟩ => ⟨S512x1, .f32⟩
  | .local _ .vmem, ⟨5, _⟩ => ⟨S512x1, .f32⟩
  | .local _ .vmem, ⟨6, _⟩ => ⟨S1x2048, .f32⟩
  | .local _ .vmem, ⟨7, _⟩ => ⟨S1x2048, .f32⟩
  | .local _ .vmem, ⟨8, _⟩ => ⟨S1x1x1, .f32⟩
  | .local _ .vmem, ⟨9, _⟩ => ⟨S1x1x1, .f32⟩
  | .local _ .vmem, ⟨10, _⟩ => ⟨S512x256, .f32⟩
  | .local _ .vmem, ⟨11, _⟩ => ⟨S512x256, .f32⟩
  | .local _ .vmem, ⟨12, _⟩ => ⟨S2048x256, .f32⟩
  | .local _ .vmem, ⟨13, _⟩ => ⟨S2048x256, .f32⟩
  | .local _ .vmem, ⟨14, _⟩ => ⟨S512x1, .f32⟩
  | .local _ .vmem, ⟨15, _⟩ => ⟨S512x1, .f32⟩
  | .local _ .vmem, ⟨16, _⟩ => ⟨S1x2048, .f32⟩
  | .local _ .vmem, ⟨17, _⟩ => ⟨S1x2048, .f32⟩
  | .local _ .vmem, ⟨18, _⟩ => ⟨S1x1x1, .f32⟩
  | .local _ .vmem, ⟨19, _⟩ => ⟨S1x1x1, .f32⟩
  | .local _ .vmem, ⟨20, _⟩ => ⟨S512x256, .f32⟩
  | .local _ .vmem, ⟨21, _⟩ => ⟨S512x256, .f32⟩
  | .local _ .vmem, ⟨22, _⟩ => ⟨S2048x256, .f32⟩
  | .local _ .vmem, ⟨23, _⟩ => ⟨S2048x256, .f32⟩
  | .local _ .vmem, ⟨24, _⟩ => ⟨S512x1, .f32⟩
  | .local _ .vmem, ⟨25, _⟩ => ⟨S512x1, .f32⟩
  | .local _ .vmem, ⟨26, _⟩ => ⟨S1x2048, .f32⟩
  | .local _ .vmem, ⟨27, _⟩ => ⟨S1x2048, .f32⟩
  | .local _ .vmem, ⟨28, _⟩ => ⟨S1x1x1, .f32⟩
  | .local _ .vmem, ⟨29, _⟩ => ⟨S1x1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_8 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_9 : Ref sig .tc := ⟨.hbm, 40, rfl⟩
abbrev main_v28 : Ref sig .tc := ⟨.hbm, 41, rfl⟩
abbrev main_cst_10 : Ref sig .tc := ⟨.hbm, 42, rfl⟩
abbrev main_v29 : Ref sig .tc := ⟨.hbm, 43, rfl⟩
abbrev main_v30 : Ref sig .tc := ⟨.hbm, 44, rfl⟩
abbrev main_cst_11 : Ref sig .tc := ⟨.hbm, 45, rfl⟩
abbrev main_v31 : Ref sig .tc := ⟨.hbm, 46, rfl⟩
abbrev main_v32 : Ref sig .tc := ⟨.hbm, 47, rfl⟩
abbrev main_cst_12 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨3, ![2, 16, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![c0_i32.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev grid1 : Pipeline.Grid := ⟨3, ![2, 16, 2], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![c0_i32.toNat, v1.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev grid2 : Pipeline.Grid := ⟨3, ![2, 16, 2], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![c0_i32.toNat, v1.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, false]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, true]

abbrev stage2_4 : Fin 2 → Memref sig .tc .vmem S1x1x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false, false]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  inb_S1x1x1_S1x1x1_0_0_0 : ∀ a, (![0, 0, 0] : Fin 3 → Nat) a + S1x1x1.size a ≤ S1x1x1.size a
  h_S1x1x1 : 0 < S1x1x1.numel
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  iota_S512x2048_d0_w32 : S512x2048.Iotas .tc 32 [0]
  iota_S512x2048_d1_w32 : S512x2048.Iotas .tc 32 [1]
  reduces_S512x2048_S512 : S512x2048.Reduces [1] S512
  shapeCasts_S512_S512x1 : S512.ShapeCasts S512x1
  reduces_S512x1_S1 : S512x1.Reduces [0] S1
  shapeCasts_S1_S1x1 : S1.ShapeCasts S1x1
  shapeCasts_S1x1x1_S1x1x1 : S1x1x1.ShapeCasts S1x1x1
  shapeCasts_S1x1_S1x1x1 : S1x1.ShapeCasts S1x1x1
  reducesTo_S2x1x1_S_d0_1_2 : S2x1x1.ReducesTo [0, 1, 2] S_
  dot_S512x256_S2048x256_S512x2048_1_1_0_0_n_n_wf : DotDims.WF S512x256 S2048x256 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x256.size a
  hwx0_1 : ∀ i : grid0.Coords, EltTy.bits .f32 = 32 ∨ (Rect.block (s := S8192x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S8192x256.size a
  hwx1_0 : ∀ i : grid1.Coords, EltTy.bits .f32 = 32 ∨ (Rect.block (s := S8192x256) S512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S8192x256.size a
  hwx1_1 : ∀ i : grid1.Coords, EltTy.bits .f32 = 32 ∨ (Rect.block (s := S8192x256) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .f32 = 32 ∨ (Rect.block (s := S8192x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x8192.size a
  hwx1_3 : ∀ i : grid1.Coords, EltTy.bits .f32 = 32 ∨ (Rect.block (s := S1x8192) S1x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1.size a ≤ S2x1x1.size a
  hwx1_4 : ∀ i : grid1.Coords, EltTy.bits .f32 = 32 ∨ (Rect.block (s := S2x1x1) S1x1x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S8192x256.size a
  hwx2_0 : ∀ i : grid2.Coords, EltTy.bits .f32 = 32 ∨ (Rect.block (s := S8192x256) S512x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S8192x256.size a
  hwx2_1 : ∀ i : grid2.Coords, EltTy.bits .f32 = 32 ∨ (Rect.block (s := S8192x256) S2048x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S8192x1.size a
  hwx2_2 : ∀ i : grid2.Coords, EltTy.bits .f32 = 32 ∨ (Rect.block (s := S8192x1) S512x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x2048.size a ≤ S1x8192.size a
  hwx2_3 : ∀ i : grid2.Coords, EltTy.bits .f32 = 32 ∨ (Rect.block (s := S1x8192) S1x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x1.size a ≤ S2x1x1.size a
  hwx2_4 : ∀ i : grid2.Coords, EltTy.bits .f32 = 32 ∨ (Rect.block (s := S2x1x1) S1x1x1.size (cc2_transform_4 i) (hinb2_4 i)).WholeWords (EltTy.packing .f32)

variable [Facts₀]

def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x1x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v27) S1x1x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 91
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S256x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192x256, .f32⟩
  | .hbm, ⟨31, _⟩ => ⟨S_, .f32⟩
  | .hbm, ⟨32, _⟩ => ⟨S8192, .f32⟩
  | .hbm, ⟨33, _⟩ => ⟨S8192x256, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S1x8192, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S256x8192, .f32⟩
  | .hbm, ⟨42, _⟩ => ⟨S8192x8192, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S8192x256, .f32⟩
  | .hbm, ⟨59, _⟩ => ⟨S_, .f32⟩
  | .hbm, ⟨60, _⟩ => ⟨S8192, .f32⟩
  | .hbm, ⟨61, _⟩ => ⟨S8192x256, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S1x8192, .f32⟩
  | .hbm, ⟨66, _⟩ => ⟨S8192x8192, .f32⟩
  | .hbm, ⟨67, _⟩ => ⟨S8192x8192, .f32⟩
  | .hbm, ⟨68, _⟩ => ⟨S8192x8192, .f32⟩
  | .hbm, ⟨69, _⟩ => ⟨S256x8192, .f32⟩
  | .hbm, ⟨70, _⟩ => ⟨S8192x8192, .f32⟩
  | .hbm, ⟨71, _⟩ => ⟨S_, .f32⟩
  | .hbm, ⟨72, _⟩ => ⟨S8192x8192, .f32⟩
  | .hbm, ⟨73, _⟩ => ⟨S8192x8192, .f32⟩
  | .hbm, ⟨74, _⟩ => ⟨S8192x8192, .f32⟩
  | .hbm, ⟨75, _⟩ => ⟨S_, .f32⟩
  | .hbm, ⟨76, _⟩ => ⟨S8192x8192, .f32⟩
  | .hbm, ⟨77, _⟩ => ⟨S8192x8192, .f32⟩
  | .hbm, ⟨78, _⟩ => ⟨S_, .f32⟩
  | .hbm, ⟨79, _⟩ => ⟨S8192x8192, .f32⟩
  | .hbm, ⟨80, _⟩ => ⟨S8192x8192, .f32⟩
  | .hbm, ⟨81, _⟩ => ⟨S8192x8192, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_9 : Ref sig .tc := ⟨.hbm, 47, rfl⟩
abbrev main_v35 : Ref sig .tc := ⟨.hbm, 48, rfl⟩
abbrev main_v36 : Ref sig .tc := ⟨.hbm, 49, rfl⟩
abbrev main_cst_10 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_11 : Ref sig .tc := ⟨.hbm, 54, rfl⟩
abbrev main_v40 : Ref sig .tc := ⟨.hbm, 55, rfl⟩
abbrev main_cst_12 : Ref sig .tc := ⟨.hbm, 56, rfl⟩
abbrev main_v41 : Ref sig .tc := ⟨.hbm, 57, rfl⟩
abbrev main_v42 : Ref sig .tc := ⟨.hbm, 58, rfl⟩
abbrev main_cst_13 : Ref sig .tc := ⟨.hbm, 59, rfl⟩
abbrev main_v43 : Ref sig .tc := ⟨.hbm, 60, rfl⟩
abbrev main_v44 : Ref sig .tc := ⟨.hbm, 61, rfl⟩
abbrev main_cst_14 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_15 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_16 : Ref sig .tc := ⟨.hbm, 75, rfl⟩
abbrev main_v56 : Ref sig .tc := ⟨.hbm, 76, rfl⟩
abbrev main_v57 : Ref sig .tc := ⟨.hbm, 77, rfl⟩
abbrev main_cst_17 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_18 : Ref sig .tc := ⟨.hbm, 82, rfl⟩
abbrev main_v61 : Ref sig .tc := ⟨.hbm, 83, rfl⟩
abbrev main_cst_19 : Ref sig .tc := ⟨.hbm, 84, rfl⟩
abbrev main_v62 : Ref sig .tc := ⟨.hbm, 85, rfl⟩
abbrev main_v63 : Ref sig .tc := ⟨.hbm, 86, rfl⟩
abbrev main_cst_20 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.Ki.Conds.lean ====
/-
  The branch condition of the three kernels' bodies and the staging memrefs they are called on.

  Each body opens with one conditional: at the first point of an accumulation run — grid coordinates 1 and 2 both
  zero — the one-element accumulator block is cleared before anything is added to it. Over the grid (2, 16, 2),
  traversed in row-major order, those are exactly the points whose position is a multiple of 32.
-/
import proofs.«171171_j81080392613941_2_alg».proof.Proof.Gen.KernelIdeal.Launch
import proofs.«171171_j81080392613941_2_alg».proof.Proof.Gen.KernelIdeal.Skeleton
import proofs.«171171_j81080392613941_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which a body clears its accumulator: grid coordinates 1 and 2 are both zero. -/
abbrev cond0 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
abbrev cond1 (i : grid1.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
abbrev cond2 (i : grid2.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1

/-- It holds exactly at the positions that are multiples of 32 (the first point of each value of coordinate 0). -/
theorem hcond0 : ∀ t : Fin cfg0.N, cond0 (grid0.coords t) ↔ t.val % 32 = 0 :=
  (by decide +kernel : ∀ t : Fin grid0.N, cond0 (grid0.coords t) ↔ t.val % 32 = 0)
theorem hcond1 : ∀ t : Fin cfg1.N, cond1 (grid1.coords t) ↔ t.val % 32 = 0 :=
  (by decide +kernel : ∀ t : Fin grid1.N, cond1 (grid1.coords t) ↔ t.val % 32 = 0)
theorem hcond2 : ∀ t : Fin cfg2.N, cond2 (grid2.coords t) ↔ t.val % 32 = 0 :=
  (by decide +kernel : ∀ t : Fin grid2.N, cond2 (grid2.coords t) ↔ t.val % 32 = 0)

end Cert.KernelIdeal.Hand

end
-- ==== Proof.Ki.Run0A.lean ====
/-
  The body of kernel 0 run whole, at a point that opens an accumulation run: the accumulator block is cleared, then the block's sum is added to it.
  The four input blocks are read and left as they were; what the stores leave in the accumulator block is found by running the body.
-/
import proofs.«171171_j81080392613941_2_alg».proof.Proof.Ki.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator block, last first, with the proof that from the four input blocks
    held whole at their contents and the accumulator block held whole at anything the body runs to its end, the inputs as they were. -/
noncomputable def kernelRun0_A (c : Dev nD) (i : grid0.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : cond0 i)
    (x0 : Vec F S512x256 .f32) (x1 : Vec F S2048x256 .f32) (x2 : Vec F S512x1 .f32) (x3 : Vec F S1x2048 .f32) :
    { L : List (View.Piece (Elt F) S1x1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L)) -∗ K ⟨⟩))
          ⊢ wp frame (wpE (defs₀ (F := F)) Variants.none c none) E (cc0__rbf_sum_kernel i arg3 harg3 arg4 harg4 arg5 harg5 arg6 harg6 arg7 harg7) K } := by
  refine ⟨?_, fun E K => ?run⟩
  case run =>
    simp only [cc0__rbf_sum_kernel_eq_skeleton]; unfold cc0__rbf_sum_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.KernelIdeal.Hand

end
-- ==== Proof.Ki.Run0B.lean ====
/-
  The body of kernel 0 run whole, at a point inside an accumulation run: the block's sum is added to what the accumulator block holds.
  The four input blocks are read and left as they were; what the stores leave in the accumulator block is found by running the body.
-/
import proofs.«171171_j81080392613941_2_alg».proof.Proof.Ki.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator block, last first, with the proof that from the four input blocks
    held whole at their contents and the accumulator block held whole at `xo` the body runs to its end, the inputs as they were. -/
noncomputable def kernelRun0_B (c : Dev nD) (i : grid0.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : ¬cond0 i)
    (x0 : Vec F S512x256 .f32) (x1 : Vec F S2048x256 .f32) (x2 : Vec F S512x1 .f32) (x3 : Vec F S1x2048 .f32) (xo : Vec F S1x1x1 .f32) :
    { L : List (View.Piece (Elt F) S1x1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L)) -∗ K ⟨⟩))
          ⊢ wp frame (wpE (defs₀ (F := F)) Variants.none c none) E (cc0__rbf_sum_kernel i arg3 harg3 arg4 harg4 arg5 harg5 arg6 harg6 arg7 harg7) K } := by
  refine ⟨?_, fun E K => ?run⟩
  case run =>
    simp only [cc0__rbf_sum_kernel_eq_skeleton]; unfold cc0__rbf_sum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.KernelIdeal.Hand

end
-- ==== Proof.Ki.Dat0.lean ====
/-
  Kernel 0 over its grid: what the accumulator block holds after each grid point, and the pipeline's proof data.

  The region is entered with the core's buffers at contents `V`. An input window's staging buffer holds, whenever the
  body runs, the block of its array the point's index map selects. The output window's one-element block is carried
  from point to point: at a position that is a multiple of 32 the body clears it and adds the block's sum, elsewhere it
  adds the block's sum to what the point before left (`outsAt0`); it is written back after the last point of each
  value of grid coordinate 0.
-/
import proofs.«171171_j81080392613941_2_alg».proof.Proof.Ki.Run0A
import proofs.«171171_j81080392613941_2_alg».proof.Proof.Ki.Run0B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the block
    index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of the output window, through which its contents are stated. -/
abbrev VO0 : View sig .tc .vmem S1x1x1 .f32 := (Memref.whole cc0_stg4_0 : Memref sig .tc .vmem S1x1x1 .f32).view
/-- Each window's current staging memref at point `t`, and its wholeness. -/
abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1 .f32 := win0_4.stage (cfg0.slots t 4)
abbrev hs0_4 (t : Fin cfg0.N) : (ms0_4 t).IsWhole := hstage0_4 ((cfg0.slots t 4).cast nbuf0_4)

/-- The pieces a clearing point leaves tile the one-element block, so they cover it. -/
theorem cover0_A (c : Dev nD) (i : grid0.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : cond0 i)
    (x0 : Vec F S512x256 .f32) (x1 : Vec F S2048x256 .f32) (x2 : Vec F S512x1 .f32) (x3 : Vec F S1x2048 .f32) (y : S1x1x1.Idx) :
    ∃ pc ∈ (kernelRun0_A c i arg3 harg3 arg4 harg4 arg5 harg5 arg6 harg6 arg7 harg7 hc x0 x1 x2 x3).1, y ∈ pc.1.set :=
  View.cover_of_tiledL (kernelRun0_A c i arg3 harg3 arg4 harg4 arg5 harg5 arg6 harg6 arg7 harg7 hc x0 x1 x2 x3).1 S1x1x1.size (by sl_kernel_rfl) y

/-- What a clearing point leaves in the accumulator block. -/
def out0_A (c : Dev nD) (i : grid0.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : cond0 i)
    (x0 : Vec F S512x256 .f32) (x1 : Vec F S2048x256 .f32) (x2 : Vec F S512x1 .f32) (x3 : Vec F S1x2048 .f32) : Vec F S1x1x1 .f32 :=
  VO0.read (Elt F) (VO0.writes (Elt F) VO0.junk (kernelRun0_A c i arg3 harg3 arg4 harg4 arg5 harg5 arg6 harg6 arg7 harg7 hc x0 x1 x2 x3).1)

/-- The pieces an accumulating point leaves tile the one-element block, so they cover it. -/
theorem cover0_B (c : Dev nD) (i : grid0.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : ¬cond0 i)
    (x0 : Vec F S512x256 .f32) (x1 : Vec F S2048x256 .f32) (x2 : Vec F S512x1 .f32) (x3 : Vec F S1x2048 .f32) (xo : Vec F S1x1x1 .f32) (y : S1x1x1.Idx) :
    ∃ pc ∈ (kernelRun0_B c i arg3 harg3 arg4 harg4 arg5 harg5 arg6 harg6 arg7 harg7 hc x0 x1 x2 x3 xo).1, y ∈ pc.1.set :=
  View.cover_of_tiledL (kernelRun0_B c i arg3 harg3 arg4 harg4 arg5 harg5 arg6 harg6 arg7 harg7 hc x0 x1 x2 x3 xo).1 S1x1x1.size (by sl_kernel_rfl) y

/-- What an accumulating point leaves in the accumulator block, from what it found there. -/
def out0_B (c : Dev nD) (i : grid0.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : ¬cond0 i)
    (x0 : Vec F S512x256 .f32) (x1 : Vec F S2048x256 .f32) (x2 : Vec F S512x1 .f32) (x3 : Vec F S1x2048 .f32) (xo : Vec F S1x1x1 .f32) : Vec F S1x1x1 .f32 :=
  VO0.read (Elt F) (VO0.writes (Elt F) VO0.junk (kernelRun0_B c i arg3 harg3 arg4 harg4 arg5 harg5 arg6 harg6 arg7 harg7 hc x0 x1 x2 x3 xo).1)

/-- THE ACCUMULATION: what the accumulator block holds after the body at position `n`. -/
def outsAt0 (c : Dev nD) : (n : ℕ) → n < cfg0.N → Vec F S1x1x1 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0 ⟨0, hn⟩).mpr (Nat.zero_mod _)) (iblk0 V c 0 ⟨0, hn⟩) (iblk0 V c 1 ⟨0, hn⟩) (iblk0 V c 2 ⟨0, hn⟩) (iblk0 V c 3 ⟨0, hn⟩)
  | n + 1, hn =>
    if h0 : (n + 1) % 32 = 0 then
      out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩)
    else
      out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn))

/-- At a clearing point. -/
theorem outsAt0_A (c : Dev nD) (t : Fin cfg0.N) (h0 : t.val % 32 = 0) :
    outsAt0 V c t.val t.isLt = out0_A c (grid0.coords t) (ms0_0 t) (hs0_0 t) (ms0_1 t) (hs0_1 t) (ms0_2 t) (hs0_2 t) (ms0_3 t) (hs0_3 t) (ms0_4 t) (hs0_4 t) ((hcond0 t).mpr h0) (iblk0 V c 0 t) (iblk0 V c 1 t) (iblk0 V c 2 t) (iblk0 V c 3 t) := by
  obtain ⟨n, hn⟩ := t
  cases n with
  | zero => exact rfl
  | succ n => exact (dif_pos h0).trans rfl

/-- At an accumulating point: over what the point before left. -/
theorem outsAt0_B (c : Dev nD) (t : Fin cfg0.N) (h0 : ¬t.val % 32 = 0) :
    outsAt0 V c t.val t.isLt = out0_B c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk0 V c 0 t) (iblk0 V c 1 t) (iblk0 V c 2 t) (iblk0 V c 3 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of pipeline 0 on core `c`: the arrays as the region finds them; after the body at point `t` each
    input's buffer at its block and the output's at `outsAt0`; the scoped rest and the generator register as the
    invariant; nothing owed; the two windows on one array each hold half of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outsAt0 V c t.val t.isLt
  Φ _ := Pipeline.ΦA spec0 c
  q := fun w => match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outsAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
/-- At an accumulating point the output's staging buffer holds what the body left at the point before: the point is not
    the first and the buffer was not written back between. -/
theorem before0_4_B (c : Dev nD) (t : Fin cfg0.N) (h0 : ¬t.val % 32 = 0) (d) :
    (dat0 V c).before 4 t d = outsAt0 V c (t.val - 1) (Nat.lt_of_le_of_lt (Nat.sub_le _ _) t.isLt) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dat0]

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 800000 in
/-- The body at any point: the inputs' memrefs hold their blocks; the position says whether the point clears the
    accumulator or adds to what the point before left; the invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 64 := lt_of_lt_of_eq t.isLt (show cfg0.N = 64 from N_0)
  by_cases h0 : t.val % 32 = 0
  · rw [outsAt0_A V c t h0]
    unfold out0_A
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0 t).mpr h0) (iblk0 V c 0 t) (iblk0 V c 1 t) (iblk0 V c 2 t) (iblk0 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A c _ _ _ _ _ _ _ _ _ _ _ _ _ _ _ _)
  · rw [outsAt0_B V c t h0]
    simp only [before0_4_B V c t h0]
    unfold out0_B
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0 t).mp h)) (iblk0 V c 0 t) (iblk0 V c 1 t) (iblk0 V c 2 t) (iblk0 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B c _ _ _ _ _ _ _ _ _ _ _ _ _ _ _ _ _)

/-- The body obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Ki.Run1A.lean ====
/-
  The body of kernel 1 run whole, at a point that opens an accumulation run: the accumulator block is cleared, then the block's sum is added to it.
  The four input blocks are read and left as they were; what the stores leave in the accumulator block is found by running the body.
-/
import proofs.«171171_j81080392613941_2_alg».proof.Proof.Ki.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator block, last first, with the proof that from the four input blocks
    held whole at their contents and the accumulator block held whole at anything the body runs to its end, the inputs as they were. -/
noncomputable def kernelRun1_A (c : Dev nD) (i : grid1.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : cond1 i)
    (x0 : Vec F S512x256 .f32) (x1 : Vec F S2048x256 .f32) (x2 : Vec F S512x1 .f32) (x3 : Vec F S1x2048 .f32) :
    { L : List (View.Piece (Elt F) S1x1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L)) -∗ K ⟨⟩))
          ⊢ wp frame (wpE (defs₀ (F := F)) Variants.none c none) E (cc1__rbf_sum_kernel i arg3 harg3 arg4 harg4 arg5 harg5 arg6 harg6 arg7 harg7) K } := by
  refine ⟨?_, fun E K => ?run⟩
  case run =>
    simp only [cc1__rbf_sum_kernel_eq_skeleton]; unfold cc1__rbf_sum_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.KernelIdeal.Hand

end
-- ==== Proof.Ki.Run1B.lean ====
/-
  The body of kernel 1 run whole, at a point inside an accumulation run: the block's sum is added to what the accumulator block holds.
  The four input blocks are read and left as they were; what the stores leave in the accumulator block is found by running the body.
-/
import proofs.«171171_j81080392613941_2_alg».proof.Proof.Ki.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator block, last first, with the proof that from the four input blocks
    held whole at their contents and the accumulator block held whole at `xo` the body runs to its end, the inputs as they were. -/
noncomputable def kernelRun1_B (c : Dev nD) (i : grid1.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : ¬cond1 i)
    (x0 : Vec F S512x256 .f32) (x1 : Vec F S2048x256 .f32) (x2 : Vec F S512x1 .f32) (x3 : Vec F S1x2048 .f32) (xo : Vec F S1x1x1 .f32) :
    { L : List (View.Piece (Elt F) S1x1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L)) -∗ K ⟨⟩))
          ⊢ wp frame (wpE (defs₀ (F := F)) Variants.none c none) E (cc1__rbf_sum_kernel i arg3 harg3 arg4 harg4 arg5 harg5 arg6 harg6 arg7 harg7) K } := by
  refine ⟨?_, fun E K => ?run⟩
  case run =>
    simp only [cc1__rbf_sum_kernel_eq_skeleton]; unfold cc1__rbf_sum_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.KernelIdeal.Hand

end
-- ==== Proof.Ki.Dat1.lean ====
/-
  Kernel 1 over its grid: what the accumulator block holds after each grid point, and the pipeline's proof data.

  The region is entered with the core's buffers at contents `V`. An input window's staging buffer holds, whenever the
  body runs, the block of its array the point's index map selects. The output window's one-element block is carried
  from point to point: at a position that is a multiple of 32 the body clears it and adds the block's sum, elsewhere it
  adds the block's sum to what the point before left (`outsAt1`); it is written back after the last point of each
  value of grid coordinate 0.
-/
import proofs.«171171_j81080392613941_2_alg».proof.Proof.Ki.Run1A
import proofs.«171171_j81080392613941_2_alg».proof.Proof.Ki.Run1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the block
    index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of the output window, through which its contents are stated. -/
abbrev VO1 : View sig .tc .vmem S1x1x1 .f32 := (Memref.whole cc1_stg4_0 : Memref sig .tc .vmem S1x1x1 .f32).view
/-- Each window's current staging memref at point `t`, and its wholeness. -/
abbrev ms1_0 (t : Fin cfg1.N) : Memref sig .tc .vmem S512x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x1 .f32 := win1_4.stage (cfg1.slots t 4)
abbrev hs1_4 (t : Fin cfg1.N) : (ms1_4 t).IsWhole := hstage1_4 ((cfg1.slots t 4).cast nbuf1_4)

/-- The pieces a clearing point leaves tile the one-element block, so they cover it. -/
theorem cover1_A (c : Dev nD) (i : grid1.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : cond1 i)
    (x0 : Vec F S512x256 .f32) (x1 : Vec F S2048x256 .f32) (x2 : Vec F S512x1 .f32) (x3 : Vec F S1x2048 .f32) (y : S1x1x1.Idx) :
    ∃ pc ∈ (kernelRun1_A c i arg3 harg3 arg4 harg4 arg5 harg5 arg6 harg6 arg7 harg7 hc x0 x1 x2 x3).1, y ∈ pc.1.set :=
  View.cover_of_tiledL (kernelRun1_A c i arg3 harg3 arg4 harg4 arg5 harg5 arg6 harg6 arg7 harg7 hc x0 x1 x2 x3).1 S1x1x1.size (by sl_kernel_rfl) y

/-- What a clearing point leaves in the accumulator block. -/
def out1_A (c : Dev nD) (i : grid1.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : cond1 i)
    (x0 : Vec F S512x256 .f32) (x1 : Vec F S2048x256 .f32) (x2 : Vec F S512x1 .f32) (x3 : Vec F S1x2048 .f32) : Vec F S1x1x1 .f32 :=
  VO1.read (Elt F) (VO1.writes (Elt F) VO1.junk (kernelRun1_A c i arg3 harg3 arg4 harg4 arg5 harg5 arg6 harg6 arg7 harg7 hc x0 x1 x2 x3).1)

/-- The pieces an accumulating point leaves tile the one-element block, so they cover it. -/
theorem cover1_B (c : Dev nD) (i : grid1.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : ¬cond1 i)
    (x0 : Vec F S512x256 .f32) (x1 : Vec F S2048x256 .f32) (x2 : Vec F S512x1 .f32) (x3 : Vec F S1x2048 .f32) (xo : Vec F S1x1x1 .f32) (y : S1x1x1.Idx) :
    ∃ pc ∈ (kernelRun1_B c i arg3 harg3 arg4 harg4 arg5 harg5 arg6 harg6 arg7 harg7 hc x0 x1 x2 x3 xo).1, y ∈ pc.1.set :=
  View.cover_of_tiledL (kernelRun1_B c i arg3 harg3 arg4 harg4 arg5 harg5 arg6 harg6 arg7 harg7 hc x0 x1 x2 x3 xo).1 S1x1x1.size (by sl_kernel_rfl) y

/-- What an accumulating point leaves in the accumulator block, from what it found there. -/
def out1_B (c : Dev nD) (i : grid1.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : ¬cond1 i)
    (x0 : Vec F S512x256 .f32) (x1 : Vec F S2048x256 .f32) (x2 : Vec F S512x1 .f32) (x3 : Vec F S1x2048 .f32) (xo : Vec F S1x1x1 .f32) : Vec F S1x1x1 .f32 :=
  VO1.read (Elt F) (VO1.writes (Elt F) VO1.junk (kernelRun1_B c i arg3 harg3 arg4 harg4 arg5 harg5 arg6 harg6 arg7 harg7 hc x0 x1 x2 x3 xo).1)

/-- THE ACCUMULATION: what the accumulator block holds after the body at position `n`. -/
def outsAt1 (c : Dev nD) : (n : ℕ) → n < cfg1.N → Vec F S1x1x1 .f32
  | 0, hn => out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1 ⟨0, hn⟩).mpr (Nat.zero_mod _)) (iblk1 V c 0 ⟨0, hn⟩) (iblk1 V c 1 ⟨0, hn⟩) (iblk1 V c 2 ⟨0, hn⟩) (iblk1 V c 3 ⟨0, hn⟩)
  | n + 1, hn =>
    if h0 : (n + 1) % 32 = 0 then
      out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩)
    else
      out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn))

/-- At a clearing point. -/
theorem outsAt1_A (c : Dev nD) (t : Fin cfg1.N) (h0 : t.val % 32 = 0) :
    outsAt1 V c t.val t.isLt = out1_A c (grid1.coords t) (ms1_0 t) (hs1_0 t) (ms1_1 t) (hs1_1 t) (ms1_2 t) (hs1_2 t) (ms1_3 t) (hs1_3 t) (ms1_4 t) (hs1_4 t) ((hcond1 t).mpr h0) (iblk1 V c 0 t) (iblk1 V c 1 t) (iblk1 V c 2 t) (iblk1 V c 3 t) := by
  obtain ⟨n, hn⟩ := t
  cases n with
  | zero => exact rfl
  | succ n => exact (dif_pos h0).trans rfl

/-- At an accumulating point: over what the point before left. -/
theorem outsAt1_B (c : Dev nD) (t : Fin cfg1.N) (h0 : ¬t.val % 32 = 0) :
    outsAt1 V c t.val t.isLt = out1_B c (grid1.coords t) (ms1_0 t) (hs1_0 t) (ms1_1 t) (hs1_1 t) (ms1_2 t) (hs1_2 t) (ms1_3 t) (hs1_3 t) (ms1_4 t) (hs1_4 t) (fun h => h0 ((hcond1 t).mp h)) (iblk1 V c 0 t) (iblk1 V c 1 t) (iblk1 V c 2 t) (iblk1 V c 3 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of pipeline 1 on core `c`: the arrays as the region finds them; after the body at point `t` each
    input's buffer at its block and the output's at `outsAt1`; the scoped rest and the generator register as the
    invariant; nothing owed; the two windows on one array each hold half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t.val t.isLt
  Φ _ := Pipeline.ΦA spec1 c
  q := fun w => match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
/-- At an accumulating point the output's staging buffer holds what the body left at the point before: the point is not
    the first and the buffer was not written back between. -/
theorem before1_4_B (c : Dev nD) (t : Fin cfg1.N) (h0 : ¬t.val % 32 = 0) (d) :
    (dat1 V c).before 4 t d = outsAt1 V c (t.val - 1) (Nat.lt_of_le_of_lt (Nat.sub_le _ _) t.isLt) := by
  have hN : t.val < 64 := lt_of_lt_of_eq t.isLt (show cfg1.N = 64 from N_1)
  rw [Dat.before_out_kept _ 4 rfl t (by omega) (Bool.eq_false_iff.mpr fun h => by have := (flush1_4 _).mp h; dsimp only at this; omega)
    (fun _ => rfl) (fun _ _ => rfl)]
  dsimp only [dat1]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 800000 in
/-- The body at any point: the inputs' memrefs hold their blocks; the position says whether the point clears the
    accumulator or adds to what the point before left; the invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 64 := lt_of_lt_of_eq t.isLt (show cfg1.N = 64 from N_1)
  by_cases h0 : t.val % 32 = 0
  · rw [outsAt1_A V c t h0]
    unfold out1_A
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1 t).mpr h0) (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A c _ _ _ _ _ _ _ _ _ _ _ _ _ _ _ _)
  · rw [outsAt1_B V c t h0]
    simp only [before1_4_B V c t h0]
    unfold out1_B
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1 t).mp h)) (iblk1 V c 0 t) (iblk1 V c 1 t) (iblk1 V c 2 t) (iblk1 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B c _ _ _ _ _ _ _ _ _ _ _ _ _ _ _ _ _)

/-- The body obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Ki.Run2A.lean ====
/-
  The body of kernel 2 run whole, at a point that opens an accumulation run: the accumulator block is cleared, then the block's sum is added to it.
  The four input blocks are read and left as they were; what the stores leave in the accumulator block is found by running the body.
-/
import proofs.«171171_j81080392613941_2_alg».proof.Proof.Ki.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator block, last first, with the proof that from the four input blocks
    held whole at their contents and the accumulator block held whole at anything the body runs to its end, the inputs as they were. -/
noncomputable def kernelRun2_A (c : Dev nD) (i : grid2.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : cond2 i)
    (x0 : Vec F S512x256 .f32) (x1 : Vec F S2048x256 .f32) (x2 : Vec F S512x1 .f32) (x3 : Vec F S1x2048 .f32) :
    { L : List (View.Piece (Elt F) S1x1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L)) -∗ K ⟨⟩))
          ⊢ wp frame (wpE (defs₀ (F := F)) Variants.none c none) E (cc2__rbf_sum_kernel i arg3 harg3 arg4 harg4 arg5 harg5 arg6 harg6 arg7 harg7) K } := by
  refine ⟨?_, fun E K => ?run⟩
  case run =>
    simp only [cc2__rbf_sum_kernel_eq_skeleton]; unfold cc2__rbf_sum_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.KernelIdeal.Hand

end
-- ==== Proof.Ki.Run2B.lean ====
/-
  The body of kernel 2 run whole, at a point inside an accumulation run: the block's sum is added to what the accumulator block holds.
  The four input blocks are read and left as they were; what the stores leave in the accumulator block is found by running the body.
-/
import proofs.«171171_j81080392613941_2_alg».proof.Proof.Ki.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator block, last first, with the proof that from the four input blocks
    held whole at their contents and the accumulator block held whole at `xo` the body runs to its end, the inputs as they were. -/
noncomputable def kernelRun2_B (c : Dev nD) (i : grid2.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : ¬cond2 i)
    (x0 : Vec F S512x256 .f32) (x1 : Vec F S2048x256 .f32) (x2 : Vec F S512x1 .f32) (x3 : Vec F S1x2048 .f32) (xo : Vec F S1x1x1 .f32) :
    { L : List (View.Piece (Elt F) S1x1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L)) -∗ K ⟨⟩))
          ⊢ wp frame (wpE (defs₀ (F := F)) Variants.none c none) E (cc2__rbf_sum_kernel i arg3 harg3 arg4 harg4 arg5 harg5 arg6 harg6 arg7 harg7) K } := by
  refine ⟨?_, fun E K => ?run⟩
  case run =>
    simp only [cc2__rbf_sum_kernel_eq_skeleton]; unfold cc2__rbf_sum_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.KernelIdeal.Hand

end
-- ==== Proof.Ki.Dat2.lean ====
/-
  Kernel 2 over its grid: what the accumulator block holds after each grid point, and the pipeline's proof data.

  The region is entered with the core's buffers at contents `V`. An input window's staging buffer holds, whenever the
  body runs, the block of its array the point's index map selects. The output window's one-element block is carried
  from point to point: at a position that is a multiple of 32 the body clears it and adds the block's sum, elsewhere it
  adds the block's sum to what the point before left (`outsAt2`); it is written back after the last point of each
  value of grid coordinate 0.
-/
import proofs.«171171_j81080392613941_2_alg».proof.Proof.Ki.Run2A
import proofs.«171171_j81080392613941_2_alg».proof.Proof.Ki.Run2B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched, the block
    index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- One staging buffer of the output window, through which its contents are stated. -/
abbrev VO2 : View sig .tc .vmem S1x1x1 .f32 := (Memref.whole cc2_stg4_0 : Memref sig .tc .vmem S1x1x1 .f32).view
/-- Each window's current staging memref at point `t`, and its wholeness. -/
abbrev ms2_0 (t : Fin cfg2.N) : Memref sig .tc .vmem S512x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x2048 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1x1 .f32 := win2_4.stage (cfg2.slots t 4)
abbrev hs2_4 (t : Fin cfg2.N) : (ms2_4 t).IsWhole := hstage2_4 ((cfg2.slots t 4).cast nbuf2_4)

/-- The pieces a clearing point leaves tile the one-element block, so they cover it. -/
theorem cover2_A (c : Dev nD) (i : grid2.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : cond2 i)
    (x0 : Vec F S512x256 .f32) (x1 : Vec F S2048x256 .f32) (x2 : Vec F S512x1 .f32) (x3 : Vec F S1x2048 .f32) (y : S1x1x1.Idx) :
    ∃ pc ∈ (kernelRun2_A c i arg3 harg3 arg4 harg4 arg5 harg5 arg6 harg6 arg7 harg7 hc x0 x1 x2 x3).1, y ∈ pc.1.set :=
  View.cover_of_tiledL (kernelRun2_A c i arg3 harg3 arg4 harg4 arg5 harg5 arg6 harg6 arg7 harg7 hc x0 x1 x2 x3).1 S1x1x1.size (by sl_kernel_rfl) y

/-- What a clearing point leaves in the accumulator block. -/
def out2_A (c : Dev nD) (i : grid2.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : cond2 i)
    (x0 : Vec F S512x256 .f32) (x1 : Vec F S2048x256 .f32) (x2 : Vec F S512x1 .f32) (x3 : Vec F S1x2048 .f32) : Vec F S1x1x1 .f32 :=
  VO2.read (Elt F) (VO2.writes (Elt F) VO2.junk (kernelRun2_A c i arg3 harg3 arg4 harg4 arg5 harg5 arg6 harg6 arg7 harg7 hc x0 x1 x2 x3).1)

/-- The pieces an accumulating point leaves tile the one-element block, so they cover it. -/
theorem cover2_B (c : Dev nD) (i : grid2.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : ¬cond2 i)
    (x0 : Vec F S512x256 .f32) (x1 : Vec F S2048x256 .f32) (x2 : Vec F S512x1 .f32) (x3 : Vec F S1x2048 .f32) (xo : Vec F S1x1x1 .f32) (y : S1x1x1.Idx) :
    ∃ pc ∈ (kernelRun2_B c i arg3 harg3 arg4 harg4 arg5 harg5 arg6 harg6 arg7 harg7 hc x0 x1 x2 x3 xo).1, y ∈ pc.1.set :=
  View.cover_of_tiledL (kernelRun2_B c i arg3 harg3 arg4 harg4 arg5 harg5 arg6 harg6 arg7 harg7 hc x0 x1 x2 x3 xo).1 S1x1x1.size (by sl_kernel_rfl) y

/-- What an accumulating point leaves in the accumulator block, from what it found there. -/
def out2_B (c : Dev nD) (i : grid2.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : ¬cond2 i)
    (x0 : Vec F S512x256 .f32) (x1 : Vec F S2048x256 .f32) (x2 : Vec F S512x1 .f32) (x3 : Vec F S1x2048 .f32) (xo : Vec F S1x1x1 .f32) : Vec F S1x1x1 .f32 :=
  VO2.read (Elt F) (VO2.writes (Elt F) VO2.junk (kernelRun2_B c i arg3 harg3 arg4 harg4 arg5 harg5 arg6 harg6 arg7 harg7 hc x0 x1 x2 x3 xo).1)

/-- THE ACCUMULATION: what the accumulator block holds after the body at position `n`. -/
def outsAt2 (c : Dev nD) : (n : ℕ) → n < cfg2.N → Vec F S1x1x1 .f32
  | 0, hn => out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) ((hcond2 ⟨0, hn⟩).mpr (Nat.zero_mod _)) (iblk2 V c 0 ⟨0, hn⟩) (iblk2 V c 1 ⟨0, hn⟩) (iblk2 V c 2 ⟨0, hn⟩) (iblk2 V c 3 ⟨0, hn⟩)
  | n + 1, hn =>
    if h0 : (n + 1) % 32 = 0 then
      out2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) ((hcond2 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩)
    else
      out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (fun h => h0 ((hcond2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn))

/-- At a clearing point. -/
theorem outsAt2_A (c : Dev nD) (t : Fin cfg2.N) (h0 : t.val % 32 = 0) :
    outsAt2 V c t.val t.isLt = out2_A c (grid2.coords t) (ms2_0 t) (hs2_0 t) (ms2_1 t) (hs2_1 t) (ms2_2 t) (hs2_2 t) (ms2_3 t) (hs2_3 t) (ms2_4 t) (hs2_4 t) ((hcond2 t).mpr h0) (iblk2 V c 0 t) (iblk2 V c 1 t) (iblk2 V c 2 t) (iblk2 V c 3 t) := by
  obtain ⟨n, hn⟩ := t
  cases n with
  | zero => exact rfl
  | succ n => exact (dif_pos h0).trans rfl

/-- At an accumulating point: over what the point before left. -/
theorem outsAt2_B (c : Dev nD) (t : Fin cfg2.N) (h0 : ¬t.val % 32 = 0) :
    outsAt2 V c t.val t.isLt = out2_B c (grid2.coords t) (ms2_0 t) (hs2_0 t) (ms2_1 t) (hs2_1 t) (ms2_2 t) (hs2_2 t) (ms2_3 t) (hs2_3 t) (ms2_4 t) (hs2_4 t) (fun h => h0 ((hcond2 t).mp h)) (iblk2 V c 0 t) (iblk2 V c 1 t) (iblk2 V c 2 t) (iblk2 V c 3 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of pipeline 2 on core `c`: the arrays as the region finds them; after the body at point `t` each
    input's buffer at its block and the output's at `outsAt2`; the scoped rest and the generator register as the
    invariant; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outsAt2 V c t.val t.isLt
  Φ _ := Pipeline.ΦA spec2 c
  q := fun _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outsAt2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
/-- At an accumulating point the output's staging buffer holds what the body left at the point before: the point is not
    the first and the buffer was not written back between. -/
theorem before2_4_B (c : Dev nD) (t : Fin cfg2.N) (h0 : ¬t.val % 32 = 0) (d) :
    (dat2 V c).before 4 t d = outsAt2 V c (t.val - 1) (Nat.lt_of_le_of_lt (Nat.sub_le _ _) t.isLt) := by
  have hN : t.val < 64 := lt_of_lt_of_eq t.isLt (show cfg2.N = 64 from N_2)
  rw [Dat.before_out_kept _ 4 rfl t (by omega) (Bool.eq_false_iff.mpr fun h => by have := (flush2_4 _).mp h; dsimp only at this; omega)
    (fun _ => rfl) (fun _ _ => rfl)]
  dsimp only [dat2]

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 800000 in
/-- The body at any point: the inputs' memrefs hold their blocks; the position says whether the point clears the
    accumulator or adds to what the point before left; the invariant and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  have hN : t.val < 64 := lt_of_lt_of_eq t.isLt (show cfg2.N = 64 from N_2)
  by_cases h0 : t.val % 32 = 0
  · rw [outsAt2_A V c t h0]
    unfold out2_A
    iintro ⟨HΦ, Ho, ⟨%d0, H0⟩, ⟨%d1, H1⟩, ⟨%d2, H2⟩, ⟨%d3, H3⟩, ⟨%d4, H4⟩⟩
    iapply ((kernelRun2_A c (grid2.coords t) _ _ _ _ _ _ _ _ _ _ ((hcond2 t).mpr h0) (iblk2 V c 0 t) (iblk2 V c 1 t) (iblk2 V c 2 t) (iblk2 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_A c _ _ _ _ _ _ _ _ _ _ _ _ _ _ _ _)
  · rw [outsAt2_B V c t h0]
    simp only [before2_4_B V c t h0]
    unfold out2_B
    iintro ⟨HΦ, Ho, ⟨%d0, H0⟩, ⟨%d1, H1⟩, ⟨%d2, H2⟩, ⟨%d3, H3⟩, ⟨%d4, H4⟩⟩
    iapply ((kernelRun2_B c (grid2.coords t) _ _ _ _ _ _ _ _ _ _ (fun h => h0 ((hcond2 t).mp h)) (iblk2 V c 0 t) (iblk2 V c 1 t) (iblk2 V c 2 t) (iblk2 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_B c _ _ _ _ _ _ _ _ _ _ _ _ _ _ _ _ _)

/-- The body obligation at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Ki.Pd.lean ====
/-
  The contents of the core's buffers between the items of the program, with what the three kernels leave made
  explicit: each kernel's result array holds, after its region, what the pipeline's write-backs of the accumulator
  block leave there; every later stretch of host operations is read from those contents.
-/
import proofs.«171171_j81080392613941_2_alg».proof.Proof.Ki.Dat0
import proofs.«171171_j81080392613941_2_alg».proof.Proof.Ki.Dat1
import proofs.«171171_j81080392613941_2_alg».proof.Proof.Ki.Dat2
import proofs.«171171_j81080392613941_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers as kernel 0 finds them. -/
abbrev Vr1 (c : Dev nD) (b : Ref sig .tc) : Buf (Elt F) ((c : Thread nD τ).loc b) := V1 m c b
/-- What kernel 0 leaves in its result array. -/
def o0 (c : Dev nD) : Buf (Elt F) ((c : Thread nD τ).loc main_v7) := (dat0 (Vr1 m) c).arrAt 4 cfg0.N
/-- The regions' results, the first only. -/
def outsA : Outs (F := F) := fun _ r c => Function.update (V1 m c) main_v7 (o0 m c) r
/-- The buffers as kernel 1 finds them. -/
abbrev Vr3 (c : Dev nD) (b : Ref sig .tc) : Buf (Elt F) ((c : Thread nD τ).loc b) := V3 m (outsA m) c b
/-- What kernel 1 leaves in its result array. -/
def o1 (c : Dev nD) : Buf (Elt F) ((c : Thread nD τ).loc main_v17) := (dat1 (Vr3 m) c).arrAt 4 cfg1.N
/-- The regions' results, the first two. -/
def outsB : Outs (F := F) := fun J r c => match J with
  | 4 => Function.update (V3 m (outsA m) c) main_v17 (o1 m c) r
  | _ => outsA m J r c
/-- The buffers as kernel 2 finds them. -/
abbrev Vr5 (c : Dev nD) (b : Ref sig .tc) : Buf (Elt F) ((c : Thread nD τ).loc b) := V5 m (outsB m) c b
/-- What kernel 2 leaves in its result array. -/
def o2 (c : Dev nD) : Buf (Elt F) ((c : Thread nD τ).loc main_v27) := (dat2 (Vr5 m) c).arrAt 4 cfg2.N
/-- The regions' results. -/
def outs : Outs (F := F) := fun J r c => match J with
  | 6 => Function.update (V5 m (outsB m) c) main_v27 (o2 m c) r
  | _ => outsB m J r c

theorem outs_2 (c : Dev nD) : outs m 2 main_v7 c = o0 m c := by
  show Function.update (V1 m c) main_v7 (o0 m c) main_v7 = o0 m c
  exact Function.update_self _ _ _
theorem outs_4 (c : Dev nD) : outs m 4 main_v17 c = o1 m c := by
  show Function.update (V3 m (outsA m) c) main_v17 (o1 m c) main_v17 = o1 m c
  exact Function.update_self _ _ _
theorem outs_6 (c : Dev nD) : outs m 6 main_v27 c = o2 m c := by
  show Function.update (V5 m (outsB m) c) main_v27 (o2 m c) main_v27 = o2 m c
  exact Function.update_self _ _ _

theorem outsB_2 (c : Dev nD) : outsB m 2 main_v7 c = outsA m 2 main_v7 c := rfl
theorem outs_2' (c : Dev nD) : outs m 2 main_v7 c = outsA m 2 main_v7 c := rfl
theorem outs_4' (c : Dev nD) : outs m 4 main_v17 c = outsB m 4 main_v17 c := rfl

/-- The contents before kernel 1 do not depend on the later results. -/
theorem V3_outs (c : Dev nD) : V3 m (outs m) c = V3 m (outsA m) c := by
  show StableHlo.after hostOps1 (Function.update (V1 m c) main_v7 (outs m 2 main_v7 c)) = StableHlo.after hostOps1 (Function.update (V1 m c) main_v7 (outsA m 2 main_v7 c))
  rw [outs_2']
theorem V3_outsB (c : Dev nD) : V3 m (outsB m) c = V3 m (outsA m) c := by
  show StableHlo.after hostOps1 (Function.update (V1 m c) main_v7 (outsB m 2 main_v7 c)) = StableHlo.after hostOps1 (Function.update (V1 m c) main_v7 (outsA m 2 main_v7 c))
  rw [outsB_2]
/-- The contents before kernel 2 do not depend on its own result. -/
theorem V5_outs (c : Dev nD) : V5 m (outs m) c = V5 m (outsB m) c := by
  show StableHlo.after hostOps2 (Function.update (V3 m (outs m) c) main_v17 (outs m 4 main_v17 c)) = StableHlo.after hostOps2 (Function.update (V3 m (outsB m) c) main_v17 (outsB m 4 main_v17 c))
  rw [V3_outs, V3_outsB, outs_4']

/-- Every pipeline's proof data, each at its region's entry contents. -/
def pdats : (p : Fin 3) → (c : Dev nD) → Dat τ (Elt F) Unit ℕ (UR sig nD τ) ℕ (cfgs p) c
  | ⟨0, _⟩ => fun c => dat0 (Vr1 m) c
  | ⟨1, _⟩ => fun c => dat1 (Vr3 m) c
  | ⟨2, _⟩ => fun c => dat2 (Vr5 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core owing nothing. -/
abbrev Rr (c : Dev nD) : sProp 𝕄 := iprop((∃ r, prngReg c r) ∗ ∃ W, owes (c : Thread nD τ) (0 : CellTallies nD τ sig Unit) W)

end Cert.KernelIdeal.Hand

end
-- ==== Proof.Ki.Reg0.lean ====
/-
  Kernel 0's region over the thread state "every unscoped buffer of the core at the boundary's contents, the generator
  register at some state, nothing owed": entered by taking the kernel's operand and result arrays out of the unscoped
  buffers — the array two windows read is split into two half shares, one per window — and left by putting them back, the result array at what the
  write-backs of the accumulator block leave.
-/
import proofs.«171171_j81080392613941_2_alg».proof.Proof.Ki.Pd

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A valuation of the core's buffers read at the TensorCore's references. -/
abbrev Wr0 (W : Valuation τ sig (Elt F)) (c : Dev nD) (b : Ref sig .tc) : Buf (Elt F) ((c : Thread nD τ).loc b) := W (Proc.devRef .tc b)

section Arrays

variable (V : (c : Dev nD) → (b : Ref sig .tc) → Buf (Elt F) ((c : Thread nD τ).loc b))

/-- The distinct buffers behind kernel 0's arrays, each held whole at contents `W`, are the pipeline's arrays at those
    contents: the buffer two input windows share is held by each at half. -/
theorem arrays0_iff (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      ⊣⊢ (dat0 V c).arrays (fun w => W (Pipeline.arrRef spec0 w)) := by
  unfold Pipeline.arrBufs Dat.arrays
  rw [bigSep_W0]
  rw [bigSep_eq_bigSepL_of_eq [main_arg0, main_v2, main_v6, main_v7] (by decide) (by decide)]
  rw [show (bigSepL [main_arg0, main_v2, main_v6, main_v7] fun b => (((c : Thread nD τ).loc b) ↦{fullShare} W b : sProp 𝕄))
    = iprop((((c : Thread nD τ).loc main_arg0) ↦{fullShare} W main_arg0) ∗ (((c : Thread nD τ).loc main_v2) ↦{fullShare} W main_v2) ∗ (((c : Thread nD τ).loc main_v6) ↦{fullShare} W main_v6) ∗ (((c : Thread nD τ).loc main_v7) ↦{fullShare} W main_v7)) from rfl]
  rw [(arr_whole0 0).set_eq_univ]; try rw [(arr_whole0 1).set_eq_univ]
  rw [(arr_whole0 2).set_eq_univ, (arr_whole0 3).set_eq_univ, (arr_whole0 4).set_eq_univ]
  rw [show (dat0 V c).share 0 = fullShare.left from rfl, show (dat0 V c).share 1 = fullShare.right from rfl,
    show (dat0 V c).share 2 = fullShare from rfl, show (dat0 V c).share 3 = fullShare from rfl, show (dat0 V c).share 4 = fullShare from rfl]
  have hs : (((c : Thread nD τ).loc main_arg0) ↦{fullShare} W main_arg0 : sProp 𝕄)
      ⊣⊢ iprop((((c : Thread nD τ).loc main_arg0) ↦{fullShare.left} W main_arg0) ∗ ((c : Thread nD τ).loc main_arg0) ↦{fullShare.right} W main_arg0) :=
    pointsTo_share (PosShare.mem_left_op_right fullShare)
  constructor
  · iintro ⟨Ha, H2, H6, H7⟩
    ihave Ha' := hs.1 $$ Ha
    icases Ha' with ⟨Hl, Hr⟩
    isplitl [Hl]; · iexact Hl
    isplitl [Hr]; · iexact Hr
    isplitl [H2]; · iexact H2
    isplitl [H6]; · iexact H6
    iexact H7
  · iintro ⟨Hl, Hr, H2, H6, H7⟩
    isplitl [Hl Hr]
    · iapply hs.2; isplitl [Hl]; · iexact Hl
      iexact Hr
    isplitl [H2]; · iexact H2
    isplitl [H6]; · iexact H6
    iexact H7

/-- The core's unscoped buffers are the buffers behind kernel 0's arrays and the rest. -/
theorem bufs0_split (c : Dev nD) (W : (b : Ref sig .tc) → Buf (Elt F) ((c : Thread nD τ).loc b)) :
    (unscopedBufs c W : sProp 𝕄) = iprop(Pipeline.arrBufs spec0 c W ∗ Pipeline.unscopedRest spec0 c W) := by
  classical
  have hA : Finset.univ.image (Pipeline.arrRef spec0) ⊆ Finset.univ.filter fun b : Ref sig .tc => ¬ b.isScoped := fun b hb => by
    obtain ⟨w, -, rfl⟩ := Finset.mem_image.mp hb
    exact Finset.mem_filter.mpr ⟨Finset.mem_univ _, by simp [winFacts₀0.arr_unscoped w]⟩
  unfold unscopedBufs Pipeline.unscopedRest Pipeline.arrBufs
  rw [bigSep_sdiff_split hA]
  rfl

/-- The core's unscoped buffers at `W` are kernel 0's arrays at `W` and the other unscoped buffers. -/
theorem bufs0_iff (c : Dev nD) (W : (b : Ref sig .tc) → Buf (Elt F) ((c : Thread nD τ).loc b)) :
    (unscopedBufs c W : sProp 𝕄)
      ⊣⊢ iprop((dat0 V c).arrays (fun w => W (Pipeline.arrRef spec0 w))
          ∗ Pipeline.unscopedRest (Ix := Unit) (Name := ℕ) (U := UR sig nD τ) (Lvl := ℕ) spec0 c W) := by
  rw [bufs0_split]
  exact ⟨sep_mono (arrays0_iff V c _).1 .rfl, sep_mono (arrays0_iff V c _).2 .rfl⟩

end Arrays

variable (m : (ℓ : Loc nD τ sig) → Buf (Elt F) ℓ)

/-- The result array's contents after the region are the region's result. -/
theorem V2_out (c : Dev nD) : V2 m (outs m) c main_v7 = outs m 2 main_v7 c := by
  simp only [V2, Function.update_self]

/-- At entry the arrays hold the boundary's contents. -/
theorem arr0_entry (c : Dev nD) : (fun w => (pdats m 0 c).arrAt w 0) = fun w => Wr0 (V1 m c) c (Pipeline.arrRef spec0 w) := by
  funext w; exact A_eq0 (Vr1 m) c w

/-- At exit the input arrays are as entered and the result array holds what the write-backs leave: the next boundary's
    contents, which differ from the entry's at the result array only. -/
theorem arr0_exit (c : Dev nD) : (fun w => (pdats m 0 c).arrAt w cfg0.N) = fun w => Wr0 (V2 m (outs m) c) c (Pipeline.arrRef spec0 w) := by
  funext w
  match w with
  | ⟨0, _⟩ => exact ((dat0 (Vr1 m) c).arrAt_in 0 rfl _).trans ((A_eq0 (Vr1 m) c 0).trans (V2_of m (outs m) c main_arg0 (by decide)).symm)
  | ⟨1, _⟩ => exact ((dat0 (Vr1 m) c).arrAt_in 1 rfl _).trans ((A_eq0 (Vr1 m) c 1).trans (V2_of m (outs m) c main_arg0 (by decide)).symm)
  | ⟨2, _⟩ => exact ((dat0 (Vr1 m) c).arrAt_in 2 rfl _).trans ((A_eq0 (Vr1 m) c 2).trans (V2_of m (outs m) c main_v2 (by decide)).symm)
  | ⟨3, _⟩ => exact ((dat0 (Vr1 m) c).arrAt_in 3 rfl _).trans ((A_eq0 (Vr1 m) c 3).trans (V2_of m (outs m) c main_v6 (by decide)).symm)
  | ⟨4, _⟩ => exact (show (dat0 (Vr1 m) c).arrAt 4 cfg0.N = o0 m c from rfl).trans ((outs_2 m c).symm.trans (V2_out m c).symm)

/-- Off the result array the two boundaries' contents agree. -/
theorem rest0_eq (c : Dev nD) :
    (Pipeline.unscopedRest (Ix := Unit) (Name := ℕ) (U := UR sig nD τ) (Lvl := ℕ) spec0 c (Wr0 (V2 m (outs m) c) c) : sProp 𝕄)
      = Pipeline.unscopedRest spec0 c (Wr0 (V1 m c) c) := by
  unfold Pipeline.unscopedRest
  refine bigSep_congr fun b hb => ?_
  have hne : b ≠ main_v7 := fun h => (Finset.mem_sdiff.mp hb).2 (h ▸ Finset.mem_image.mpr ⟨4, Finset.mem_univ _, rfl⟩)
  dsimp only [Wr0]
  rw [V2_of m (outs m) c b (by simpa using hne)]

/-- Entering: the unscoped buffers at the boundary's contents give the arrays at the proof data's entry contents and the rest. -/
theorem enter0 (c : Dev nD) : (StableHlo.held (c : Thread nD τ) (Pipeline.ucRefs τ sig) (V1 m c) : sProp 𝕄)
    ⊢ iprop((pdats m 0 c).arrays (fun w => (pdats m 0 c).arrAt w 0)
      ∗ Pipeline.unscopedRest (Ix := Unit) (Name := ℕ) (U := UR sig nD τ) (Lvl := ℕ) spec0 c (Wr0 (V1 m c) c)) := by
  rw [arr0_entry m c, ← Pipeline.unscopedBufs_held (Ix := Unit) (Name := ℕ) (U := UR sig nD τ) (Lvl := ℕ) c (V1 m c)]
  exact (bufs0_iff (Vr1 m) c (Wr0 (V1 m c) c)).1

/-- Leaving: the arrays at what the pipeline leaves and the rest as entered are the unscoped buffers at the next boundary's contents. -/
theorem leave0 (c : Dev nD) : iprop((pdats m 0 c).arrays (fun w => (pdats m 0 c).arrAt w cfg0.N)
      ∗ Pipeline.unscopedRest (Ix := Unit) (Name := ℕ) (U := UR sig nD τ) (Lvl := ℕ) spec0 c (Wr0 (V1 m c) c))
    ⊢ (StableHlo.held (c : Thread nD τ) (Pipeline.ucRefs τ sig) (V2 m (outs m) c) : sProp 𝕄) := by
  rw [arr0_exit m c, ← rest0_eq m c, ← Pipeline.unscopedBufs_held (Ix := Unit) (Name := ℕ) (U := UR sig nD τ) (Lvl := ℕ) c (V2 m (outs m) c)]
  exact (bufs0_iff (Vr1 m) c (Wr0 (V2 m (outs m) c) c)).2

set_option backward.isDefEq.respectTransparency.types false in
/-- REGION 0 over the thread state. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (Wr0 (V1 m c) c)
  hentry c := by
    rw [Pipeline.ownSems0_none]
    have hsplit := enter0 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := leave0 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Ki.Reg1.lean ====
/-
  Kernel 1's region over the thread state "every unscoped buffer of the core at the boundary's contents, the generator
  register at some state, nothing owed": entered by taking the kernel's operand and result arrays out of the unscoped
  buffers — the array two windows read is split into two half shares, one per window — and left by putting them back, the result array at what the
  write-backs of the accumulator block leave.
-/
import proofs.«171171_j81080392613941_2_alg».proof.Proof.Ki.Pd

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A valuation of the core's buffers read at the TensorCore's references. -/
abbrev Wr1 (W : Valuation τ sig (Elt F)) (c : Dev nD) (b : Ref sig .tc) : Buf (Elt F) ((c : Thread nD τ).loc b) := W (Proc.devRef .tc b)

section Arrays

variable (V : (c : Dev nD) → (b : Ref sig .tc) → Buf (Elt F) ((c : Thread nD τ).loc b))

set_option maxHeartbeats 8000000 in
/-- The distinct buffers behind kernel 1's arrays, each held whole at contents `W`, are the pipeline's arrays at those
    contents: the buffer two input windows share is held by each at half. -/
theorem arrays1_iff (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      ⊣⊢ (dat1 V c).arrays (fun w => W (Pipeline.arrRef spec1 w)) := by
  unfold Pipeline.arrBufs Dat.arrays
  rw [bigSep_W1]
  rw [bigSep_eq_bigSepL_of_eq [main_arg1, main_v12, main_v16, main_v17] (by decide) (by decide)]
  rw [show (bigSepL [main_arg1, main_v12, main_v16, main_v17] fun b => (((c : Thread nD τ).loc b) ↦{fullShare} W b : sProp 𝕄))
    = iprop((((c : Thread nD τ).loc main_arg1) ↦{fullShare} W main_arg1) ∗ (((c : Thread nD τ).loc main_v12) ↦{fullShare} W main_v12) ∗ (((c : Thread nD τ).loc main_v16) ↦{fullShare} W main_v16) ∗ (((c : Thread nD τ).loc main_v17) ↦{fullShare} W main_v17)) from rfl]
  rw [(arr_whole1 0).set_eq_univ]; try rw [(arr_whole1 1).set_eq_univ]
  rw [(arr_whole1 2).set_eq_univ, (arr_whole1 3).set_eq_univ, (arr_whole1 4).set_eq_univ]
  rw [show (dat1 V c).share 0 = fullShare.left from rfl, show (dat1 V c).share 1 = fullShare.right from rfl,
    show (dat1 V c).share 2 = fullShare from rfl, show (dat1 V c).share 3 = fullShare from rfl, show (dat1 V c).share 4 = fullShare from rfl]
  have hs : (((c : Thread nD τ).loc main_arg1) ↦{fullShare} W main_arg1 : sProp 𝕄)
      ⊣⊢ iprop((((c : Thread nD τ).loc main_arg1) ↦{fullShare.left} W main_arg1) ∗ ((c : Thread nD τ).loc main_arg1) ↦{fullShare.right} W main_arg1) :=
    pointsTo_share (PosShare.mem_left_op_right fullShare)
  constructor
  · iintro ⟨Ha, H2, H6, H7⟩
    ihave Ha' := hs.1 $$ Ha
    icases Ha' with ⟨Hl, Hr⟩
    isplitl [Hl]; · iexact Hl
    isplitl [Hr]; · iexact Hr
    isplitl [H2]; · iexact H2
    isplitl [H6]; · iexact H6
    iexact H7
  · iintro ⟨Hl, Hr, H2, H6, H7⟩
    isplitl [Hl Hr]
    · iapply hs.2; isplitl [Hl]; · iexact Hl
      iexact Hr
    isplitl [H2]; · iexact H2
    isplitl [H6]; · iexact H6
    iexact H7

/-- The core's unscoped buffers are the buffers behind kernel 1's arrays and the rest. -/
theorem bufs1_split (c : Dev nD) (W : (b : Ref sig .tc) → Buf (Elt F) ((c : Thread nD τ).loc b)) :
    (unscopedBufs c W : sProp 𝕄) = iprop(Pipeline.arrBufs spec1 c W ∗ Pipeline.unscopedRest spec1 c W) := by
  classical
  have hA : Finset.univ.image (Pipeline.arrRef spec1) ⊆ Finset.univ.filter fun b : Ref sig .tc => ¬ b.isScoped := fun b hb => by
    obtain ⟨w, -, rfl⟩ := Finset.mem_image.mp hb
    exact Finset.mem_filter.mpr ⟨Finset.mem_univ _, by simp [winFacts₀1.arr_unscoped w]⟩
  unfold unscopedBufs Pipeline.unscopedRest Pipeline.arrBufs
  rw [bigSep_sdiff_split hA]
  rfl

/-- The core's unscoped buffers at `W` are kernel 1's arrays at `W` and the other unscoped buffers. -/
theorem bufs1_iff (c : Dev nD) (W : (b : Ref sig .tc) → Buf (Elt F) ((c : Thread nD τ).loc b)) :
    (unscopedBufs c W : sProp 𝕄)
      ⊣⊢ iprop((dat1 V c).arrays (fun w => W (Pipeline.arrRef spec1 w))
          ∗ Pipeline.unscopedRest (Ix := Unit) (Name := ℕ) (U := UR sig nD τ) (Lvl := ℕ) spec1 c W) := by
  rw [bufs1_split]
  exact ⟨sep_mono (arrays1_iff V c _).1 .rfl, sep_mono (arrays1_iff V c _).2 .rfl⟩

end Arrays

variable (m : (ℓ : Loc nD τ sig) → Buf (Elt F) ℓ)

/-- The result array's contents after the region are the region's result. -/
theorem V4_out (c : Dev nD) : V4 m (outs m) c main_v17 = outs m 4 main_v17 c := by
  simp only [V4, Function.update_self]

/-- At entry the arrays hold the boundary's contents. -/
theorem arr1_entry (c : Dev nD) : (fun w => (pdats m 1 c).arrAt w 0) = fun w => Wr1 (V3 m (outs m) c) c (Pipeline.arrRef spec1 w) := by
  funext w; exact (A_eq1 (Vr3 m) c w).trans (congrFun (V3_outs m c) _).symm

/-- At exit the input arrays are as entered and the result array holds what the write-backs leave: the next boundary's
    contents, which differ from the entry's at the result array only. -/
theorem arr1_exit (c : Dev nD) : (fun w => (pdats m 1 c).arrAt w cfg1.N) = fun w => Wr1 (V4 m (outs m) c) c (Pipeline.arrRef spec1 w) := by
  funext w
  match w with
  | ⟨0, _⟩ => exact ((dat1 (Vr3 m) c).arrAt_in 0 rfl _).trans ((A_eq1 (Vr3 m) c 0).trans ((congrFun (V3_outs m c) _).symm.trans (V4_of m (outs m) c main_arg1 (by decide)).symm))
  | ⟨1, _⟩ => exact ((dat1 (Vr3 m) c).arrAt_in 1 rfl _).trans ((A_eq1 (Vr3 m) c 1).trans ((congrFun (V3_outs m c) _).symm.trans (V4_of m (outs m) c main_arg1 (by decide)).symm))
  | ⟨2, _⟩ => exact ((dat1 (Vr3 m) c).arrAt_in 2 rfl _).trans ((A_eq1 (Vr3 m) c 2).trans ((congrFun (V3_outs m c) _).symm.trans (V4_of m (outs m) c main_v12 (by decide)).symm))
  | ⟨3, _⟩ => exact ((dat1 (Vr3 m) c).arrAt_in 3 rfl _).trans ((A_eq1 (Vr3 m) c 3).trans ((congrFun (V3_outs m c) _).symm.trans (V4_of m (outs m) c main_v16 (by decide)).symm))
  | ⟨4, _⟩ => exact (show (dat1 (Vr3 m) c).arrAt 4 cfg1.N = o1 m c from rfl).trans ((outs_4 m c).symm.trans (V4_out m c).symm)

/-- Off the result array the two boundaries' contents agree. -/
theorem rest1_eq (c : Dev nD) :
    (Pipeline.unscopedRest (Ix := Unit) (Name := ℕ) (U := UR sig nD τ) (Lvl := ℕ) spec1 c (Wr1 (V4 m (outs m) c) c) : sProp 𝕄)
      = Pipeline.unscopedRest spec1 c (Wr1 (V3 m (outs m) c) c) := by
  unfold Pipeline.unscopedRest
  refine bigSep_congr fun b hb => ?_
  have hne : b ≠ main_v17 := fun h => (Finset.mem_sdiff.mp hb).2 (h ▸ Finset.mem_image.mpr ⟨4, Finset.mem_univ _, rfl⟩)
  dsimp only [Wr1]
  rw [V4_of m (outs m) c b (by simpa using hne)]

/-- Entering: the unscoped buffers at the boundary's contents give the arrays at the proof data's entry contents and the rest. -/
theorem enter1 (c : Dev nD) : (StableHlo.held (c : Thread nD τ) (Pipeline.ucRefs τ sig) (V3 m (outs m) c) : sProp 𝕄)
    ⊢ iprop((pdats m 1 c).arrays (fun w => (pdats m 1 c).arrAt w 0)
      ∗ Pipeline.unscopedRest (Ix := Unit) (Name := ℕ) (U := UR sig nD τ) (Lvl := ℕ) spec1 c (Wr1 (V3 m (outs m) c) c)) := by
  rw [arr1_entry m c, ← Pipeline.unscopedBufs_held (Ix := Unit) (Name := ℕ) (U := UR sig nD τ) (Lvl := ℕ) c (V3 m (outs m) c)]
  exact (bufs1_iff (Vr3 m) c (Wr1 (V3 m (outs m) c) c)).1

/-- Leaving: the arrays at what the pipeline leaves and the rest as entered are the unscoped buffers at the next boundary's contents. -/
theorem leave1 (c : Dev nD) : iprop((pdats m 1 c).arrays (fun w => (pdats m 1 c).arrAt w cfg1.N)
      ∗ Pipeline.unscopedRest (Ix := Unit) (Name := ℕ) (U := UR sig nD τ) (Lvl := ℕ) spec1 c (Wr1 (V3 m (outs m) c) c))
    ⊢ (StableHlo.held (c : Thread nD τ) (Pipeline.ucRefs τ sig) (V4 m (outs m) c) : sProp 𝕄) := by
  rw [arr1_exit m c, ← rest1_eq m c, ← Pipeline.unscopedBufs_held (Ix := Unit) (Name := ℕ) (U := UR sig nD τ) (Lvl := ℕ) c (V4 m (outs m) c)]
  exact (bufs1_iff (Vr3 m) c (Wr1 (V4 m (outs m) c) c)).2

set_option backward.isDefEq.respectTransparency.types false in
/-- REGION 1 over the thread state. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vr3 m) c).loose
  hwaits := Pipeline.hwaits_of_owed_zero _ _ _ _ L lv 1 fun _ _ => rfl
  pre c := iprop(StableHlo.held (c : Thread nD τ) (Pipeline.ucRefs τ sig) (V3 m (outs m) c) ∗ Rr c)
  post c := iprop(StableHlo.held (c : Thread nD τ) (Pipeline.ucRefs τ sig) (V4 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (Wr1 (V3 m (outs m) c) c)
  hentry c := by
    rw [Pipeline.ownSems0_none]
    have hsplit := enter1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := leave1 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Ki.Reg2.lean ====
/-
  Kernel 2's region over the thread state "every unscoped buffer of the core at the boundary's contents, the generator
  register at some state, nothing owed": entered by taking the kernel's operand and result arrays out of the unscoped
  buffers and left by putting them back, the result array at what the
  write-backs of the accumulator block leave.
-/
import proofs.«171171_j81080392613941_2_alg».proof.Proof.Ki.Pd

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A valuation of the core's buffers read at the TensorCore's references. -/
abbrev Wr2 (W : Valuation τ sig (Elt F)) (c : Dev nD) (b : Ref sig .tc) : Buf (Elt F) ((c : Thread nD τ).loc b) := W (Proc.devRef .tc b)

section Arrays

variable (V : (c : Dev nD) → (b : Ref sig .tc) → Buf (Elt F) ((c : Thread nD τ).loc b))

set_option maxHeartbeats 8000000 in
/-- The distinct buffers behind kernel 2's arrays, each held whole at contents `W`, are the pipeline's arrays at those
    contents. -/
theorem arrays2_iff (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      ⊣⊢ (dat2 V c).arrays (fun w => W (Pipeline.arrRef spec2 w)) := by
  unfold Pipeline.arrBufs Dat.arrays
  rw [bigSep_W2]
  rw [bigSep_eq_bigSepL_of_eq [main_arg0, main_arg1, main_v22, main_v26, main_v27] (by decide) (by decide)]
  rw [show (bigSepL [main_arg0, main_arg1, main_v22, main_v26, main_v27] fun b => (((c : Thread nD τ).loc b) ↦{fullShare} W b : sProp 𝕄))
    = iprop((((c : Thread nD τ).loc main_arg0) ↦{fullShare} W main_arg0) ∗ (((c : Thread nD τ).loc main_arg1) ↦{fullShare} W main_arg1) ∗ (((c : Thread nD τ).loc main_v22) ↦{fullShare} W main_v22) ∗ (((c : Thread nD τ).loc main_v26) ↦{fullShare} W main_v26) ∗ (((c : Thread nD τ).loc main_v27) ↦{fullShare} W main_v27)) from rfl]
  rw [(arr_whole2 0).set_eq_univ]; try rw [(arr_whole2 1).set_eq_univ]
  rw [(arr_whole2 2).set_eq_univ, (arr_whole2 3).set_eq_univ, (arr_whole2 4).set_eq_univ]
  rw [(dat2 V c).share_full (fun _ => rfl) 0, (dat2 V c).share_full (fun _ => rfl) 1, (dat2 V c).share_full (fun _ => rfl) 2,
    (dat2 V c).share_full (fun _ => rfl) 3, (dat2 V c).share_full (fun _ => rfl) 4]

/-- The core's unscoped buffers are the buffers behind kernel 2's arrays and the rest. -/
theorem bufs2_split (c : Dev nD) (W : (b : Ref sig .tc) → Buf (Elt F) ((c : Thread nD τ).loc b)) :
    (unscopedBufs c W : sProp 𝕄) = iprop(Pipeline.arrBufs spec2 c W ∗ Pipeline.unscopedRest spec2 c W) := by
  classical
  have hA : Finset.univ.image (Pipeline.arrRef spec2) ⊆ Finset.univ.filter fun b : Ref sig .tc => ¬ b.isScoped := fun b hb => by
    obtain ⟨w, -, rfl⟩ := Finset.mem_image.mp hb
    exact Finset.mem_filter.mpr ⟨Finset.mem_univ _, by simp [winFacts2.to₀.arr_unscoped w]⟩
  unfold unscopedBufs Pipeline.unscopedRest Pipeline.arrBufs
  rw [bigSep_sdiff_split hA]
  rfl

/-- The core's unscoped buffers at `W` are kernel 2's arrays at `W` and the other unscoped buffers. -/
theorem bufs2_iff (c : Dev nD) (W : (b : Ref sig .tc) → Buf (Elt F) ((c : Thread nD τ).loc b)) :
    (unscopedBufs c W : sProp 𝕄)
      ⊣⊢ iprop((dat2 V c).arrays (fun w => W (Pipeline.arrRef spec2 w))
          ∗ Pipeline.unscopedRest (Ix := Unit) (Name := ℕ) (U := UR sig nD τ) (Lvl := ℕ) spec2 c W) := by
  rw [bufs2_split]
  exact ⟨sep_mono (arrays2_iff V c _).1 .rfl, sep_mono (arrays2_iff V c _).2 .rfl⟩

end Arrays

variable (m : (ℓ : Loc nD τ sig) → Buf (Elt F) ℓ)

/-- The result array's contents after the region are the region's result. -/
theorem V6_out (c : Dev nD) : V6 m (outs m) c main_v27 = outs m 6 main_v27 c := by
  simp only [V6, Function.update_self]

/-- At entry the arrays hold the boundary's contents. -/
theorem arr2_entry (c : Dev nD) : (fun w => (pdats m 2 c).arrAt w 0) = fun w => Wr2 (V5 m (outs m) c) c (Pipeline.arrRef spec2 w) := by
  funext w; exact (A_eq2 (Vr5 m) c w).trans (congrFun (V5_outs m c) _).symm

/-- At exit the input arrays are as entered and the result array holds what the write-backs leave: the next boundary's
    contents, which differ from the entry's at the result array only. -/
theorem arr2_exit (c : Dev nD) : (fun w => (pdats m 2 c).arrAt w cfg2.N) = fun w => Wr2 (V6 m (outs m) c) c (Pipeline.arrRef spec2 w) := by
  funext w
  match w with
  | ⟨0, _⟩ => exact ((dat2 (Vr5 m) c).arrAt_in 0 rfl _).trans ((A_eq2 (Vr5 m) c 0).trans ((congrFun (V5_outs m c) _).symm.trans (V6_of m (outs m) c main_arg0 (by decide)).symm))
  | ⟨1, _⟩ => exact ((dat2 (Vr5 m) c).arrAt_in 1 rfl _).trans ((A_eq2 (Vr5 m) c 1).trans ((congrFun (V5_outs m c) _).symm.trans (V6_of m (outs m) c main_arg1 (by decide)).symm))
  | ⟨2, _⟩ => exact ((dat2 (Vr5 m) c).arrAt_in 2 rfl _).trans ((A_eq2 (Vr5 m) c 2).trans ((congrFun (V5_outs m c) _).symm.trans (V6_of m (outs m) c main_v22 (by decide)).symm))
  | ⟨3, _⟩ => exact ((dat2 (Vr5 m) c).arrAt_in 3 rfl _).trans ((A_eq2 (Vr5 m) c 3).trans ((congrFun (V5_outs m c) _).symm.trans (V6_of m (outs m) c main_v26 (by decide)).symm))
  | ⟨4, _⟩ => exact (show (dat2 (Vr5 m) c).arrAt 4 cfg2.N = o2 m c from rfl).trans ((outs_6 m c).symm.trans (V6_out m c).symm)

/-- Off the result array the two boundaries' contents agree. -/
theorem rest2_eq (c : Dev nD) :
    (Pipeline.unscopedRest (Ix := Unit) (Name := ℕ) (U := UR sig nD τ) (Lvl := ℕ) spec2 c (Wr2 (V6 m (outs m) c) c) : sProp 𝕄)
      = Pipeline.unscopedRest spec2 c (Wr2 (V5 m (outs m) c) c) := by
  unfold Pipeline.unscopedRest
  refine bigSep_congr fun b hb => ?_
  have hne : b ≠ main_v27 := fun h => (Finset.mem_sdiff.mp hb).2 (h ▸ Finset.mem_image.mpr ⟨4, Finset.mem_univ _, rfl⟩)
  dsimp only [Wr2]
  rw [V6_of m (outs m) c b (by simpa using hne)]

/-- Entering: the unscoped buffers at the boundary's contents give the arrays at the proof data's entry contents and the rest. -/
theorem enter2 (c : Dev nD) : (StableHlo.held (c : Thread nD τ) (Pipeline.ucRefs τ sig) (V5 m (outs m) c) : sProp 𝕄)
    ⊢ iprop((pdats m 2 c).arrays (fun w => (pdats m 2 c).arrAt w 0)
      ∗ Pipeline.unscopedRest (Ix := Unit) (Name := ℕ) (U := UR sig nD τ) (Lvl := ℕ) spec2 c (Wr2 (V5 m (outs m) c) c)) := by
  rw [arr2_entry m c, ← Pipeline.unscopedBufs_held (Ix := Unit) (Name := ℕ) (U := UR sig nD τ) (Lvl := ℕ) c (V5 m (outs m) c)]
  exact (bufs2_iff (Vr5 m) c (Wr2 (V5 m (outs m) c) c)).1

/-- Leaving: the arrays at what the pipeline leaves and the rest as entered are the unscoped buffers at the next boundary's contents. -/
theorem leave2 (c : Dev nD) : iprop((pdats m 2 c).arrays (fun w => (pdats m 2 c).arrAt w cfg2.N)
      ∗ Pipeline.unscopedRest (Ix := Unit) (Name := ℕ) (U := UR sig nD τ) (Lvl := ℕ) spec2 c (Wr2 (V5 m (outs m) c) c))
    ⊢ (StableHlo.held (c : Thread nD τ) (Pipeline.ucRefs τ sig) (V6 m (outs m) c) : sProp 𝕄) := by
  rw [arr2_exit m c, ← rest2_eq m c, ← Pipeline.unscopedBufs_held (Ix := Unit) (Name := ℕ) (U := UR sig nD τ) (Lvl := ℕ) c (V6 m (outs m) c)]
  exact (bufs2_iff (Vr5 m) c (Wr2 (V6 m (outs m) c) c)).2

set_option backward.isDefEq.respectTransparency.types false in
/-- REGION 2 over the thread state. -/
def reg2 : Pipeline.RegionSeg (pcfgs (F := F)) adm (pdats m) () defs₀ 𝒱₀ L lv 2 where
  win := winFacts2.to₀
  block_pos := block_pos2
  stage_whole := stage_whole2
  K := PEmpty
  osem k := k.elim
  ho := Pipeline.OwnSemFacts.none _
  hbody c := (body_obligation2 (Vr5 m) c).loose
  hwaits := Pipeline.hwaits_of_owed_zero _ _ _ _ L lv 2 fun _ _ => rfl
  pre c := iprop(StableHlo.held (c : Thread nD τ) (Pipeline.ucRefs τ sig) (V5 m (outs m) c) ∗ Rr c)
  post c := iprop(StableHlo.held (c : Thread nD τ) (Pipeline.ucRefs τ sig) (V6 m (outs m) c) ∗ Rr c)
  X c := iprop(∃ r, prngReg c r)
  Y c := iprop(∃ r, prngReg c r)
  Z c := Pipeline.unscopedRest (Ix := Unit) (Name := ℕ) (U := UR sig nD τ) (Lvl := ℕ) spec2 c (Wr2 (V5 m (outs m) c) c)
  hentry c := by
    rw [Pipeline.ownSems0_none]
    have hsplit := enter2 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := leave2 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Ki.Run.lean ====
/-
  The whole program run: every weakly fair execution terminates, nothing faulting, the two argument arrays end as
  launched, and the result buffer ends holding what the last stretch of host operations computes from the three
  kernels' results. The program is a chain of four stretches of host operations and three kernel regions; each
  region is entered from the contents the stretch before it leaves and left at those contents with the kernel's
  result array replaced by what the pipeline's write-backs leave there.
-/
import proofs.«171171_j81080392613941_2_alg».proof.Proof.Ki.Reg0
import proofs.«171171_j81080392613941_2_alg».proof.Proof.Ki.Reg1
import proofs.«171171_j81080392613941_2_alg».proof.Proof.Ki.Reg2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

section Cond

variable (m : (ℓ : Loc nD τ sig) → Buf (Elt F) ℓ)

set_option backward.isDefEq.respectTransparency.types false in
/-- The run, given the regions' records: as the conditional frame, with the result buffer read off the last contents too. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c)) :
    θ_run defs (onTc (τ := τ) (main (F := F))) ⟨m, fun _ => 0, ρ⟩ (fun r => ∀ c : Dev nD,
      r.2.mem ((c.tc : Thread nD τ).loc main_v34) = V7 m outs c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨.rfl, hpre0 c, hpost0 c, hpre1 c, hpost1 c, hpre2 c, hpost2 c, sep_mono .rfl (hE3 c)⟩)
    (hinit := ?_) (QY := fun c s => s.mem ((c.tc : Thread nD τ).loc main_v34) = V7 m outs c main_v34 ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro
      exact ⟨h (Proc.devRef .tc main_v34) (Finset.mem_filter.mpr ⟨StableHlo.devRef_mem_tcRefs main_v34, by decide⟩),
        (h (Proc.devRef .tc main_arg0) (Finset.mem_filter.mpr ⟨StableHlo.devRef_mem_tcRefs main_arg0, by decide⟩)).trans (V7_main_arg0 m outs c),
        (h (Proc.devRef .tc main_arg1) (Finset.mem_filter.mpr ⟨StableHlo.devRef_mem_tcRefs main_arg1, by decide⟩)).trans (V7_main_arg1 m outs c)⟩
    · iexact HSI

end Cond

variable (m : (ℓ : Loc nD τ sig) → Buf (Elt F) ℓ) (ρ : Dev nD → PrngReg)

/-- THE RUN at any instance: the result buffer ends at the last stretch's value over the kernels' results, the arguments
    as launched. -/
theorem run_main : θ_run defs (onTc (τ := τ) (main (F := F))) ⟨m, fun _ => 0, ρ⟩ (fun r => ∀ c : Dev nD,
      r.2.mem ((c.tc : Thread nD τ).loc main_v34) = V7 m (outs m) c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => Rr)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun _ => .rfl) (fun _ => .rfl)
    (reg2 m) (fun _ => .rfl) (fun _ => .rfl)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Hand

end
-- ==== Proof.Kb.Conds.lean ====
/-
  The branch condition of the three kernels' bodies and the staging memrefs they are called on.

  Each body opens with one conditional: at the first point of an accumulation run — grid coordinates 1 and 2 both
  zero — the one-element accumulator block is cleared before anything is added to it. Over the grid (2, 16, 2),
  traversed in row-major order, those are exactly the points whose position is a multiple of 32.
-/
import proofs.«171171_j81080392613941_2_alg».proof.Proof.Gen.Kernel.Launch
import proofs.«171171_j81080392613941_2_alg».proof.Proof.Gen.Kernel.Skeleton
import proofs.«171171_j81080392613941_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which a body clears its accumulator: grid coordinates 1 and 2 are both zero. -/
abbrev cond0 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
abbrev cond1 (i : grid1.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
abbrev cond2 (i : grid2.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1

/-- It holds exactly at the positions that are multiples of 32 (the first point of each value of coordinate 0). -/
theorem hcond0 : ∀ t : Fin cfg0.N, cond0 (grid0.coords t) ↔ t.val % 32 = 0 :=
  (by decide +kernel : ∀ t : Fin grid0.N, cond0 (grid0.coords t) ↔ t.val % 32 = 0)
theorem hcond1 : ∀ t : Fin cfg1.N, cond1 (grid1.coords t) ↔ t.val % 32 = 0 :=
  (by decide +kernel : ∀ t : Fin grid1.N, cond1 (grid1.coords t) ↔ t.val % 32 = 0)
theorem hcond2 : ∀ t : Fin cfg2.N, cond2 (grid2.coords t) ↔ t.val % 32 = 0 :=
  (by decide +kernel : ∀ t : Fin grid2.N, cond2 (grid2.coords t) ↔ t.val % 32 = 0)

end Cert.Kernel.Hand

end
-- ==== Proof.Kb.Run0A.lean ====
/-
  The body of kernel 0 run whole, at a point that opens an accumulation run: the accumulator block is cleared, then the block's sum is added to it.
  The four input blocks are read and left as they were; what the stores leave in the accumulator block is found by running the body.
-/
import proofs.«171171_j81080392613941_2_alg».proof.Proof.Kb.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator block, last first, with the proof that from the four input blocks
    held whole at their contents and the accumulator block held whole at anything the body runs to its end, the inputs as they were. -/
noncomputable def kernelRun0_A (c : Dev nD) (i : grid0.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : cond0 i)
    (x0 : Vec F S512x256 .f32) (x1 : Vec F S2048x256 .f32) (x2 : Vec F S512x1 .f32) (x3 : Vec F S1x2048 .f32) :
    { L : List (View.Piece (Elt F) S1x1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L)) -∗ K ⟨⟩))
          ⊢ wp frame (wpE (defs₀ (F := F)) Variants.none c none) E (cc0__rbf_sum_kernel i arg3 harg3 arg4 harg4 arg5 harg5 arg6 harg6 arg7 harg7) K } := by
  refine ⟨?_, fun E K => ?run⟩
  case run =>
    simp only [cc0__rbf_sum_kernel_eq_skeleton]; unfold cc0__rbf_sum_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.Kernel.Hand

end
-- ==== Proof.Kb.Run0B.lean ====
/-
  The body of kernel 0 run whole, at a point inside an accumulation run: the block's sum is added to what the accumulator block holds.
  The four input blocks are read and left as they were; what the stores leave in the accumulator block is found by running the body.
-/
import proofs.«171171_j81080392613941_2_alg».proof.Proof.Kb.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator block, last first, with the proof that from the four input blocks
    held whole at their contents and the accumulator block held whole at `xo` the body runs to its end, the inputs as they were. -/
noncomputable def kernelRun0_B (c : Dev nD) (i : grid0.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : ¬cond0 i)
    (x0 : Vec F S512x256 .f32) (x1 : Vec F S2048x256 .f32) (x2 : Vec F S512x1 .f32) (x3 : Vec F S1x2048 .f32) (xo : Vec F S1x1x1 .f32) :
    { L : List (View.Piece (Elt F) S1x1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L)) -∗ K ⟨⟩))
          ⊢ wp frame (wpE (defs₀ (F := F)) Variants.none c none) E (cc0__rbf_sum_kernel i arg3 harg3 arg4 harg4 arg5 harg5 arg6 harg6 arg7 harg7) K } := by
  refine ⟨?_, fun E K => ?run⟩
  case run =>
    simp only [cc0__rbf_sum_kernel_eq_skeleton]; unfold cc0__rbf_sum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.Kernel.Hand

end
-- ==== Proof.Kb.Dat0.lean ====
/-
  Kernel 0 over its grid: what the accumulator block holds after each grid point, and the pipeline's proof data.

  The region is entered with the core's buffers at contents `V`. An input window's staging buffer holds, whenever the
  body runs, the block of its array the point's index map selects. The output window's one-element block is carried
  from point to point: at a position that is a multiple of 32 the body clears it and adds the block's sum, elsewhere it
  adds the block's sum to what the point before left (`outsAt0`); it is written back after the last point of each
  value of grid coordinate 0.
-/
import proofs.«171171_j81080392613941_2_alg».proof.Proof.Kb.Run0A
import proofs.«171171_j81080392613941_2_alg».proof.Proof.Kb.Run0B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the block
    index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of the output window, through which its contents are stated. -/
abbrev VO0 : View sig .tc .vmem S1x1x1 .f32 := (Memref.whole cc0_stg4_0 : Memref sig .tc .vmem S1x1x1 .f32).view
/-- Each window's current staging memref at point `t`, and its wholeness. -/
abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1 .f32 := win0_4.stage (cfg0.slots t 4)
abbrev hs0_4 (t : Fin cfg0.N) : (ms0_4 t).IsWhole := hstage0_4 ((cfg0.slots t 4).cast nbuf0_4)

/-- The pieces a clearing point leaves tile the one-element block, so they cover it. -/
theorem cover0_A (c : Dev nD) (i : grid0.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : cond0 i)
    (x0 : Vec F S512x256 .f32) (x1 : Vec F S2048x256 .f32) (x2 : Vec F S512x1 .f32) (x3 : Vec F S1x2048 .f32) (y : S1x1x1.Idx) :
    ∃ pc ∈ (kernelRun0_A c i arg3 harg3 arg4 harg4 arg5 harg5 arg6 harg6 arg7 harg7 hc x0 x1 x2 x3).1, y ∈ pc.1.set :=
  View.cover_of_tiledL (kernelRun0_A c i arg3 harg3 arg4 harg4 arg5 harg5 arg6 harg6 arg7 harg7 hc x0 x1 x2 x3).1 S1x1x1.size (by sl_kernel_rfl) y

/-- What a clearing point leaves in the accumulator block. -/
def out0_A (c : Dev nD) (i : grid0.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : cond0 i)
    (x0 : Vec F S512x256 .f32) (x1 : Vec F S2048x256 .f32) (x2 : Vec F S512x1 .f32) (x3 : Vec F S1x2048 .f32) : Vec F S1x1x1 .f32 :=
  VO0.read (Elt F) (VO0.writes (Elt F) VO0.junk (kernelRun0_A c i arg3 harg3 arg4 harg4 arg5 harg5 arg6 harg6 arg7 harg7 hc x0 x1 x2 x3).1)

/-- The pieces an accumulating point leaves tile the one-element block, so they cover it. -/
theorem cover0_B (c : Dev nD) (i : grid0.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : ¬cond0 i)
    (x0 : Vec F S512x256 .f32) (x1 : Vec F S2048x256 .f32) (x2 : Vec F S512x1 .f32) (x3 : Vec F S1x2048 .f32) (xo : Vec F S1x1x1 .f32) (y : S1x1x1.Idx) :
    ∃ pc ∈ (kernelRun0_B c i arg3 harg3 arg4 harg4 arg5 harg5 arg6 harg6 arg7 harg7 hc x0 x1 x2 x3 xo).1, y ∈ pc.1.set :=
  View.cover_of_tiledL (kernelRun0_B c i arg3 harg3 arg4 harg4 arg5 harg5 arg6 harg6 arg7 harg7 hc x0 x1 x2 x3 xo).1 S1x1x1.size (by sl_kernel_rfl) y

/-- What an accumulating point leaves in the accumulator block, from what it found there. -/
def out0_B (c : Dev nD) (i : grid0.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : ¬cond0 i)
    (x0 : Vec F S512x256 .f32) (x1 : Vec F S2048x256 .f32) (x2 : Vec F S512x1 .f32) (x3 : Vec F S1x2048 .f32) (xo : Vec F S1x1x1 .f32) : Vec F S1x1x1 .f32 :=
  VO0.read (Elt F) (VO0.writes (Elt F) VO0.junk (kernelRun0_B c i arg3 harg3 arg4 harg4 arg5 harg5 arg6 harg6 arg7 harg7 hc x0 x1 x2 x3 xo).1)

/-- THE ACCUMULATION: what the accumulator block holds after the body at position `n`. -/
def outsAt0 (c : Dev nD) : (n : ℕ) → n < cfg0.N → Vec F S1x1x1 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0 ⟨0, hn⟩).mpr (Nat.zero_mod _)) (iblk0 V c 0 ⟨0, hn⟩) (iblk0 V c 1 ⟨0, hn⟩) (iblk0 V c 2 ⟨0, hn⟩) (iblk0 V c 3 ⟨0, hn⟩)
  | n + 1, hn =>
    if h0 : (n + 1) % 32 = 0 then
      out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩)
    else
      out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn))

/-- At a clearing point. -/
theorem outsAt0_A (c : Dev nD) (t : Fin cfg0.N) (h0 : t.val % 32 = 0) :
    outsAt0 V c t.val t.isLt = out0_A c (grid0.coords t) (ms0_0 t) (hs0_0 t) (ms0_1 t) (hs0_1 t) (ms0_2 t) (hs0_2 t) (ms0_3 t) (hs0_3 t) (ms0_4 t) (hs0_4 t) ((hcond0 t).mpr h0) (iblk0 V c 0 t) (iblk0 V c 1 t) (iblk0 V c 2 t) (iblk0 V c 3 t) := by
  obtain ⟨n, hn⟩ := t
  cases n with
  | zero => exact rfl
  | succ n => exact (dif_pos h0).trans rfl

/-- At an accumulating point: over what the point before left. -/
theorem outsAt0_B (c : Dev nD) (t : Fin cfg0.N) (h0 : ¬t.val % 32 = 0) :
    outsAt0 V c t.val t.isLt = out0_B c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk0 V c 0 t) (iblk0 V c 1 t) (iblk0 V c 2 t) (iblk0 V c 3 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of pipeline 0 on core `c`: the arrays as the region finds them; after the body at point `t` each
    input's buffer at its block and the output's at `outsAt0`; the scoped rest and the generator register as the
    invariant; nothing owed; the two windows on one array each hold half of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outsAt0 V c t.val t.isLt
  Φ _ := Pipeline.ΦA spec0 c
  q := fun w => match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outsAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
/-- At an accumulating point the output's staging buffer holds what the body left at the point before: the point is not
    the first and the buffer was not written back between. -/
theorem before0_4_B (c : Dev nD) (t : Fin cfg0.N) (h0 : ¬t.val % 32 = 0) (d) :
    (dat0 V c).before 4 t d = outsAt0 V c (t.val - 1) (Nat.lt_of_le_of_lt (Nat.sub_le _ _) t.isLt) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dat0]

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 800000 in
/-- The body at any point: the inputs' memrefs hold their blocks; the position says whether the point clears the
    accumulator or adds to what the point before left; the invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 64 := lt_of_lt_of_eq t.isLt (show cfg0.N = 64 from N_0)
  by_cases h0 : t.val % 32 = 0
  · rw [outsAt0_A V c t h0]
    unfold out0_A
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0 t).mpr h0) (iblk0 V c 0 t) (iblk0 V c 1 t) (iblk0 V c 2 t) (iblk0 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A c _ _ _ _ _ _ _ _ _ _ _ _ _ _ _ _)
  · rw [outsAt0_B V c t h0]
    simp only [before0_4_B V c t h0]
    unfold out0_B
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0 t).mp h)) (iblk0 V c 0 t) (iblk0 V c 1 t) (iblk0 V c 2 t) (iblk0 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B c _ _ _ _ _ _ _ _ _ _ _ _ _ _ _ _ _)

/-- The body obligation at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kb.Run1A.lean ====
/-
  The body of kernel 1 run whole, at a point that opens an accumulation run: the accumulator block is cleared, then the block's sum is added to it.
  The four input blocks are read and left as they were; what the stores leave in the accumulator block is found by running the body.
-/
import proofs.«171171_j81080392613941_2_alg».proof.Proof.Kb.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator block, last first, with the proof that from the four input blocks
    held whole at their contents and the accumulator block held whole at anything the body runs to its end, the inputs as they were. -/
noncomputable def kernelRun1_A (c : Dev nD) (i : grid1.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : cond1 i)
    (x0 : Vec F S512x256 .f32) (x1 : Vec F S2048x256 .f32) (x2 : Vec F S512x1 .f32) (x3 : Vec F S1x2048 .f32) :
    { L : List (View.Piece (Elt F) S1x1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L)) -∗ K ⟨⟩))
          ⊢ wp frame (wpE (defs₀ (F := F)) Variants.none c none) E (cc1__rbf_sum_kernel i arg3 harg3 arg4 harg4 arg5 harg5 arg6 harg6 arg7 harg7) K } := by
  refine ⟨?_, fun E K => ?run⟩
  case run =>
    simp only [cc1__rbf_sum_kernel_eq_skeleton]; unfold cc1__rbf_sum_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.Kernel.Hand

end
-- ==== Proof.Kb.Run1B.lean ====
/-
  The body of kernel 1 run whole, at a point inside an accumulation run: the block's sum is added to what the accumulator block holds.
  The four input blocks are read and left as they were; what the stores leave in the accumulator block is found by running the body.
-/
import proofs.«171171_j81080392613941_2_alg».proof.Proof.Kb.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator block, last first, with the proof that from the four input blocks
    held whole at their contents and the accumulator block held whole at `xo` the body runs to its end, the inputs as they were. -/
noncomputable def kernelRun1_B (c : Dev nD) (i : grid1.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : ¬cond1 i)
    (x0 : Vec F S512x256 .f32) (x1 : Vec F S2048x256 .f32) (x2 : Vec F S512x1 .f32) (x3 : Vec F S1x2048 .f32) (xo : Vec F S1x1x1 .f32) :
    { L : List (View.Piece (Elt F) S1x1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L)) -∗ K ⟨⟩))
          ⊢ wp frame (wpE (defs₀ (F := F)) Variants.none c none) E (cc1__rbf_sum_kernel i arg3 harg3 arg4 harg4 arg5 harg5 arg6 harg6 arg7 harg7) K } := by
  refine ⟨?_, fun E K => ?run⟩
  case run =>
    simp only [cc1__rbf_sum_kernel_eq_skeleton]; unfold cc1__rbf_sum_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.Kernel.Hand

end
-- ==== Proof.Kb.Dat1.lean ====
/-
  Kernel 1 over its grid: what the accumulator block holds after each grid point, and the pipeline's proof data.

  The region is entered with the core's buffers at contents `V`. An input window's staging buffer holds, whenever the
  body runs, the block of its array the point's index map selects. The output window's one-element block is carried
  from point to point: at a position that is a multiple of 32 the body clears it and adds the block's sum, elsewhere it
  adds the block's sum to what the point before left (`outsAt1`); it is written back after the last point of each
  value of grid coordinate 0.
-/
import proofs.«171171_j81080392613941_2_alg».proof.Proof.Kb.Run1A
import proofs.«171171_j81080392613941_2_alg».proof.Proof.Kb.Run1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the block
    index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of the output window, through which its contents are stated. -/
abbrev VO1 : View sig .tc .vmem S1x1x1 .f32 := (Memref.whole cc1_stg4_0 : Memref sig .tc .vmem S1x1x1 .f32).view
/-- Each window's current staging memref at point `t`, and its wholeness. -/
abbrev ms1_0 (t : Fin cfg1.N) : Memref sig .tc .vmem S512x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x1 .f32 := win1_4.stage (cfg1.slots t 4)
abbrev hs1_4 (t : Fin cfg1.N) : (ms1_4 t).IsWhole := hstage1_4 ((cfg1.slots t 4).cast nbuf1_4)

/-- The pieces a clearing point leaves tile the one-element block, so they cover it. -/
theorem cover1_A (c : Dev nD) (i : grid1.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : cond1 i)
    (x0 : Vec F S512x256 .f32) (x1 : Vec F S2048x256 .f32) (x2 : Vec F S512x1 .f32) (x3 : Vec F S1x2048 .f32) (y : S1x1x1.Idx) :
    ∃ pc ∈ (kernelRun1_A c i arg3 harg3 arg4 harg4 arg5 harg5 arg6 harg6 arg7 harg7 hc x0 x1 x2 x3).1, y ∈ pc.1.set :=
  View.cover_of_tiledL (kernelRun1_A c i arg3 harg3 arg4 harg4 arg5 harg5 arg6 harg6 arg7 harg7 hc x0 x1 x2 x3).1 S1x1x1.size (by sl_kernel_rfl) y

/-- What a clearing point leaves in the accumulator block. -/
def out1_A (c : Dev nD) (i : grid1.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : cond1 i)
    (x0 : Vec F S512x256 .f32) (x1 : Vec F S2048x256 .f32) (x2 : Vec F S512x1 .f32) (x3 : Vec F S1x2048 .f32) : Vec F S1x1x1 .f32 :=
  VO1.read (Elt F) (VO1.writes (Elt F) VO1.junk (kernelRun1_A c i arg3 harg3 arg4 harg4 arg5 harg5 arg6 harg6 arg7 harg7 hc x0 x1 x2 x3).1)

/-- The pieces an accumulating point leaves tile the one-element block, so they cover it. -/
theorem cover1_B (c : Dev nD) (i : grid1.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : ¬cond1 i)
    (x0 : Vec F S512x256 .f32) (x1 : Vec F S2048x256 .f32) (x2 : Vec F S512x1 .f32) (x3 : Vec F S1x2048 .f32) (xo : Vec F S1x1x1 .f32) (y : S1x1x1.Idx) :
    ∃ pc ∈ (kernelRun1_B c i arg3 harg3 arg4 harg4 arg5 harg5 arg6 harg6 arg7 harg7 hc x0 x1 x2 x3 xo).1, y ∈ pc.1.set :=
  View.cover_of_tiledL (kernelRun1_B c i arg3 harg3 arg4 harg4 arg5 harg5 arg6 harg6 arg7 harg7 hc x0 x1 x2 x3 xo).1 S1x1x1.size (by sl_kernel_rfl) y

/-- What an accumulating point leaves in the accumulator block, from what it found there. -/
def out1_B (c : Dev nD) (i : grid1.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : ¬cond1 i)
    (x0 : Vec F S512x256 .f32) (x1 : Vec F S2048x256 .f32) (x2 : Vec F S512x1 .f32) (x3 : Vec F S1x2048 .f32) (xo : Vec F S1x1x1 .f32) : Vec F S1x1x1 .f32 :=
  VO1.read (Elt F) (VO1.writes (Elt F) VO1.junk (kernelRun1_B c i arg3 harg3 arg4 harg4 arg5 harg5 arg6 harg6 arg7 harg7 hc x0 x1 x2 x3 xo).1)

/-- THE ACCUMULATION: what the accumulator block holds after the body at position `n`. -/
def outsAt1 (c : Dev nD) : (n : ℕ) → n < cfg1.N → Vec F S1x1x1 .f32
  | 0, hn => out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1 ⟨0, hn⟩).mpr (Nat.zero_mod _)) (iblk1 V c 0 ⟨0, hn⟩) (iblk1 V c 1 ⟨0, hn⟩) (iblk1 V c 2 ⟨0, hn⟩) (iblk1 V c 3 ⟨0, hn⟩)
  | n + 1, hn =>
    if h0 : (n + 1) % 32 = 0 then
      out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩)
    else
      out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn))

/-- At a clearing point. -/
theorem outsAt1_A (c : Dev nD) (t : Fin cfg1.N) (h0 : t.val % 32 = 0) :
    outsAt1 V c t.val t.isLt = out1_A c (grid1.coords t) (ms1_0 t) (hs1_0 t) (ms1_1 t) (hs1_1 t) (ms1_2 t) (hs1_2 t) (ms1_3 t) (hs1_3 t) (ms1_4 t) (hs1_4 t) ((hcond1 t).mpr h0) (iblk1 V c 0 t) (iblk1 V c 1 t) (iblk1 V c 2 t) (iblk1 V c 3 t) := by
  obtain ⟨n, hn⟩ := t
  cases n with
  | zero => exact rfl
  | succ n => exact (dif_pos h0).trans rfl

/-- At an accumulating point: over what the point before left. -/
theorem outsAt1_B (c : Dev nD) (t : Fin cfg1.N) (h0 : ¬t.val % 32 = 0) :
    outsAt1 V c t.val t.isLt = out1_B c (grid1.coords t) (ms1_0 t) (hs1_0 t) (ms1_1 t) (hs1_1 t) (ms1_2 t) (hs1_2 t) (ms1_3 t) (hs1_3 t) (ms1_4 t) (hs1_4 t) (fun h => h0 ((hcond1 t).mp h)) (iblk1 V c 0 t) (iblk1 V c 1 t) (iblk1 V c 2 t) (iblk1 V c 3 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of pipeline 1 on core `c`: the arrays as the region finds them; after the body at point `t` each
    input's buffer at its block and the output's at `outsAt1`; the scoped rest and the generator register as the
    invariant; nothing owed; the two windows on one array each hold half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t.val t.isLt
  Φ _ := Pipeline.ΦA spec1 c
  q := fun w => match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
/-- At an accumulating point the output's staging buffer holds what the body left at the point before: the point is not
    the first and the buffer was not written back between. -/
theorem before1_4_B (c : Dev nD) (t : Fin cfg1.N) (h0 : ¬t.val % 32 = 0) (d) :
    (dat1 V c).before 4 t d = outsAt1 V c (t.val - 1) (Nat.lt_of_le_of_lt (Nat.sub_le _ _) t.isLt) := by
  have hN : t.val < 64 := lt_of_lt_of_eq t.isLt (show cfg1.N = 64 from N_1)
  rw [Dat.before_out_kept _ 4 rfl t (by omega) (Bool.eq_false_iff.mpr fun h => by have := (flush1_4 _).mp h; dsimp only at this; omega)
    (fun _ => rfl) (fun _ _ => rfl)]
  dsimp only [dat1]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 800000 in
/-- The body at any point: the inputs' memrefs hold their blocks; the position says whether the point clears the
    accumulator or adds to what the point before left; the invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 64 := lt_of_lt_of_eq t.isLt (show cfg1.N = 64 from N_1)
  by_cases h0 : t.val % 32 = 0
  · rw [outsAt1_A V c t h0]
    unfold out1_A
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1 t).mpr h0) (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A c _ _ _ _ _ _ _ _ _ _ _ _ _ _ _ _)
  · rw [outsAt1_B V c t h0]
    simp only [before1_4_B V c t h0]
    unfold out1_B
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1 t).mp h)) (iblk1 V c 0 t) (iblk1 V c 1 t) (iblk1 V c 2 t) (iblk1 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B c _ _ _ _ _ _ _ _ _ _ _ _ _ _ _ _ _)

/-- The body obligation at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kb.Run2A.lean ====
/-
  The body of kernel 2 run whole, at a point that opens an accumulation run: the accumulator block is cleared, then the block's sum is added to it.
  The four input blocks are read and left as they were; what the stores leave in the accumulator block is found by running the body.
-/
import proofs.«171171_j81080392613941_2_alg».proof.Proof.Kb.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator block, last first, with the proof that from the four input blocks
    held whole at their contents and the accumulator block held whole at anything the body runs to its end, the inputs as they were. -/
noncomputable def kernelRun2_A (c : Dev nD) (i : grid2.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : cond2 i)
    (x0 : Vec F S512x256 .f32) (x1 : Vec F S2048x256 .f32) (x2 : Vec F S512x1 .f32) (x3 : Vec F S1x2048 .f32) :
    { L : List (View.Piece (Elt F) S1x1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L)) -∗ K ⟨⟩))
          ⊢ wp frame (wpE (defs₀ (F := F)) Variants.none c none) E (cc2__rbf_sum_kernel i arg3 harg3 arg4 harg4 arg5 harg5 arg6 harg6 arg7 harg7) K } := by
  refine ⟨?_, fun E K => ?run⟩
  case run =>
    simp only [cc2__rbf_sum_kernel_eq_skeleton]; unfold cc2__rbf_sum_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.Kernel.Hand

end
-- ==== Proof.Kb.Run2B.lean ====
/-
  The body of kernel 2 run whole, at a point inside an accumulation run: the block's sum is added to what the accumulator block holds.
  The four input blocks are read and left as they were; what the stores leave in the accumulator block is found by running the body.
-/
import proofs.«171171_j81080392613941_2_alg».proof.Proof.Kb.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator block, last first, with the proof that from the four input blocks
    held whole at their contents and the accumulator block held whole at `xo` the body runs to its end, the inputs as they were. -/
noncomputable def kernelRun2_B (c : Dev nD) (i : grid2.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : ¬cond2 i)
    (x0 : Vec F S512x256 .f32) (x1 : Vec F S2048x256 .f32) (x2 : Vec F S512x1 .f32) (x3 : Vec F S1x2048 .f32) (xo : Vec F S1x1x1 .f32) :
    { L : List (View.Piece (Elt F) S1x1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L)) -∗ K ⟨⟩))
          ⊢ wp frame (wpE (defs₀ (F := F)) Variants.none c none) E (cc2__rbf_sum_kernel i arg3 harg3 arg4 harg4 arg5 harg5 arg6 harg6 arg7 harg7) K } := by
  refine ⟨?_, fun E K => ?run⟩
  case run =>
    simp only [cc2__rbf_sum_kernel_eq_skeleton]; unfold cc2__rbf_sum_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.Kernel.Hand

end
-- ==== Proof.Kb.Dat2.lean ====
/-
  Kernel 2 over its grid: what the accumulator block holds after each grid point, and the pipeline's proof data.

  The region is entered with the core's buffers at contents `V`. An input window's staging buffer holds, whenever the
  body runs, the block of its array the point's index map selects. The output window's one-element block is carried
  from point to point: at a position that is a multiple of 32 the body clears it and adds the block's sum, elsewhere it
  adds the block's sum to what the point before left (`outsAt2`); it is written back after the last point of each
  value of grid coordinate 0.
-/
import proofs.«171171_j81080392613941_2_alg».proof.Proof.Kb.Run2A
import proofs.«171171_j81080392613941_2_alg».proof.Proof.Kb.Run2B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched, the block
    index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- One staging buffer of the output window, through which its contents are stated. -/
abbrev VO2 : View sig .tc .vmem S1x1x1 .f32 := (Memref.whole cc2_stg4_0 : Memref sig .tc .vmem S1x1x1 .f32).view
/-- Each window's current staging memref at point `t`, and its wholeness. -/
abbrev ms2_0 (t : Fin cfg2.N) : Memref sig .tc .vmem S512x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x2048 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1x1 .f32 := win2_4.stage (cfg2.slots t 4)
abbrev hs2_4 (t : Fin cfg2.N) : (ms2_4 t).IsWhole := hstage2_4 ((cfg2.slots t 4).cast nbuf2_4)

/-- The pieces a clearing point leaves tile the one-element block, so they cover it. -/
theorem cover2_A (c : Dev nD) (i : grid2.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : cond2 i)
    (x0 : Vec F S512x256 .f32) (x1 : Vec F S2048x256 .f32) (x2 : Vec F S512x1 .f32) (x3 : Vec F S1x2048 .f32) (y : S1x1x1.Idx) :
    ∃ pc ∈ (kernelRun2_A c i arg3 harg3 arg4 harg4 arg5 harg5 arg6 harg6 arg7 harg7 hc x0 x1 x2 x3).1, y ∈ pc.1.set :=
  View.cover_of_tiledL (kernelRun2_A c i arg3 harg3 arg4 harg4 arg5 harg5 arg6 harg6 arg7 harg7 hc x0 x1 x2 x3).1 S1x1x1.size (by sl_kernel_rfl) y

/-- What a clearing point leaves in the accumulator block. -/
def out2_A (c : Dev nD) (i : grid2.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : cond2 i)
    (x0 : Vec F S512x256 .f32) (x1 : Vec F S2048x256 .f32) (x2 : Vec F S512x1 .f32) (x3 : Vec F S1x2048 .f32) : Vec F S1x1x1 .f32 :=
  VO2.read (Elt F) (VO2.writes (Elt F) VO2.junk (kernelRun2_A c i arg3 harg3 arg4 harg4 arg5 harg5 arg6 harg6 arg7 harg7 hc x0 x1 x2 x3).1)

/-- The pieces an accumulating point leaves tile the one-element block, so they cover it. -/
theorem cover2_B (c : Dev nD) (i : grid2.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : ¬cond2 i)
    (x0 : Vec F S512x256 .f32) (x1 : Vec F S2048x256 .f32) (x2 : Vec F S512x1 .f32) (x3 : Vec F S1x2048 .f32) (xo : Vec F S1x1x1 .f32) (y : S1x1x1.Idx) :
    ∃ pc ∈ (kernelRun2_B c i arg3 harg3 arg4 harg4 arg5 harg5 arg6 harg6 arg7 harg7 hc x0 x1 x2 x3 xo).1, y ∈ pc.1.set :=
  View.cover_of_tiledL (kernelRun2_B c i arg3 harg3 arg4 harg4 arg5 harg5 arg6 harg6 arg7 harg7 hc x0 x1 x2 x3 xo).1 S1x1x1.size (by sl_kernel_rfl) y

/-- What an accumulating point leaves in the accumulator block, from what it found there. -/
def out2_B (c : Dev nD) (i : grid2.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : ¬cond2 i)
    (x0 : Vec F S512x256 .f32) (x1 : Vec F S2048x256 .f32) (x2 : Vec F S512x1 .f32) (x3 : Vec F S1x2048 .f32) (xo : Vec F S1x1x1 .f32) : Vec F S1x1x1 .f32 :=
  VO2.read (Elt F) (VO2.writes (Elt F) VO2.junk (kernelRun2_B c i arg3 harg3 arg4 harg4 arg5 harg5 arg6 harg6 arg7 harg7 hc x0 x1 x2 x3 xo).1)

/-- THE ACCUMULATION: what the accumulator block holds after the body at position `n`. -/
def outsAt2 (c : Dev nD) : (n : ℕ) → n < cfg2.N → Vec F S1x1x1 .f32
  | 0, hn => out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) ((hcond2 ⟨0, hn⟩).mpr (Nat.zero_mod _)) (iblk2 V c 0 ⟨0, hn⟩) (iblk2 V c 1 ⟨0, hn⟩) (iblk2 V c 2 ⟨0, hn⟩) (iblk2 V c 3 ⟨0, hn⟩)
  | n + 1, hn =>
    if h0 : (n + 1) % 32 = 0 then
      out2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) ((hcond2 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩)
    else
      out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (fun h => h0 ((hcond2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn))

/-- At a clearing point. -/
theorem outsAt2_A (c : Dev nD) (t : Fin cfg2.N) (h0 : t.val % 32 = 0) :
    outsAt2 V c t.val t.isLt = out2_A c (grid2.coords t) (ms2_0 t) (hs2_0 t) (ms2_1 t) (hs2_1 t) (ms2_2 t) (hs2_2 t) (ms2_3 t) (hs2_3 t) (ms2_4 t) (hs2_4 t) ((hcond2 t).mpr h0) (iblk2 V c 0 t) (iblk2 V c 1 t) (iblk2 V c 2 t) (iblk2 V c 3 t) := by
  obtain ⟨n, hn⟩ := t
  cases n with
  | zero => exact rfl
  | succ n => exact (dif_pos h0).trans rfl

/-- At an accumulating point: over what the point before left. -/
theorem outsAt2_B (c : Dev nD) (t : Fin cfg2.N) (h0 : ¬t.val % 32 = 0) :
    outsAt2 V c t.val t.isLt = out2_B c (grid2.coords t) (ms2_0 t) (hs2_0 t) (ms2_1 t) (hs2_1 t) (ms2_2 t) (hs2_2 t) (ms2_3 t) (hs2_3 t) (ms2_4 t) (hs2_4 t) (fun h => h0 ((hcond2 t).mp h)) (iblk2 V c 0 t) (iblk2 V c 1 t) (iblk2 V c 2 t) (iblk2 V c 3 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of pipeline 2 on core `c`: the arrays as the region finds them; after the body at point `t` each
    input's buffer at its block and the output's at `outsAt2`; the scoped rest and the generator register as the
    invariant; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outsAt2 V c t.val t.isLt
  Φ _ := Pipeline.ΦA spec2 c
  q := fun _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outsAt2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
/-- At an accumulating point the output's staging buffer holds what the body left at the point before: the point is not
    the first and the buffer was not written back between. -/
theorem before2_4_B (c : Dev nD) (t : Fin cfg2.N) (h0 : ¬t.val % 32 = 0) (d) :
    (dat2 V c).before 4 t d = outsAt2 V c (t.val - 1) (Nat.lt_of_le_of_lt (Nat.sub_le _ _) t.isLt) := by
  have hN : t.val < 64 := lt_of_lt_of_eq t.isLt (show cfg2.N = 64 from N_2)
  rw [Dat.before_out_kept _ 4 rfl t (by omega) (Bool.eq_false_iff.mpr fun h => by have := (flush2_4 _).mp h; dsimp only at this; omega)
    (fun _ => rfl) (fun _ _ => rfl)]
  dsimp only [dat2]

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 800000 in
/-- The body at any point: the inputs' memrefs hold their blocks; the position says whether the point clears the
    accumulator or adds to what the point before left; the invariant and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  have hN : t.val < 64 := lt_of_lt_of_eq t.isLt (show cfg2.N = 64 from N_2)
  by_cases h0 : t.val % 32 = 0
  · rw [outsAt2_A V c t h0]
    unfold out2_A
    iintro ⟨HΦ, Ho, ⟨%d0, H0⟩, ⟨%d1, H1⟩, ⟨%d2, H2⟩, ⟨%d3, H3⟩, ⟨%d4, H4⟩⟩
    iapply ((kernelRun2_A c (grid2.coords t) _ _ _ _ _ _ _ _ _ _ ((hcond2 t).mpr h0) (iblk2 V c 0 t) (iblk2 V c 1 t) (iblk2 V c 2 t) (iblk2 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_A c _ _ _ _ _ _ _ _ _ _ _ _ _ _ _ _)
  · rw [outsAt2_B V c t h0]
    simp only [before2_4_B V c t h0]
    unfold out2_B
    iintro ⟨HΦ, Ho, ⟨%d0, H0⟩, ⟨%d1, H1⟩, ⟨%d2, H2⟩, ⟨%d3, H3⟩, ⟨%d4, H4⟩⟩
    iapply ((kernelRun2_B c (grid2.coords t) _ _ _ _ _ _ _ _ _ _ (fun h => h0 ((hcond2 t).mp h)) (iblk2 V c 0 t) (iblk2 V c 1 t) (iblk2 V c 2 t) (iblk2 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_B c _ _ _ _ _ _ _ _ _ _ _ _ _ _ _ _ _)

/-- The body obligation at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Kb.Pd.lean ====
/-
  The contents of the core's buffers between the items of the program, with what the three kernels leave made
  explicit: each kernel's result array holds, after its region, what the pipeline's write-backs of the accumulator
  block leave there; every later stretch of host operations is read from those contents.
-/
import proofs.«171171_j81080392613941_2_alg».proof.Proof.Kb.Dat0
import proofs.«171171_j81080392613941_2_alg».proof.Proof.Kb.Dat1
import proofs.«171171_j81080392613941_2_alg».proof.Proof.Kb.Dat2
import proofs.«171171_j81080392613941_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers as kernel 0 finds them. -/
abbrev Vr1 (c : Dev nD) (b : Ref sig .tc) : Buf (Elt F) ((c : Thread nD τ).loc b) := V1 m c b
/-- What kernel 0 leaves in its result array. -/
def o0 (c : Dev nD) : Buf (Elt F) ((c : Thread nD τ).loc main_v7) := (dat0 (Vr1 m) c).arrAt 4 cfg0.N
/-- The regions' results, the first only. -/
def outsA : Outs (F := F) := fun _ r c => Function.update (V1 m c) main_v7 (o0 m c) r
/-- The buffers as kernel 1 finds them. -/
abbrev Vr3 (c : Dev nD) (b : Ref sig .tc) : Buf (Elt F) ((c : Thread nD τ).loc b) := V3 m (outsA m) c b
/-- What kernel 1 leaves in its result array. -/
def o1 (c : Dev nD) : Buf (Elt F) ((c : Thread nD τ).loc main_v17) := (dat1 (Vr3 m) c).arrAt 4 cfg1.N
/-- The regions' results, the first two. -/
def outsB : Outs (F := F) := fun J r c => match J with
  | 4 => Function.update (V3 m (outsA m) c) main_v17 (o1 m c) r
  | _ => outsA m J r c
/-- The buffers as kernel 2 finds them. -/
abbrev Vr5 (c : Dev nD) (b : Ref sig .tc) : Buf (Elt F) ((c : Thread nD τ).loc b) := V5 m (outsB m) c b
/-- What kernel 2 leaves in its result array. -/
def o2 (c : Dev nD) : Buf (Elt F) ((c : Thread nD τ).loc main_v27) := (dat2 (Vr5 m) c).arrAt 4 cfg2.N
/-- The regions' results. -/
def outs : Outs (F := F) := fun J r c => match J with
  | 6 => Function.update (V5 m (outsB m) c) main_v27 (o2 m c) r
  | _ => outsB m J r c

theorem outs_2 (c : Dev nD) : outs m 2 main_v7 c = o0 m c := by
  show Function.update (V1 m c) main_v7 (o0 m c) main_v7 = o0 m c
  exact Function.update_self _ _ _
theorem outs_4 (c : Dev nD) : outs m 4 main_v17 c = o1 m c := by
  show Function.update (V3 m (outsA m) c) main_v17 (o1 m c) main_v17 = o1 m c
  exact Function.update_self _ _ _
theorem outs_6 (c : Dev nD) : outs m 6 main_v27 c = o2 m c := by
  show Function.update (V5 m (outsB m) c) main_v27 (o2 m c) main_v27 = o2 m c
  exact Function.update_self _ _ _

theorem outsB_2 (c : Dev nD) : outsB m 2 main_v7 c = outsA m 2 main_v7 c := rfl
theorem outs_2' (c : Dev nD) : outs m 2 main_v7 c = outsA m 2 main_v7 c := rfl
theorem outs_4' (c : Dev nD) : outs m 4 main_v17 c = outsB m 4 main_v17 c := rfl

/-- The contents before kernel 1 do not depend on the later results. -/
theorem V3_outs (c : Dev nD) : V3 m (outs m) c = V3 m (outsA m) c := by
  show StableHlo.after hostOps1 (Function.update (V1 m c) main_v7 (outs m 2 main_v7 c)) = StableHlo.after hostOps1 (Function.update (V1 m c) main_v7 (outsA m 2 main_v7 c))
  rw [outs_2']
theorem V3_outsB (c : Dev nD) : V3 m (outsB m) c = V3 m (outsA m) c := by
  show StableHlo.after hostOps1 (Function.update (V1 m c) main_v7 (outsB m 2 main_v7 c)) = StableHlo.after hostOps1 (Function.update (V1 m c) main_v7 (outsA m 2 main_v7 c))
  rw [outsB_2]
/-- The contents before kernel 2 do not depend on its own result. -/
theorem V5_outs (c : Dev nD) : V5 m (outs m) c = V5 m (outsB m) c := by
  show StableHlo.after hostOps2 (Function.update (V3 m (outs m) c) main_v17 (outs m 4 main_v17 c)) = StableHlo.after hostOps2 (Function.update (V3 m (outsB m) c) main_v17 (outsB m 4 main_v17 c))
  rw [V3_outs, V3_outsB, outs_4']

/-- Every pipeline's proof data, each at its region's entry contents. -/
def pdats : (p : Fin 3) → (c : Dev nD) → Dat τ (Elt F) Unit ℕ (UR sig nD τ) ℕ (cfgs p) c
  | ⟨0, _⟩ => fun c => dat0 (Vr1 m) c
  | ⟨1, _⟩ => fun c => dat1 (Vr3 m) c
  | ⟨2, _⟩ => fun c => dat2 (Vr5 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core owing nothing. -/
abbrev Rr (c : Dev nD) : sProp 𝕄 := iprop((∃ r, prngReg c r) ∗ ∃ W, owes (c : Thread nD τ) (0 : CellTallies nD τ sig Unit) W)

end Cert.Kernel.Hand

end
-- ==== Proof.Kb.Reg0.lean ====
/-
  Kernel 0's region over the thread state "every unscoped buffer of the core at the boundary's contents, the generator
  register at some state, nothing owed": entered by taking the kernel's operand and result arrays out of the unscoped
  buffers — the array two windows read is split into two half shares, one per window — and left by putting them back, the result array at what the
  write-backs of the accumulator block leave.
-/
import proofs.«171171_j81080392613941_2_alg».proof.Proof.Kb.Pd

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A valuation of the core's buffers read at the TensorCore's references. -/
abbrev Wr0 (W : Valuation τ sig (Elt F)) (c : Dev nD) (b : Ref sig .tc) : Buf (Elt F) ((c : Thread nD τ).loc b) := W (Proc.devRef .tc b)

section Arrays

variable (V : (c : Dev nD) → (b : Ref sig .tc) → Buf (Elt F) ((c : Thread nD τ).loc b))

/-- The distinct buffers behind kernel 0's arrays, each held whole at contents `W`, are the pipeline's arrays at those
    contents: the buffer two input windows share is held by each at half. -/
theorem arrays0_iff (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      ⊣⊢ (dat0 V c).arrays (fun w => W (Pipeline.arrRef spec0 w)) := by
  unfold Pipeline.arrBufs Dat.arrays
  rw [bigSep_W0]
  rw [bigSep_eq_bigSepL_of_eq [main_arg0, main_v2, main_v6, main_v7] (by decide) (by decide)]
  rw [show (bigSepL [main_arg0, main_v2, main_v6, main_v7] fun b => (((c : Thread nD τ).loc b) ↦{fullShare} W b : sProp 𝕄))
    = iprop((((c : Thread nD τ).loc main_arg0) ↦{fullShare} W main_arg0) ∗ (((c : Thread nD τ).loc main_v2) ↦{fullShare} W main_v2) ∗ (((c : Thread nD τ).loc main_v6) ↦{fullShare} W main_v6) ∗ (((c : Thread nD τ).loc main_v7) ↦{fullShare} W main_v7)) from rfl]
  rw [(arr_whole0 0).set_eq_univ]; try rw [(arr_whole0 1).set_eq_univ]
  rw [(arr_whole0 2).set_eq_univ, (arr_whole0 3).set_eq_univ, (arr_whole0 4).set_eq_univ]
  rw [show (dat0 V c).share 0 = fullShare.left from rfl, show (dat0 V c).share 1 = fullShare.right from rfl,
    show (dat0 V c).share 2 = fullShare from rfl, show (dat0 V c).share 3 = fullShare from rfl, show (dat0 V c).share 4 = fullShare from rfl]
  have hs : (((c : Thread nD τ).loc main_arg0) ↦{fullShare} W main_arg0 : sProp 𝕄)
      ⊣⊢ iprop((((c : Thread nD τ).loc main_arg0) ↦{fullShare.left} W main_arg0) ∗ ((c : Thread nD τ).loc main_arg0) ↦{fullShare.right} W main_arg0) :=
    pointsTo_share (PosShare.mem_left_op_right fullShare)
  constructor
  · iintro ⟨Ha, H2, H6, H7⟩
    ihave Ha' := hs.1 $$ Ha
    icases Ha' with ⟨Hl, Hr⟩
    isplitl [Hl]; · iexact Hl
    isplitl [Hr]; · iexact Hr
    isplitl [H2]; · iexact H2
    isplitl [H6]; · iexact H6
    iexact H7
  · iintro ⟨Hl, Hr, H2, H6, H7⟩
    isplitl [Hl Hr]
    · iapply hs.2; isplitl [Hl]; · iexact Hl
      iexact Hr
    isplitl [H2]; · iexact H2
    isplitl [H6]; · iexact H6
    iexact H7

/-- The core's unscoped buffers are the buffers behind kernel 0's arrays and the rest. -/
theorem bufs0_split (c : Dev nD) (W : (b : Ref sig .tc) → Buf (Elt F) ((c : Thread nD τ).loc b)) :
    (unscopedBufs c W : sProp 𝕄) = iprop(Pipeline.arrBufs spec0 c W ∗ Pipeline.unscopedRest spec0 c W) := by
  classical
  have hA : Finset.univ.image (Pipeline.arrRef spec0) ⊆ Finset.univ.filter fun b : Ref sig .tc => ¬ b.isScoped := fun b hb => by
    obtain ⟨w, -, rfl⟩ := Finset.mem_image.mp hb
    exact Finset.mem_filter.mpr ⟨Finset.mem_univ _, by simp [winFacts₀0.arr_unscoped w]⟩
  unfold unscopedBufs Pipeline.unscopedRest Pipeline.arrBufs
  rw [bigSep_sdiff_split hA]
  rfl

/-- The core's unscoped buffers at `W` are kernel 0's arrays at `W` and the other unscoped buffers. -/
theorem bufs0_iff (c : Dev nD) (W : (b : Ref sig .tc) → Buf (Elt F) ((c : Thread nD τ).loc b)) :
    (unscopedBufs c W : sProp 𝕄)
      ⊣⊢ iprop((dat0 V c).arrays (fun w => W (Pipeline.arrRef spec0 w))
          ∗ Pipeline.unscopedRest (Ix := Unit) (Name := ℕ) (U := UR sig nD τ) (Lvl := ℕ) spec0 c W) := by
  rw [bufs0_split]
  exact ⟨sep_mono (arrays0_iff V c _).1 .rfl, sep_mono (arrays0_iff V c _).2 .rfl⟩

end Arrays

variable (m : (ℓ : Loc nD τ sig) → Buf (Elt F) ℓ)

/-- The result array's contents after the region are the region's result. -/
theorem V2_out (c : Dev nD) : V2 m (outs m) c main_v7 = outs m 2 main_v7 c := by
  simp only [V2, Function.update_self]

/-- At entry the arrays hold the boundary's contents. -/
theorem arr0_entry (c : Dev nD) : (fun w => (pdats m 0 c).arrAt w 0) = fun w => Wr0 (V1 m c) c (Pipeline.arrRef spec0 w) := by
  funext w; exact A_eq0 (Vr1 m) c w

/-- At exit the input arrays are as entered and the result array holds what the write-backs leave: the next boundary's
    contents, which differ from the entry's at the result array only. -/
theorem arr0_exit (c : Dev nD) : (fun w => (pdats m 0 c).arrAt w cfg0.N) = fun w => Wr0 (V2 m (outs m) c) c (Pipeline.arrRef spec0 w) := by
  funext w
  match w with
  | ⟨0, _⟩ => exact ((dat0 (Vr1 m) c).arrAt_in 0 rfl _).trans ((A_eq0 (Vr1 m) c 0).trans (V2_of m (outs m) c main_arg0 (by decide)).symm)
  | ⟨1, _⟩ => exact ((dat0 (Vr1 m) c).arrAt_in 1 rfl _).trans ((A_eq0 (Vr1 m) c 1).trans (V2_of m (outs m) c main_arg0 (by decide)).symm)
  | ⟨2, _⟩ => exact ((dat0 (Vr1 m) c).arrAt_in 2 rfl _).trans ((A_eq0 (Vr1 m) c 2).trans (V2_of m (outs m) c main_v2 (by decide)).symm)
  | ⟨3, _⟩ => exact ((dat0 (Vr1 m) c).arrAt_in 3 rfl _).trans ((A_eq0 (Vr1 m) c 3).trans (V2_of m (outs m) c main_v6 (by decide)).symm)
  | ⟨4, _⟩ => exact (show (dat0 (Vr1 m) c).arrAt 4 cfg0.N = o0 m c from rfl).trans ((outs_2 m c).symm.trans (V2_out m c).symm)

/-- Off the result array the two boundaries' contents agree. -/
theorem rest0_eq (c : Dev nD) :
    (Pipeline.unscopedRest (Ix := Unit) (Name := ℕ) (U := UR sig nD τ) (Lvl := ℕ) spec0 c (Wr0 (V2 m (outs m) c) c) : sProp 𝕄)
      = Pipeline.unscopedRest spec0 c (Wr0 (V1 m c) c) := by
  unfold Pipeline.unscopedRest
  refine bigSep_congr fun b hb => ?_
  have hne : b ≠ main_v7 := fun h => (Finset.mem_sdiff.mp hb).2 (h ▸ Finset.mem_image.mpr ⟨4, Finset.mem_univ _, rfl⟩)
  dsimp only [Wr0]
  rw [V2_of m (outs m) c b (by simpa using hne)]

/-- Entering: the unscoped buffers at the boundary's contents give the arrays at the proof data's entry contents and the rest. -/
theorem enter0 (c : Dev nD) : (StableHlo.held (c : Thread nD τ) (Pipeline.ucRefs τ sig) (V1 m c) : sProp 𝕄)
    ⊢ iprop((pdats m 0 c).arrays (fun w => (pdats m 0 c).arrAt w 0)
      ∗ Pipeline.unscopedRest (Ix := Unit) (Name := ℕ) (U := UR sig nD τ) (Lvl := ℕ) spec0 c (Wr0 (V1 m c) c)) := by
  rw [arr0_entry m c, ← Pipeline.unscopedBufs_held (Ix := Unit) (Name := ℕ) (U := UR sig nD τ) (Lvl := ℕ) c (V1 m c)]
  exact (bufs0_iff (Vr1 m) c (Wr0 (V1 m c) c)).1

/-- Leaving: the arrays at what the pipeline leaves and the rest as entered are the unscoped buffers at the next boundary's contents. -/
theorem leave0 (c : Dev nD) : iprop((pdats m 0 c).arrays (fun w => (pdats m 0 c).arrAt w cfg0.N)
      ∗ Pipeline.unscopedRest (Ix := Unit) (Name := ℕ) (U := UR sig nD τ) (Lvl := ℕ) spec0 c (Wr0 (V1 m c) c))
    ⊢ (StableHlo.held (c : Thread nD τ) (Pipeline.ucRefs τ sig) (V2 m (outs m) c) : sProp 𝕄) := by
  rw [arr0_exit m c, ← rest0_eq m c, ← Pipeline.unscopedBufs_held (Ix := Unit) (Name := ℕ) (U := UR sig nD τ) (Lvl := ℕ) c (V2 m (outs m) c)]
  exact (bufs0_iff (Vr1 m) c (Wr0 (V2 m (outs m) c) c)).2

set_option backward.isDefEq.respectTransparency.types false in
/-- REGION 0 over the thread state. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (Wr0 (V1 m c) c)
  hentry c := by
    rw [Pipeline.ownSems0_none]
    have hsplit := enter0 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := leave0 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kb.Reg1.lean ====
/-
  Kernel 1's region over the thread state "every unscoped buffer of the core at the boundary's contents, the generator
  register at some state, nothing owed": entered by taking the kernel's operand and result arrays out of the unscoped
  buffers — the array two windows read is split into two half shares, one per window — and left by putting them back, the result array at what the
  write-backs of the accumulator block leave.
-/
import proofs.«171171_j81080392613941_2_alg».proof.Proof.Kb.Pd

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A valuation of the core's buffers read at the TensorCore's references. -/
abbrev Wr1 (W : Valuation τ sig (Elt F)) (c : Dev nD) (b : Ref sig .tc) : Buf (Elt F) ((c : Thread nD τ).loc b) := W (Proc.devRef .tc b)

section Arrays

variable (V : (c : Dev nD) → (b : Ref sig .tc) → Buf (Elt F) ((c : Thread nD τ).loc b))

set_option maxHeartbeats 8000000 in
/-- The distinct buffers behind kernel 1's arrays, each held whole at contents `W`, are the pipeline's arrays at those
    contents: the buffer two input windows share is held by each at half. -/
theorem arrays1_iff (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      ⊣⊢ (dat1 V c).arrays (fun w => W (Pipeline.arrRef spec1 w)) := by
  unfold Pipeline.arrBufs Dat.arrays
  rw [bigSep_W1]
  rw [bigSep_eq_bigSepL_of_eq [main_arg1, main_v12, main_v16, main_v17] (by decide) (by decide)]
  rw [show (bigSepL [main_arg1, main_v12, main_v16, main_v17] fun b => (((c : Thread nD τ).loc b) ↦{fullShare} W b : sProp 𝕄))
    = iprop((((c : Thread nD τ).loc main_arg1) ↦{fullShare} W main_arg1) ∗ (((c : Thread nD τ).loc main_v12) ↦{fullShare} W main_v12) ∗ (((c : Thread nD τ).loc main_v16) ↦{fullShare} W main_v16) ∗ (((c : Thread nD τ).loc main_v17) ↦{fullShare} W main_v17)) from rfl]
  rw [(arr_whole1 0).set_eq_univ]; try rw [(arr_whole1 1).set_eq_univ]
  rw [(arr_whole1 2).set_eq_univ, (arr_whole1 3).set_eq_univ, (arr_whole1 4).set_eq_univ]
  rw [show (dat1 V c).share 0 = fullShare.left from rfl, show (dat1 V c).share 1 = fullShare.right from rfl,
    show (dat1 V c).share 2 = fullShare from rfl, show (dat1 V c).share 3 = fullShare from rfl, show (dat1 V c).share 4 = fullShare from rfl]
  have hs : (((c : Thread nD τ).loc main_arg1) ↦{fullShare} W main_arg1 : sProp 𝕄)
      ⊣⊢ iprop((((c : Thread nD τ).loc main_arg1) ↦{fullShare.left} W main_arg1) ∗ ((c : Thread nD τ).loc main_arg1) ↦{fullShare.right} W main_arg1) :=
    pointsTo_share (PosShare.mem_left_op_right fullShare)
  constructor
  · iintro ⟨Ha, H2, H6, H7⟩
    ihave Ha' := hs.1 $$ Ha
    icases Ha' with ⟨Hl, Hr⟩
    isplitl [Hl]; · iexact Hl
    isplitl [Hr]; · iexact Hr
    isplitl [H2]; · iexact H2
    isplitl [H6]; · iexact H6
    iexact H7
  · iintro ⟨Hl, Hr, H2, H6, H7⟩
    isplitl [Hl Hr]
    · iapply hs.2; isplitl [Hl]; · iexact Hl
      iexact Hr
    isplitl [H2]; · iexact H2
    isplitl [H6]; · iexact H6
    iexact H7

/-- The core's unscoped buffers are the buffers behind kernel 1's arrays and the rest. -/
theorem bufs1_split (c : Dev nD) (W : (b : Ref sig .tc) → Buf (Elt F) ((c : Thread nD τ).loc b)) :
    (unscopedBufs c W : sProp 𝕄) = iprop(Pipeline.arrBufs spec1 c W ∗ Pipeline.unscopedRest spec1 c W) := by
  classical
  have hA : Finset.univ.image (Pipeline.arrRef spec1) ⊆ Finset.univ.filter fun b : Ref sig .tc => ¬ b.isScoped := fun b hb => by
    obtain ⟨w, -, rfl⟩ := Finset.mem_image.mp hb
    exact Finset.mem_filter.mpr ⟨Finset.mem_univ _, by simp [winFacts₀1.arr_unscoped w]⟩
  unfold unscopedBufs Pipeline.unscopedRest Pipeline.arrBufs
  rw [bigSep_sdiff_split hA]
  rfl

/-- The core's unscoped buffers at `W` are kernel 1's arrays at `W` and the other unscoped buffers. -/
theorem bufs1_iff (c : Dev nD) (W : (b : Ref sig .tc) → Buf (Elt F) ((c : Thread nD τ).loc b)) :
    (unscopedBufs c W : sProp 𝕄)
      ⊣⊢ iprop((dat1 V c).arrays (fun w => W (Pipeline.arrRef spec1 w))
          ∗ Pipeline.unscopedRest (Ix := Unit) (Name := ℕ) (U := UR sig nD τ) (Lvl := ℕ) spec1 c W) := by
  rw [bufs1_split]
  exact ⟨sep_mono (arrays1_iff V c _).1 .rfl, sep_mono (arrays1_iff V c _).2 .rfl⟩

end Arrays

variable (m : (ℓ : Loc nD τ sig) → Buf (Elt F) ℓ)

/-- The result array's contents after the region are the region's result. -/
theorem V4_out (c : Dev nD) : V4 m (outs m) c main_v17 = outs m 4 main_v17 c := by
  simp only [V4, Function.update_self]

/-- At entry the arrays hold the boundary's contents. -/
theorem arr1_entry (c : Dev nD) : (fun w => (pdats m 1 c).arrAt w 0) = fun w => Wr1 (V3 m (outs m) c) c (Pipeline.arrRef spec1 w) := by
  funext w; exact (A_eq1 (Vr3 m) c w).trans (congrFun (V3_outs m c) _).symm

/-- At exit the input arrays are as entered and the result array holds what the write-backs leave: the next boundary's
    contents, which differ from the entry's at the result array only. -/
theorem arr1_exit (c : Dev nD) : (fun w => (pdats m 1 c).arrAt w cfg1.N) = fun w => Wr1 (V4 m (outs m) c) c (Pipeline.arrRef spec1 w) := by
  funext w
  match w with
  | ⟨0, _⟩ => exact ((dat1 (Vr3 m) c).arrAt_in 0 rfl _).trans ((A_eq1 (Vr3 m) c 0).trans ((congrFun (V3_outs m c) _).symm.trans (V4_of m (outs m) c main_arg1 (by decide)).symm))
  | ⟨1, _⟩ => exact ((dat1 (Vr3 m) c).arrAt_in 1 rfl _).trans ((A_eq1 (Vr3 m) c 1).trans ((congrFun (V3_outs m c) _).symm.trans (V4_of m (outs m) c main_arg1 (by decide)).symm))
  | ⟨2, _⟩ => exact ((dat1 (Vr3 m) c).arrAt_in 2 rfl _).trans ((A_eq1 (Vr3 m) c 2).trans ((congrFun (V3_outs m c) _).symm.trans (V4_of m (outs m) c main_v12 (by decide)).symm))
  | ⟨3, _⟩ => exact ((dat1 (Vr3 m) c).arrAt_in 3 rfl _).trans ((A_eq1 (Vr3 m) c 3).trans ((congrFun (V3_outs m c) _).symm.trans (V4_of m (outs m) c main_v16 (by decide)).symm))
  | ⟨4, _⟩ => exact (show (dat1 (Vr3 m) c).arrAt 4 cfg1.N = o1 m c from rfl).trans ((outs_4 m c).symm.trans (V4_out m c).symm)

/-- Off the result array the two boundaries' contents agree. -/
theorem rest1_eq (c : Dev nD) :
    (Pipeline.unscopedRest (Ix := Unit) (Name := ℕ) (U := UR sig nD τ) (Lvl := ℕ) spec1 c (Wr1 (V4 m (outs m) c) c) : sProp 𝕄)
      = Pipeline.unscopedRest spec1 c (Wr1 (V3 m (outs m) c) c) := by
  unfold Pipeline.unscopedRest
  refine bigSep_congr fun b hb => ?_
  have hne : b ≠ main_v17 := fun h => (Finset.mem_sdiff.mp hb).2 (h ▸ Finset.mem_image.mpr ⟨4, Finset.mem_univ _, rfl⟩)
  dsimp only [Wr1]
  rw [V4_of m (outs m) c b (by simpa using hne)]

/-- Entering: the unscoped buffers at the boundary's contents give the arrays at the proof data's entry contents and the rest. -/
theorem enter1 (c : Dev nD) : (StableHlo.held (c : Thread nD τ) (Pipeline.ucRefs τ sig) (V3 m (outs m) c) : sProp 𝕄)
    ⊢ iprop((pdats m 1 c).arrays (fun w => (pdats m 1 c).arrAt w 0)
      ∗ Pipeline.unscopedRest (Ix := Unit) (Name := ℕ) (U := UR sig nD τ) (Lvl := ℕ) spec1 c (Wr1 (V3 m (outs m) c) c)) := by
  rw [arr1_entry m c, ← Pipeline.unscopedBufs_held (Ix := Unit) (Name := ℕ) (U := UR sig nD τ) (Lvl := ℕ) c (V3 m (outs m) c)]
  exact (bufs1_iff (Vr3 m) c (Wr1 (V3 m (outs m) c) c)).1

/-- Leaving: the arrays at what the pipeline leaves and the rest as entered are the unscoped buffers at the next boundary's contents. -/
theorem leave1 (c : Dev nD) : iprop((pdats m 1 c).arrays (fun w => (pdats m 1 c).arrAt w cfg1.N)
      ∗ Pipeline.unscopedRest (Ix := Unit) (Name := ℕ) (U := UR sig nD τ) (Lvl := ℕ) spec1 c (Wr1 (V3 m (outs m) c) c))
    ⊢ (StableHlo.held (c : Thread nD τ) (Pipeline.ucRefs τ sig) (V4 m (outs m) c) : sProp 𝕄) := by
  rw [arr1_exit m c, ← rest1_eq m c, ← Pipeline.unscopedBufs_held (Ix := Unit) (Name := ℕ) (U := UR sig nD τ) (Lvl := ℕ) c (V4 m (outs m) c)]
  exact (bufs1_iff (Vr3 m) c (Wr1 (V4 m (outs m) c) c)).2

set_option backward.isDefEq.respectTransparency.types false in
/-- REGION 1 over the thread state. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vr3 m) c).loose
  hwaits := Pipeline.hwaits_of_owed_zero _ _ _ _ L lv 1 fun _ _ => rfl
  pre c := iprop(StableHlo.held (c : Thread nD τ) (Pipeline.ucRefs τ sig) (V3 m (outs m) c) ∗ Rr c)
  post c := iprop(StableHlo.held (c : Thread nD τ) (Pipeline.ucRefs τ sig) (V4 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (Wr1 (V3 m (outs m) c) c)
  hentry c := by
    rw [Pipeline.ownSems0_none]
    have hsplit := enter1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := leave1 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kb.Reg2.lean ====
/-
  Kernel 2's region over the thread state "every unscoped buffer of the core at the boundary's contents, the generator
  register at some state, nothing owed": entered by taking the kernel's operand and result arrays out of the unscoped
  buffers and left by putting them back, the result array at what the
  write-backs of the accumulator block leave.
-/
import proofs.«171171_j81080392613941_2_alg».proof.Proof.Kb.Pd

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A valuation of the core's buffers read at the TensorCore's references. -/
abbrev Wr2 (W : Valuation τ sig (Elt F)) (c : Dev nD) (b : Ref sig .tc) : Buf (Elt F) ((c : Thread nD τ).loc b) := W (Proc.devRef .tc b)

section Arrays

variable (V : (c : Dev nD) → (b : Ref sig .tc) → Buf (Elt F) ((c : Thread nD τ).loc b))

set_option maxHeartbeats 8000000 in
/-- The distinct buffers behind kernel 2's arrays, each held whole at contents `W`, are the pipeline's arrays at those
    contents. -/
theorem arrays2_iff (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      ⊣⊢ (dat2 V c).arrays (fun w => W (Pipeline.arrRef spec2 w)) := by
  unfold Pipeline.arrBufs Dat.arrays
  rw [bigSep_W2]
  rw [bigSep_eq_bigSepL_of_eq [main_arg0, main_arg1, main_v22, main_v26, main_v27] (by decide) (by decide)]
  rw [show (bigSepL [main_arg0, main_arg1, main_v22, main_v26, main_v27] fun b => (((c : Thread nD τ).loc b) ↦{fullShare} W b : sProp 𝕄))
    = iprop((((c : Thread nD τ).loc main_arg0) ↦{fullShare} W main_arg0) ∗ (((c : Thread nD τ).loc main_arg1) ↦{fullShare} W main_arg1) ∗ (((c : Thread nD τ).loc main_v22) ↦{fullShare} W main_v22) ∗ (((c : Thread nD τ).loc main_v26) ↦{fullShare} W main_v26) ∗ (((c : Thread nD τ).loc main_v27) ↦{fullShare} W main_v27)) from rfl]
  rw [(arr_whole2 0).set_eq_univ]; try rw [(arr_whole2 1).set_eq_univ]
  rw [(arr_whole2 2).set_eq_univ, (arr_whole2 3).set_eq_univ, (arr_whole2 4).set_eq_univ]
  rw [(dat2 V c).share_full (fun _ => rfl) 0, (dat2 V c).share_full (fun _ => rfl) 1, (dat2 V c).share_full (fun _ => rfl) 2,
    (dat2 V c).share_full (fun _ => rfl) 3, (dat2 V c).share_full (fun _ => rfl) 4]

/-- The core's unscoped buffers are the buffers behind kernel 2's arrays and the rest. -/
theorem bufs2_split (c : Dev nD) (W : (b : Ref sig .tc) → Buf (Elt F) ((c : Thread nD τ).loc b)) :
    (unscopedBufs c W : sProp 𝕄) = iprop(Pipeline.arrBufs spec2 c W ∗ Pipeline.unscopedRest spec2 c W) := by
  classical
  have hA : Finset.univ.image (Pipeline.arrRef spec2) ⊆ Finset.univ.filter fun b : Ref sig .tc => ¬ b.isScoped := fun b hb => by
    obtain ⟨w, -, rfl⟩ := Finset.mem_image.mp hb
    exact Finset.mem_filter.mpr ⟨Finset.mem_univ _, by simp [winFacts2.to₀.arr_unscoped w]⟩
  unfold unscopedBufs Pipeline.unscopedRest Pipeline.arrBufs
  rw [bigSep_sdiff_split hA]
  rfl

/-- The core's unscoped buffers at `W` are kernel 2's arrays at `W` and the other unscoped buffers. -/
theorem bufs2_iff (c : Dev nD) (W : (b : Ref sig .tc) → Buf (Elt F) ((c : Thread nD τ).loc b)) :
    (unscopedBufs c W : sProp 𝕄)
      ⊣⊢ iprop((dat2 V c).arrays (fun w => W (Pipeline.arrRef spec2 w))
          ∗ Pipeline.unscopedRest (Ix := Unit) (Name := ℕ) (U := UR sig nD τ) (Lvl := ℕ) spec2 c W) := by
  rw [bufs2_split]
  exact ⟨sep_mono (arrays2_iff V c _).1 .rfl, sep_mono (arrays2_iff V c _).2 .rfl⟩

end Arrays

variable (m : (ℓ : Loc nD τ sig) → Buf (Elt F) ℓ)

/-- The result array's contents after the region are the region's result. -/
theorem V6_out (c : Dev nD) : V6 m (outs m) c main_v27 = outs m 6 main_v27 c := by
  simp only [V6, Function.update_self]

/-- At entry the arrays hold the boundary's contents. -/
theorem arr2_entry (c : Dev nD) : (fun w => (pdats m 2 c).arrAt w 0) = fun w => Wr2 (V5 m (outs m) c) c (Pipeline.arrRef spec2 w) := by
  funext w; exact (A_eq2 (Vr5 m) c w).trans (congrFun (V5_outs m c) _).symm

/-- At exit the input arrays are as entered and the result array holds what the write-backs leave: the next boundary's
    contents, which differ from the entry's at the result array only. -/
theorem arr2_exit (c : Dev nD) : (fun w => (pdats m 2 c).arrAt w cfg2.N) = fun w => Wr2 (V6 m (outs m) c) c (Pipeline.arrRef spec2 w) := by
  funext w
  match w with
  | ⟨0, _⟩ => exact ((dat2 (Vr5 m) c).arrAt_in 0 rfl _).trans ((A_eq2 (Vr5 m) c 0).trans ((congrFun (V5_outs m c) _).symm.trans (V6_of m (outs m) c main_arg0 (by decide)).symm))
  | ⟨1, _⟩ => exact ((dat2 (Vr5 m) c).arrAt_in 1 rfl _).trans ((A_eq2 (Vr5 m) c 1).trans ((congrFun (V5_outs m c) _).symm.trans (V6_of m (outs m) c main_arg1 (by decide)).symm))
  | ⟨2, _⟩ => exact ((dat2 (Vr5 m) c).arrAt_in 2 rfl _).trans ((A_eq2 (Vr5 m) c 2).trans ((congrFun (V5_outs m c) _).symm.trans (V6_of m (outs m) c main_v22 (by decide)).symm))
  | ⟨3, _⟩ => exact ((dat2 (Vr5 m) c).arrAt_in 3 rfl _).trans ((A_eq2 (Vr5 m) c 3).trans ((congrFun (V5_outs m c) _).symm.trans (V6_of m (outs m) c main_v26 (by decide)).symm))
  | ⟨4, _⟩ => exact (show (dat2 (Vr5 m) c).arrAt 4 cfg2.N = o2 m c from rfl).trans ((outs_6 m c).symm.trans (V6_out m c).symm)

/-- Off the result array the two boundaries' contents agree. -/
theorem rest2_eq (c : Dev nD) :
    (Pipeline.unscopedRest (Ix := Unit) (Name := ℕ) (U := UR sig nD τ) (Lvl := ℕ) spec2 c (Wr2 (V6 m (outs m) c) c) : sProp 𝕄)
      = Pipeline.unscopedRest spec2 c (Wr2 (V5 m (outs m) c) c) := by
  unfold Pipeline.unscopedRest
  refine bigSep_congr fun b hb => ?_
  have hne : b ≠ main_v27 := fun h => (Finset.mem_sdiff.mp hb).2 (h ▸ Finset.mem_image.mpr ⟨4, Finset.mem_univ _, rfl⟩)
  dsimp only [Wr2]
  rw [V6_of m (outs m) c b (by simpa using hne)]

/-- Entering: the unscoped buffers at the boundary's contents give the arrays at the proof data's entry contents and the rest. -/
theorem enter2 (c : Dev nD) : (StableHlo.held (c : Thread nD τ) (Pipeline.ucRefs τ sig) (V5 m (outs m) c) : sProp 𝕄)
    ⊢ iprop((pdats m 2 c).arrays (fun w => (pdats m 2 c).arrAt w 0)
      ∗ Pipeline.unscopedRest (Ix := Unit) (Name := ℕ) (U := UR sig nD τ) (Lvl := ℕ) spec2 c (Wr2 (V5 m (outs m) c) c)) := by
  rw [arr2_entry m c, ← Pipeline.unscopedBufs_held (Ix := Unit) (Name := ℕ) (U := UR sig nD τ) (Lvl := ℕ) c (V5 m (outs m) c)]
  exact (bufs2_iff (Vr5 m) c (Wr2 (V5 m (outs m) c) c)).1

/-- Leaving: the arrays at what the pipeline leaves and the rest as entered are the unscoped buffers at the next boundary's contents. -/
theorem leave2 (c : Dev nD) : iprop((pdats m 2 c).arrays (fun w => (pdats m 2 c).arrAt w cfg2.N)
      ∗ Pipeline.unscopedRest (Ix := Unit) (Name := ℕ) (U := UR sig nD τ) (Lvl := ℕ) spec2 c (Wr2 (V5 m (outs m) c) c))
    ⊢ (StableHlo.held (c : Thread nD τ) (Pipeline.ucRefs τ sig) (V6 m (outs m) c) : sProp 𝕄) := by
  rw [arr2_exit m c, ← rest2_eq m c, ← Pipeline.unscopedBufs_held (Ix := Unit) (Name := ℕ) (U := UR sig nD τ) (Lvl := ℕ) c (V6 m (outs m) c)]
  exact (bufs2_iff (Vr5 m) c (Wr2 (V6 m (outs m) c) c)).2

set_option backward.isDefEq.respectTransparency.types false in
/-- REGION 2 over the thread state. -/
def reg2 : Pipeline.RegionSeg (pcfgs (F := F)) adm (pdats m) () defs₀ 𝒱₀ L lv 2 where
  win := winFacts2.to₀
  block_pos := block_pos2
  stage_whole := stage_whole2
  K := PEmpty
  osem k := k.elim
  ho := Pipeline.OwnSemFacts.none _
  hbody c := (body_obligation2 (Vr5 m) c).loose
  hwaits := Pipeline.hwaits_of_owed_zero _ _ _ _ L lv 2 fun _ _ => rfl
  pre c := iprop(StableHlo.held (c : Thread nD τ) (Pipeline.ucRefs τ sig) (V5 m (outs m) c) ∗ Rr c)
  post c := iprop(StableHlo.held (c : Thread nD τ) (Pipeline.ucRefs τ sig) (V6 m (outs m) c) ∗ Rr c)
  X c := iprop(∃ r, prngReg c r)
  Y c := iprop(∃ r, prngReg c r)
  Z c := Pipeline.unscopedRest (Ix := Unit) (Name := ℕ) (U := UR sig nD τ) (Lvl := ℕ) spec2 c (Wr2 (V5 m (outs m) c) c)
  hentry c := by
    rw [Pipeline.ownSems0_none]
    have hsplit := enter2 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := leave2 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kb.Run.lean ====
/-
  The whole program run: every weakly fair execution terminates, nothing faulting, the two argument arrays end as
  launched, and the result buffer ends holding what the last stretch of host operations computes from the three
  kernels' results. The program is a chain of four stretches of host operations and three kernel regions; each
  region is entered from the contents the stretch before it leaves and left at those contents with the kernel's
  result array replaced by what the pipeline's write-backs leave there.
-/
import proofs.«171171_j81080392613941_2_alg».proof.Proof.Kb.Reg0
import proofs.«171171_j81080392613941_2_alg».proof.Proof.Kb.Reg1
import proofs.«171171_j81080392613941_2_alg».proof.Proof.Kb.Reg2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

section Cond

variable (m : (ℓ : Loc nD τ sig) → Buf (Elt F) ℓ)

set_option backward.isDefEq.respectTransparency.types false in
/-- The run, given the regions' records: as the conditional frame, with the result buffer read off the last contents too. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c)) :
    θ_run defs (onTc (τ := τ) (main (F := F))) ⟨m, fun _ => 0, ρ⟩ (fun r => ∀ c : Dev nD,
      r.2.mem ((c.tc : Thread nD τ).loc main_v34) = V7 m outs c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨.rfl, hpre0 c, hpost0 c, hpre1 c, hpost1 c, hpre2 c, hpost2 c, sep_mono .rfl (hE3 c)⟩)
    (hinit := ?_) (QY := fun c s => s.mem ((c.tc : Thread nD τ).loc main_v34) = V7 m outs c main_v34 ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro
      exact ⟨h (Proc.devRef .tc main_v34) (Finset.mem_filter.mpr ⟨StableHlo.devRef_mem_tcRefs main_v34, by decide⟩),
        (h (Proc.devRef .tc main_arg0) (Finset.mem_filter.mpr ⟨StableHlo.devRef_mem_tcRefs main_arg0, by decide⟩)).trans (V7_main_arg0 m outs c),
        (h (Proc.devRef .tc main_arg1) (Finset.mem_filter.mpr ⟨StableHlo.devRef_mem_tcRefs main_arg1, by decide⟩)).trans (V7_main_arg1 m outs c)⟩
    · iexact HSI

end Cond

variable (m : (ℓ : Loc nD τ sig) → Buf (Elt F) ℓ) (ρ : Dev nD → PrngReg)

/-- THE RUN at any instance: the result buffer ends at the last stretch's value over the kernels' results, the arguments
    as launched. -/
theorem run_main : θ_run defs (onTc (τ := τ) (main (F := F))) ⟨m, fun _ => 0, ρ⟩ (fun r => ∀ c : Dev nD,
      r.2.mem ((c.tc : Thread nD τ).loc main_v34) = V7 m (outs m) c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => Rr)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun _ => .rfl) (fun _ => .rfl)
    (reg2 m) (fun _ => .rfl) (fun _ => .rfl)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Hand

end
-- ==== Proof.HostGlue.lean ====
/-
  The host operations of the kernel's program around its three kernel regions, read at the ideal instance: what each
  region finds in its operands (the argument arrays and the row sums of squares), and what the last stretch of host
  operations makes of the three regions' partial sums.
-/
import proofs.«171171_j81080392613941_2_alg».proof.Proof.Gen.KernelIdeal.Regions
import Idealize.ShloMosaic.Lib.StableHlo.Run
import Idealize.ShloMosaic.Lib.ValueIdx
import Idealize.ShloMosaic.Lib.Pipeline.Value
import Idealize.ShloMosaic.Lib.ReduceAll
import Idealize.ShloMosaic.PureOps.Ideal.Laws

noncomputable section

namespace Cert.KernelIdeal.HostGlue

open Cert.KernelIdeal Cert.KernelIdeal.Gen Idealize.ShloMosaic Idealize.ShloMosaic.TcCoe Idealize.SL.Sem Idealize.ShloMosaic.StableHlo
open Idealize.ShloMosaic.ValueIdx
open scoped BigOperators

/-! ## The constants the host operations spell -/

/-- The f32 word `0x4C800000` denotes `2^26 = 67108864`, the number of pairs. -/
theorem ofBits_pairs : Ideal.ofBits .f32 0x4C800000#32 = ((67108864 : ℝ) : EReal) := by
  simp [Ideal.ofBits, Ideal.ieee, -EReal.coe_mul]; norm_num

/-- The f32 word `0x40000000` denotes `2`. -/
theorem ofBits_two : Ideal.ofBits .f32 0x40000000#32 = ((2 : ℝ) : EReal) := by
  simp [Ideal.ofBits, Ideal.ieee, -EReal.coe_mul]; norm_num

/-! ## A row's sum of squares, as a column and as a row -/

/-- The host's sum over axis 1 of the elementwise square of an `[8192, 256]` array, from the zero word, at row `r`:
    the sum of the row's squares. -/
theorem rowsq_apply (x : (⟨S8192x256, .f32⟩ : BufTy).Contents (Elt Ideal)) (r : Fin 8192) :
    (Host.reduceAdd (mulf x x) (constant (F := Ideal) S_ .f32 0x00000000#32) reducesTo_S8192x256_S8192_d1 h_S_
        : (⟨S8192, .f32⟩ : BufTy).Contents (Elt Ideal)) (ix1 r)
      = ∑ k : Fin 256, x (ix2 r k) * x (ix2 r k) := by
  simp only [Host.reduceAdd, Ideal.hostReduceAdd_def]
  rw [Ideal.hostReduceAdd_single reducesTo_S8192x256_S8192_d1 (by decide)]
  rw [show (constant (F := Ideal) S_ .f32 0x00000000#32) (Shape.Idx.first h_S_) = 0 from Ideal.ofBits_zero_f32, zero_add]
  refine Finset.sum_congr rfl fun k _ => ?_
  have e : (Shape.Reduces.lift (s := S8192x256) (t := S8192) (by decide) (ix1 r) k : S8192x256.Idx) = ix2 r k :=
    funext fun a => Fin.ext (by match a with | ⟨0, _⟩ => rfl | ⟨1, _⟩ => rfl)
  rw [e]
  rfl

/-- The column `[8192, 1]` broadcast of the row sums of squares, at `(r, 0)`. -/
theorem rowsq_col_apply (x : (⟨S8192x256, .f32⟩ : BufTy).Contents (Elt Ideal)) (r : Fin 8192) :
    (broadcastInDim S8192x1 ![0] bcast_S8192_S8192x1_0
        (Host.reduceAdd (mulf x x) (constant (F := Ideal) S_ .f32 0x00000000#32) reducesTo_S8192x256_S8192_d1 h_S_)
        : (⟨S8192x1, .f32⟩ : BufTy).Contents (Elt Ideal)) (ix2 r 0)
      = ∑ k : Fin 256, x (ix2 r k) * x (ix2 r k) := by
  rw [broadcastInDim_apply _ bcast_S8192_S8192x1_0 _ (ix2 r 0) (ix1 r) (fun a => match a with
    | ⟨0, _⟩ => by show r.val = if (8192 : Nat) = 1 then 0 else r.val; rw [if_neg (by decide)])]
  exact rowsq_apply x r

/-- The row `[1, 8192]` transpose of that column, at `(0, s)`. -/
theorem rowsq_row_apply (x : (⟨S8192x256, .f32⟩ : BufTy).Contents (Elt Ideal)) (s : Fin 8192) :
    (transpose S1x8192 [1, 0] (broadcastInDim S8192x1 ![0] bcast_S8192_S8192x1_0
        (Host.reduceAdd (mulf x x) (constant (F := Ideal) S_ .f32 0x00000000#32) reducesTo_S8192x256_S8192_d1 h_S_))
        transposes_S8192x1_S1x8192_1_0
        : (⟨S1x8192, .f32⟩ : BufTy).Contents (Elt Ideal)) (ix2 0 s)
      = ∑ k : Fin 256, x (ix2 s k) * x (ix2 s k) := by
  rw [transpose_apply [1, 0] _ transposes_S8192x1_S1x8192_1_0 (ix2 0 s) (ix2 s 0) (fun b => match b with
    | ⟨0, _⟩ => rfl
    | ⟨1, _⟩ => rfl)]
  exact rowsq_col_apply x s

/-! ## The argument arrays -/

/-- Core `c`'s first argument array at launch, as a function from its indices to the extended reals. -/
abbrev argN (m : (ℓ : Loc nD τ sig) → Buf (Elt Ideal) ℓ) (c : Dev nD) : S8192x256.Idx → EReal :=
  m ((c : Thread nD τ).loc main_arg0)

/-- Core `c`'s second argument array at launch, as a function from its indices to the extended reals. -/
abbrev argR (m : (ℓ : Loc nD τ sig) → Buf (Elt Ideal) ℓ) (c : Dev nD) : S8192x256.Idx → EReal :=
  m ((c : Thread nD τ).loc main_arg1)

/-! ## What the first region finds -/

section
variable (m : (ℓ : Loc nD τ sig) → Buf (Elt Ideal) ℓ) (outs : Outs (F := Ideal)) (c : Dev nD)

/-- The first argument array is as launched. -/
theorem V1_arg0 : V1 m c main_arg0 = m ((c : Thread nD τ).loc main_arg0) :=
  V1_of m c main_arg0 (by decide)

/-- The first region's column operand: the first argument's row sums of squares. -/
theorem V1_v2 (r : Fin 8192) :
    (V1 (F := Ideal) m c main_v2 : S8192x1.Idx → EReal) (ix2 r 0)
      = ∑ k : Fin 256, argN m c (ix2 r k) * argN m c (ix2 r k) := by
  have e : (V1 (F := Ideal) m c main_v2 : S8192x1.Idx → EReal)
      = broadcastInDim S8192x1 ![0] bcast_S8192_S8192x1_0
          (Host.reduceAdd (mulf (argN m c) (argN m c))
            (constant (F := Ideal) S_ .f32 0x00000000#32) reducesTo_S8192x256_S8192_d1 h_S_) := by
    dsimp only [V1, V0, hostOps0]
    after_results
  rw [e]
  exact rowsq_col_apply _ r

/-- The first region's row operand: the same sums, laid out as a row. -/
theorem V1_v6 (s : Fin 8192) :
    (V1 (F := Ideal) m c main_v6 : S1x8192.Idx → EReal) (ix2 0 s)
      = ∑ k : Fin 256, argN m c (ix2 s k) * argN m c (ix2 s k) := by
  have e : (V1 (F := Ideal) m c main_v6 : S1x8192.Idx → EReal)
      = transpose S1x8192 [1, 0] (broadcastInDim S8192x1 ![0] bcast_S8192_S8192x1_0
          (Host.reduceAdd (mulf (argN m c) (argN m c))
            (constant (F := Ideal) S_ .f32 0x00000000#32) reducesTo_S8192x256_S8192_d1 h_S_)) transposes_S8192x1_S1x8192_1_0 := by
    dsimp only [V1, V0, hostOps0]
    after_results
  rw [e]
  exact rowsq_row_apply _ s

end

/-! ## What the second and the third region find -/

section
variable (m : (ℓ : Loc nD τ sig) → Buf (Elt Ideal) ℓ) (outs : Outs (F := Ideal)) (c : Dev nD)

/-- No item before the second region writes the second argument. -/
theorem V2_arg1 : (V2 (F := Ideal) m outs c main_arg1 : S8192x256.Idx → EReal) = argR m c :=
  (V2_of m outs c main_arg1 (by decide)).trans (V1_of m c main_arg1 (by decide))

/-- The second argument array is as launched. -/
theorem V3_arg1 : V3 m outs c main_arg1 = m ((c : Thread nD τ).loc main_arg1) :=
  (V3_of m outs c main_arg1 (by decide)).trans (V2_arg1 m outs c)

/-- The second region's column operand: the second argument's row sums of squares. -/
theorem V3_v12 (r : Fin 8192) :
    (V3 (F := Ideal) m outs c main_v12 : S8192x1.Idx → EReal) (ix2 r 0)
      = ∑ k : Fin 256, argR m c (ix2 r k) * argR m c (ix2 r k) := by
  have e : (V3 (F := Ideal) m outs c main_v12 : S8192x1.Idx → EReal)
      = broadcastInDim S8192x1 ![0] bcast_S8192_S8192x1_0
          (Host.reduceAdd (mulf (argR m c) (argR m c))
            (constant (F := Ideal) S_ .f32 0x00000000#32) reducesTo_S8192x256_S8192_d1 h_S_) := by
    dsimp only [V3, hostOps1]
    after_results
    rw [V2_arg1]
  rw [e]
  exact rowsq_col_apply _ r

/-- The second region's row operand: the same sums, laid out as a row. -/
theorem V3_v16 (s : Fin 8192) :
    (V3 (F := Ideal) m outs c main_v16 : S1x8192.Idx → EReal) (ix2 0 s)
      = ∑ k : Fin 256, argR m c (ix2 s k) * argR m c (ix2 s k) := by
  have e : (V3 (F := Ideal) m outs c main_v16 : S1x8192.Idx → EReal)
      = transpose S1x8192 [1, 0] (broadcastInDim S8192x1 ![0] bcast_S8192_S8192x1_0
          (Host.reduceAdd (mulf (argR m c) (argR m c))
            (constant (F := Ideal) S_ .f32 0x00000000#32) reducesTo_S8192x256_S8192_d1 h_S_)) transposes_S8192x1_S1x8192_1_0 := by
    dsimp only [V3, hostOps1]
    after_results
    rw [V2_arg1]
  rw [e]
  exact rowsq_row_apply _ s

/-- No item before the third region writes the first argument. -/
theorem V4_arg0 : (V4 (F := Ideal) m outs c main_arg0 : S8192x256.Idx → EReal) = argN m c :=
  (V4_of m outs c main_arg0 (by decide)).trans <| (V3_of m outs c main_arg0 (by decide)).trans <|
    (V2_of m outs c main_arg0 (by decide)).trans (V1_of m c main_arg0 (by decide))

/-- No item before the third region writes the second argument. -/
theorem V4_arg1 : (V4 (F := Ideal) m outs c main_arg1 : S8192x256.Idx → EReal) = argR m c :=
  (V4_of m outs c main_arg1 (by decide)).trans (V3_arg1 m outs c)

/-- The first argument array is as launched. -/
theorem V5_arg0 : V5 m outs c main_arg0 = m ((c : Thread nD τ).loc main_arg0) :=
  (V5_of m outs c main_arg0 (by decide)).trans (V4_arg0 m outs c)

/-- The second argument array is as launched. -/
theorem V5_arg1 : V5 m outs c main_arg1 = m ((c : Thread nD τ).loc main_arg1) :=
  (V5_of m outs c main_arg1 (by decide)).trans (V4_arg1 m outs c)

/-- The third region's column operand: the first argument's row sums of squares. -/
theorem V5_v22 (r : Fin 8192) :
    (V5 (F := Ideal) m outs c main_v22 : S8192x1.Idx → EReal) (ix2 r 0)
      = ∑ k : Fin 256, argN m c (ix2 r k) * argN m c (ix2 r k) := by
  have e : (V5 (F := Ideal) m outs c main_v22 : S8192x1.Idx → EReal)
      = broadcastInDim S8192x1 ![0] bcast_S8192_S8192x1_0
          (Host.reduceAdd (mulf (argN m c) (argN m c))
            (constant (F := Ideal) S_ .f32 0x00000000#32) reducesTo_S8192x256_S8192_d1 h_S_) := by
    dsimp only [V5, hostOps2]
    after_results
    rw [V4_arg0]
  rw [e]
  exact rowsq_col_apply _ r

/-- The third region's row operand: the second argument's row sums of squares, laid out as a row. -/
theorem V5_v26 (s : Fin 8192) :
    (V5 (F := Ideal) m outs c main_v26 : S1x8192.Idx → EReal) (ix2 0 s)
      = ∑ k : Fin 256, argR m c (ix2 s k) * argR m c (ix2 s k) := by
  have e : (V5 (F := Ideal) m outs c main_v26 : S1x8192.Idx → EReal)
      = transpose S1x8192 [1, 0] (broadcastInDim S8192x1 ![0] bcast_S8192_S8192x1_0
          (Host.reduceAdd (mulf (argR m c) (argR m c))
            (constant (F := Ideal) S_ .f32 0x00000000#32) reducesTo_S8192x256_S8192_d1 h_S_)) transposes_S8192x1_S1x8192_1_0 := by
    dsimp only [V5, hostOps2]
    after_results
    rw [V4_arg1]
  rw [e]
  exact rowsq_row_apply _ s

end

/-! ## The mean of a region's two partial sums, and the last operations -/

/-- An index of the `[2, 1, 1]` shape is its first coordinate. -/
def idx211 : S2x1x1.Idx ≃ Fin 2 where
  toFun i := i 0
  invFun a := ix3 a 0 0
  left_inv i := by
    funext d
    match d with
    | ⟨0, _⟩ => rfl
    | ⟨1, _⟩ => exact Fin.ext (by have h : (i 1).val < 1 := (i 1).isLt; show 0 = (i 1).val; omega)
    | ⟨2, _⟩ => exact Fin.ext (by have h : (i 2).val < 1 := (i 2).isLt; show 0 = (i 2).val; omega)
  right_inv _ := rfl

/-- A sum over the `[2, 1, 1]` shape has two terms. -/
theorem sum_S2x1x1 (o : S2x1x1.Idx → EReal) : ∑ i : S2x1x1.Idx, o i = o (ix3 0 0 0) + o (ix3 1 0 0) := by
  rw [← Equiv.sum_comp idx211.symm o, Fin.sum_univ_two]
  rfl

/-- The host's sum of a `[2, 1, 1]` array over all its axes, from the zero word, divided by the word of `2^26`: the
    two entries' sum over the number of pairs, when the entries are real. -/
theorem mean_apply (o : (⟨S2x1x1, .f32⟩ : BufTy).Contents (Elt Ideal)) (t : Fin 2 → ℝ)
    (h : ∀ e : Fin 2, o (ix3 e 0 0) = ((t e : ℝ) : EReal)) (i : S_.Idx) :
    (Host.divf (Host.reduceAdd o (constant (F := Ideal) S_ .f32 0x00000000#32) reducesTo_S2x1x1_S_d0_1_2 h_S_)
        (constant (F := Ideal) S_ .f32 0x4C800000#32) : (⟨S_, .f32⟩ : BufTy).Contents (Elt Ideal)) i
      = (((t 0 + t 1) / 67108864 : ℝ) : EReal) := by
  show Ideal.div ((Host.reduceAdd o (constant (F := Ideal) S_ .f32 0x00000000#32) reducesTo_S2x1x1_S_d0_1_2 h_S_
      : (⟨S_, .f32⟩ : BufTy).Contents (Elt Ideal)) i) (Ideal.ofBits .f32 0x4C800000#32) = _
  simp only [Host.reduceAdd, Ideal.hostReduceAdd_def]
  rw [Ideal.hostReduceAdd_total reducesTo_S2x1x1_S_d0_1_2 (fun b => b.elim0),
    show (constant (F := Ideal) S_ .f32 0x00000000#32) (Shape.Idx.first h_S_) = 0 from Ideal.ofBits_zero_f32, zero_add,
    sum_S2x1x1, h 0, h 1, ofBits_pairs, Ideal.div_coe (by norm_num), ← EReal.coe_add, ← EReal.coe_mul]
  congr 1
  ring

/-- The last host operations on three real scalars `A`, `B`, `C`: `sqrt (max (A + B - 2 C) 0)`. -/
theorem tail_apply (a b d : (⟨S_, .f32⟩ : BufTy).Contents (Elt Ideal)) (A B C : ℝ)
    (ha : ∀ i, a i = ((A : ℝ) : EReal)) (hb : ∀ i, b i = ((B : ℝ) : EReal)) (hd : ∀ i, d i = ((C : ℝ) : EReal)) (i : S_.Idx) :
    (Host.sqrt (maximumf (subf (addf a b) (mulf (constant (F := Ideal) S_ .f32 0x40000000#32) d))
        (constant (F := Ideal) S_ .f32 0x00000000#32)) : (⟨S_, .f32⟩ : BufTy).Contents (Elt Ideal)) i
      = Ideal.sqrt ((max ((A + B) - 2 * C) 0 : ℝ) : EReal) := by
  show Ideal.sqrt (max ((a i + b i) - Ideal.ofBits .f32 0x40000000#32 * d i) (Ideal.ofBits .f32 0x00000000#32)) = _
  rw [ha, hb, hd, ofBits_two, Ideal.ofBits_zero_f32, ← EReal.coe_add, ← EReal.coe_mul, ← EReal.coe_sub, ← EReal.coe_zero,
    ← EReal.coe_strictMono.monotone.map_max]

/-! ## The regions' results, and the scalars carried to the end -/

section
variable (m : (ℓ : Loc nD τ sig) → Buf (Elt Ideal) ℓ) (outs : Outs (F := Ideal)) (c : Dev nD)

/-- After the first region its result buffer holds what the region left. -/
theorem V2_v7 : V2 m outs c main_v7 = outs 2 main_v7 c := Function.update_self _ _ _
/-- After the second region its result buffer holds what the region left. -/
theorem V4_v17 : V4 m outs c main_v17 = outs 4 main_v17 c := Function.update_self _ _ _
/-- After the third region its result buffer holds what the region left. -/
theorem V6_v27 : V6 m outs c main_v27 = outs 6 main_v27 c := Function.update_self _ _ _

/-- The first mean, as the second stretch of host operations writes it. -/
theorem V3_v9 : (V3 (F := Ideal) m outs c main_v9 : S_.Idx → EReal)
    = Host.divf (Host.reduceAdd (outs 2 main_v7 c : S2x1x1.Idx → EReal) (constant (F := Ideal) S_ .f32 0x00000000#32)
        reducesTo_S2x1x1_S_d0_1_2 h_S_) (constant (F := Ideal) S_ .f32 0x4C800000#32) := by
  dsimp only [V3, hostOps1]
  after_results
  rw [V2_v7]

/-- The second mean, as the third stretch of host operations writes it. -/
theorem V5_v19 : (V5 (F := Ideal) m outs c main_v19 : S_.Idx → EReal)
    = Host.divf (Host.reduceAdd (outs 4 main_v17 c : S2x1x1.Idx → EReal) (constant (F := Ideal) S_ .f32 0x00000000#32)
        reducesTo_S2x1x1_S_d0_1_2 h_S_) (constant (F := Ideal) S_ .f32 0x4C800000#32) := by
  dsimp only [V5, hostOps2]
  after_results
  rw [V4_v17]

/-- The program's result: the square root of the clamped combination of the three means of the regions' partial sums. -/
theorem V7_v34 (t0 t1 t2 : Fin 2 → ℝ)
    (h0 : ∀ e : Fin 2, (outs 2 main_v7 c : S2x1x1.Idx → EReal) (ix3 e 0 0) = ((t0 e : ℝ) : EReal))
    (h1 : ∀ e : Fin 2, (outs 4 main_v17 c : S2x1x1.Idx → EReal) (ix3 e 0 0) = ((t1 e : ℝ) : EReal))
    (h2 : ∀ e : Fin 2, (outs 6 main_v27 c : S2x1x1.Idx → EReal) (ix3 e 0 0) = ((t2 e : ℝ) : EReal)) :
    (V7 (F := Ideal) m outs c main_v34 : S_.Idx → EReal)
      = fun _ => Ideal.sqrt ((max (((t0 0 + t0 1) / 67108864 + (t1 0 + t1 1) / 67108864)
          - 2 * ((t2 0 + t2 1) / 67108864)) 0 : ℝ) : EReal) := by
  have e : (V7 (F := Ideal) m outs c main_v34 : S_.Idx → EReal)
      = Host.sqrt (maximumf (subf (addf (V6 (F := Ideal) m outs c main_v9 : S_.Idx → EReal) (V6 (F := Ideal) m outs c main_v19))
          (mulf (constant (F := Ideal) S_ .f32 0x40000000#32)
            (Host.divf (Host.reduceAdd (V6 (F := Ideal) m outs c main_v27 : S2x1x1.Idx → EReal) (constant (F := Ideal) S_ .f32 0x00000000#32)
              reducesTo_S2x1x1_S_d0_1_2 h_S_) (constant (F := Ideal) S_ .f32 0x4C800000#32))))
          (constant (F := Ideal) S_ .f32 0x00000000#32)) := by
    dsimp only [V7, hostOps3]
    after_results
  have e9 : (V6 (F := Ideal) m outs c main_v9 : S_.Idx → EReal) = (V3 (F := Ideal) m outs c main_v9 : S_.Idx → EReal) :=
    (V6_of m outs c main_v9 (by decide)).trans <| (V5_of m outs c main_v9 (by decide)).trans (V4_of m outs c main_v9 (by decide))
  have e19 : (V6 (F := Ideal) m outs c main_v19 : S_.Idx → EReal) = (V5 (F := Ideal) m outs c main_v19 : S_.Idx → EReal) :=
    V6_of m outs c main_v19 (by decide)
  rw [e, e9, e19, V6_v27, V3_v9, V5_v19]
  funext i
  exact tail_apply _ _ _ _ _ _ (fun i => mean_apply _ t0 h0 i) (fun i => mean_apply _ t1 h1 i) (fun i => mean_apply _ t2 h2 i) i

end

end Cert.KernelIdeal.HostGlue

end
-- ==== Proof.MmdSpec.lean ====
/-
  The quantities both programs compute, over the reals.

  For two finite families of points `x i`, `y j` in a finite-dimensional coordinate space, the Gaussian Gram entry
  is `exp (-(max d 0))` with `d = |u|² + |v|² - 2 u·v` the squared distance written as both programs write it
  (two row sums of squares and an inner product); `gsum` adds the entries over all pairs, and `mmd` is the biased
  squared maximum mean discrepancy of two samples of 8192 points in 256 coordinates: the three means of Gram entries
  combined as `xx + yy - 2 xy`.
-/
import Mathlib.Analysis.SpecialFunctions.Exp
import Mathlib.Algebra.BigOperators.Group.Finset.Basic

noncomputable section

namespace Cert.Mmd

open scoped BigOperators

/-- The sum of squares of a point's coordinates. -/
def sq {κ : Type} [Fintype κ] (u : κ → ℝ) : ℝ := ∑ k, u k * u k

/-- The inner product of two points. -/
def dot {κ : Type} [Fintype κ] (u v : κ → ℝ) : ℝ := ∑ k, u k * v k

/-- The squared distance as the programs spell it: `|u|² + |v|² - 2 u·v`. -/
def dist2 {κ : Type} [Fintype κ] (u v : κ → ℝ) : ℝ := sq u + sq v - 2 * dot u v

/-- The Gaussian Gram entry of two points, as the programs spell it: `exp ((-1) · max d 0)`. -/
def gram {κ : Type} [Fintype κ] (u v : κ → ℝ) : ℝ := Real.exp (-1 * max (dist2 u v) 0)

/-- The sum of the Gram entries over all pairs of two families of points. -/
def gsum {ι ι' κ : Type} [Fintype ι] [Fintype ι'] [Fintype κ] (x : ι → κ → ℝ) (y : ι' → κ → ℝ) : ℝ :=
  ∑ i, ∑ j, gram (x i) (y j)

/-- The biased squared maximum mean discrepancy of two samples of 8192 points: each Gram sum divided by 8192². -/
def mmd {κ : Type} [Fintype κ] (x y : Fin 8192 → κ → ℝ) : ℝ :=
  gsum x x / 67108864 + gsum y y / 67108864 - 2 * (gsum x y / 67108864)

end Cert.Mmd

end
-- ==== Proof.LibGaussMmd.lean ====
/-
  Real-number facts about the Gaussian Gram entries and the maximum mean discrepancy of `MmdSpec`:
  the squared distance is a sum of squares (so the clamp at zero in the Gram entry is idle), the Gram entry of a point
  with itself is one, the Gaussian Gram matrix is positive semidefinite (so the biased squared discrepancy is
  nonnegative), and a double sum over 8192 × 8192 pairs can be added up block by block.
-/
import proofs.«171171_j81080392613941_2_alg».proof.Proof.MmdSpec
import Mathlib.Algebra.BigOperators.Fin
import Mathlib.Algebra.BigOperators.Ring.Finset
import Mathlib.Logic.Equiv.Fin.Basic
import Mathlib.Analysis.SpecialFunctions.Exponential
import Mathlib.Topology.Algebra.InfiniteSum.Order
import Mathlib.Topology.Algebra.InfiniteSum.Ring

noncomputable section

namespace Cert.Mmd

open scoped BigOperators

/-! ### Adding up a double sum block by block -/

/-- A sum over `m * n` consecutive naturals is the sum over `m` blocks of `n` consecutive naturals each. -/
theorem sum_fin_mul {M : Type} [AddCommMonoid M] (m n : ℕ) (h : ℕ → M) :
    (∑ i : Fin m, ∑ a : Fin n, h (i.val * n + a.val)) = ∑ r : Fin (m * n), h r.val := by
  rw [← Fintype.sum_prod_type' (f := fun (i : Fin m) (a : Fin n) => h (i.val * n + a.val))]
  refine Fintype.sum_equiv finProdFinEquiv _ _ (fun x => ?_)
  simp [finProdFinEquiv, Nat.mul_comm, Nat.add_comm]

/-- The double sum over all pairs `(r, s)` with `r, s < 8192`, added up over a `2 × 16 × 2` grid of blocks of
`512 × 2048` pairs: block `(c, i, j)` holds the rows `i * 512 + a` and the columns `(c * 2 + j) * 2048 + b`. -/
theorem sum_blocks {M : Type} [AddCommMonoid M] (g : ℕ → ℕ → M) :
    (∑ c : Fin 2, ∑ i : Fin 16, ∑ j : Fin 2, ∑ a : Fin 512, ∑ b : Fin 2048,
        g (i.val * 512 + a.val) ((c.val * 2 + j.val) * 2048 + b.val))
      = ∑ r : Fin 8192, ∑ s : Fin 8192, g r.val s.val := by
  -- the columns of one row
  have hcol : ∀ r : ℕ, (∑ c : Fin 2, ∑ j : Fin 2, ∑ b : Fin 2048, g r ((c.val * 2 + j.val) * 2048 + b.val))
      = ∑ s : Fin 8192, g r s.val := by
    intro r
    have h1 := sum_fin_mul 2 2 (fun q => ∑ b : Fin 2048, g r (q * 2048 + b.val))
    have h2 := sum_fin_mul 4 2048 (fun s => g r s)
    exact h1.trans h2
  -- the rows
  have hrow := sum_fin_mul 16 512 (fun r => ∑ s : Fin 8192, g r s.val)
  refine Eq.trans ?_ hrow
  rw [Finset.sum_comm]
  refine Finset.sum_congr rfl fun i _ => ?_
  simp only [← hcol]
  symm
  rw [Finset.sum_comm]
  refine Finset.sum_congr rfl fun c _ => ?_
  exact Finset.sum_comm

/-! ### The squared distance and the Gram entry -/

variable {κ : Type} [Fintype κ]

/-- The squared distance `|u|² + |v|² - 2 u·v` is the sum of the squared coordinate differences. -/
theorem dist2_eq_sum_sq (u v : κ → ℝ) : dist2 u v = ∑ k, (u k - v k) ^ 2 := by
  unfold dist2 sq dot
  rw [Finset.mul_sum, ← Finset.sum_add_distrib, ← Finset.sum_sub_distrib]
  refine Finset.sum_congr rfl fun k _ => ?_
  ring

/-- The squared distance is nonnegative. -/
theorem dist2_nonneg (u v : κ → ℝ) : 0 ≤ dist2 u v := by
  rw [dist2_eq_sum_sq]
  exact Finset.sum_nonneg fun k _ => sq_nonneg _

/-- The squared distance of a point to itself is zero. -/
theorem dist2_self (u : κ → ℝ) : dist2 u u = 0 := by
  rw [dist2_eq_sum_sq]
  simp

/-- The squared distance is symmetric. -/
theorem dist2_comm (u v : κ → ℝ) : dist2 u v = dist2 v u := by
  rw [dist2_eq_sum_sq, dist2_eq_sum_sq]
  refine Finset.sum_congr rfl fun k _ => ?_
  ring

/-- The Gram entry is `exp (-d)` with `d` the squared distance: the clamp `max d 0` is idle because `d ≥ 0`. -/
theorem gram_eq (u v : κ → ℝ) : gram u v = Real.exp (-(dist2 u v)) := by
  unfold gram
  rw [max_eq_left (dist2_nonneg u v), neg_one_mul]

/-- The Gram entry of a point with itself is one. -/
theorem gram_self (u : κ → ℝ) : gram u u = 1 := by
  rw [gram_eq, dist2_self, neg_zero, Real.exp_zero]

/-- The Gram entry is symmetric. -/
theorem gram_comm (u v : κ → ℝ) : gram u v = gram v u := by
  rw [gram_eq, gram_eq, dist2_comm]

/-- The Gram entry is nonnegative. -/
theorem gram_nonneg (u v : κ → ℝ) : 0 ≤ gram u v := by
  rw [gram_eq]
  exact (Real.exp_pos _).le

/-! ### The Gaussian Gram matrix is positive semidefinite -/

/-- For every `n`, the matrix of `n`-th powers of inner products is positive semidefinite: writing the power of
the sum `∑ k, z a k * z b k` as a sum over multi-indices `I` of products turns the quadratic form into the sum
of squares `∑ I, (∑ a, d a * ∏ l, z a (I l)) ^ 2`. -/
theorem pow_dot_psd {A : Type} [Fintype A] (d : A → ℝ) (z : A → κ → ℝ) (n : ℕ) :
    0 ≤ ∑ a, ∑ b, d a * d b * (dot (z a) (z b)) ^ n := by
  have hpow : ∀ a b, (dot (z a) (z b)) ^ n
      = ∑ I : Fin n → κ, (∏ l, z a (I l)) * ∏ l, z b (I l) := by
    intro a b
    unfold dot
    rw [Fintype.sum_pow]
    refine Finset.sum_congr rfl fun I _ => ?_
    exact Finset.prod_mul_distrib
  have key : ∑ a, ∑ b, d a * d b * (dot (z a) (z b)) ^ n
      = ∑ I : Fin n → κ, (∑ a, d a * ∏ l, z a (I l)) ^ 2 := by
    calc ∑ a, ∑ b, d a * d b * (dot (z a) (z b)) ^ n
        = ∑ a, ∑ b, ∑ I : Fin n → κ, (d a * ∏ l, z a (I l)) * (d b * ∏ l, z b (I l)) := by
          refine Finset.sum_congr rfl fun a _ => Finset.sum_congr rfl fun b _ => ?_
          rw [hpow, Finset.mul_sum]
          refine Finset.sum_congr rfl fun I _ => ?_
          ring
      _ = ∑ I : Fin n → κ, ∑ a, ∑ b, (d a * ∏ l, z a (I l)) * (d b * ∏ l, z b (I l)) := by
          symm
          rw [Finset.sum_comm]
          refine Finset.sum_congr rfl fun a _ => ?_
          exact Finset.sum_comm
      _ = ∑ I : Fin n → κ, (∑ a, d a * ∏ l, z a (I l)) ^ 2 := by
          refine Finset.sum_congr rfl fun I _ => ?_
          rw [pow_two, Finset.sum_mul_sum]
  rw [key]
  exact Finset.sum_nonneg fun I _ => sq_nonneg _

/-- The Gaussian Gram matrix `gram (z a) (z b) = exp (-|z a - z b|²)` of any finite family of points is positive
semidefinite. Since `exp (-|u - v|²) = exp (-|u|²) * exp (-|v|²) * exp (2 u·v)`, the first two factors go into the
weights, and `exp (2 u·v) = ∑ n, (2 u·v) ^ n / n!` reduces the claim to the powers of inner products. -/
theorem gram_psd {A : Type} [Fintype A] (c : A → ℝ) (z : A → κ → ℝ) :
    0 ≤ ∑ a, ∑ b, c a * c b * gram (z a) (z b) := by
  -- the weights that absorb the factors `exp (-|z a|²)`
  let d : A → ℝ := fun a => c a * Real.exp (-sq (z a))
  have hfac : ∀ a b, c a * c b * gram (z a) (z b) = d a * d b * Real.exp (2 * dot (z a) (z b)) := by
    intro a b
    rw [gram_eq]
    unfold dist2
    have h3 : -(sq (z a) + sq (z b) - 2 * dot (z a) (z b))
        = -sq (z a) + -sq (z b) + 2 * dot (z a) (z b) := by ring
    rw [h3, Real.exp_add, Real.exp_add]
    show _ = c a * Real.exp (-sq (z a)) * (c b * Real.exp (-sq (z b))) * _
    ring
  -- the exponential series, entry by entry
  have hser : ∀ a b, HasSum
      (fun n : ℕ => d a * d b * ((2 * dot (z a) (z b)) ^ n / (n.factorial : ℝ)))
      (d a * d b * Real.exp (2 * dot (z a) (z b))) := by
    intro a b
    have h := NormedSpace.expSeries_div_hasSum_exp (2 * dot (z a) (z b))
    rw [← Real.exp_eq_exp_ℝ] at h
    exact h.mul_left _
  -- the finite double sum of the series
  have hsum : HasSum
      (fun n : ℕ => ∑ a, ∑ b, d a * d b * ((2 * dot (z a) (z b)) ^ n / (n.factorial : ℝ)))
      (∑ a, ∑ b, c a * c b * gram (z a) (z b)) := by
    simp only [hfac]
    exact hasSum_sum fun a _ => hasSum_sum fun b _ => hser a b
  refine hsum.nonneg fun n => ?_
  have hn : ∑ a, ∑ b, d a * d b * ((2 * dot (z a) (z b)) ^ n / (n.factorial : ℝ))
      = (2 ^ n / (n.factorial : ℝ)) * ∑ a, ∑ b, d a * d b * (dot (z a) (z b)) ^ n := by
    rw [Finset.mul_sum]
    refine Finset.sum_congr rfl fun a _ => ?_
    rw [Finset.mul_sum]
    refine Finset.sum_congr rfl fun b _ => ?_
    rw [mul_pow]
    ring
  rw [hn]
  exact mul_nonneg (by positivity) (pow_dot_psd d z n)

/-- The sum of the Gram entries over all pairs does not depend on the order of the two families. -/
theorem gsum_comm {ι ι' : Type} [Fintype ι] [Fintype ι'] (x : ι → κ → ℝ) (y : ι' → κ → ℝ) :
    gsum y x = gsum x y := by
  unfold gsum
  rw [Finset.sum_comm]
  exact Finset.sum_congr rfl fun i _ => Finset.sum_congr rfl fun j _ => gram_comm _ _

/-- The biased squared maximum mean discrepancy is nonnegative: it is the Gaussian quadratic form of the joint
family of the two samples, with weights `+1` on the first sample and `-1` on the second, divided by `8192²`. -/
theorem mmd_nonneg (x y : Fin 8192 → κ → ℝ) : 0 ≤ mmd x y := by
  have h := gram_psd (A := Fin 8192 ⊕ Fin 8192) (Sum.elim (fun _ => (1 : ℝ)) (fun _ => (-1 : ℝ))) (Sum.elim x y)
  simp only [Fintype.sum_sum_type, Sum.elim_inl, Sum.elim_inr, Finset.sum_add_distrib, one_mul, mul_one, neg_mul,
    mul_neg, neg_neg, Finset.sum_neg_distrib] at h
  have h' : 0 ≤ gsum x x - gsum x y - gsum y x + gsum y y := by
    unfold gsum
    linarith [h]
  rw [gsum_comm x y] at h'
  have hm : mmd x y = (gsum x x - gsum x y - gsum x y + gsum y y) / 67108864 := by
    unfold mmd
    ring
  rw [hm]
  exact div_nonneg h' (by norm_num)

end Cert.Mmd

end
-- ==== Proof.LibMmdBlocks.lean ====
/-
  The Gram sums of `MmdSpec` added up block by block, as a tiled evaluation does it: the 8192 × 8192 pairs are split
  over a `2 × 16 × 2` grid into blocks of `512 × 2048` pairs, a block entry is addressed by its global row
  `i * 512 + a` and its global column `(c * 2 + j) * 2048 + b`, and in the symmetric sums the entry on the diagonal
  (row = column) may be replaced by the literal one, because the Gram entry of a point with itself is one.
-/
import proofs.«171171_j81080392613941_2_alg».proof.Proof.LibGaussMmd

noncomputable section

namespace Cert.Mmd

open scoped BigOperators

variable {κ : Type}

/-- The point of a family of 8192 points at a natural-number position; the zero point outside the range. -/
def atNat (x : Fin 8192 → κ → ℝ) (r : ℕ) : κ → ℝ := if h : r < 8192 then x ⟨r, h⟩ else fun _ => 0

/-- At a position in range, `atNat` is the family itself. -/
theorem atNat_val (x : Fin 8192 → κ → ℝ) (r : Fin 8192) : atNat x r.val = x r := by
  unfold atNat
  rw [dif_pos r.isLt]

variable [Fintype κ]

/-- The Gram entry with the squared norms, the inner product and the squared distance spelt out as sums. -/
theorem gram_spelt (u v : κ → ℝ) :
    Real.exp (-1 * max ((∑ k, u k * u k) + (∑ k, v k * v k) - 2 * ∑ k, u k * v k) 0) = gram u v := rfl

/-- The Gram sum of two families, added up block by block. -/
theorem blocks_gsum (x y : Fin 8192 → κ → ℝ) :
    (∑ c : Fin 2, ∑ i : Fin 16, ∑ j : Fin 2, ∑ a : Fin 512, ∑ b : Fin 2048,
        gram (atNat x (i.val * 512 + a.val)) (atNat y ((c.val * 2 + j.val) * 2048 + b.val))) = gsum x y := by
  refine (sum_blocks (fun r s => gram (atNat x r) (atNat y s))).trans ?_
  unfold gsum
  simp only [atNat_val]

/-- The Gram sum of a family with itself, added up block by block with the literal one on the diagonal. -/
theorem blocks_gsum_sym (x : Fin 8192 → κ → ℝ) :
    (∑ c : Fin 2, ∑ i : Fin 16, ∑ j : Fin 2, ∑ a : Fin 512, ∑ b : Fin 2048,
        (if i.val * 512 + a.val = (c.val * 2 + j.val) * 2048 + b.val then (1 : ℝ)
         else gram (atNat x (i.val * 512 + a.val)) (atNat x ((c.val * 2 + j.val) * 2048 + b.val)))) = gsum x x := by
  refine (sum_blocks (fun r s => if r = s then (1 : ℝ) else gram (atNat x r) (atNat x s))).trans ?_
  unfold gsum
  refine Finset.sum_congr rfl fun r _ => Finset.sum_congr rfl fun s _ => ?_
  simp only [atNat_val]
  split_ifs with h
  · rw [Fin.ext h, gram_self]
  · rfl

/-- The block-by-block Gram sum, when the blocks of each value of the first grid coordinate are added up separately
and the two partial sums are then added. -/
theorem blocks_gsum_halves (x y : Fin 8192 → κ → ℝ) (t : Fin 2 → ℝ)
    (ht : ∀ c : Fin 2, t c = ∑ i : Fin 16, ∑ j : Fin 2, ∑ a : Fin 512, ∑ b : Fin 2048,
        gram (atNat x (i.val * 512 + a.val)) (atNat y ((c.val * 2 + j.val) * 2048 + b.val))) :
    t 0 + t 1 = gsum x y := by
  rw [← blocks_gsum, Fin.sum_univ_two, ht 0, ht 1]

/-- The symmetric block-by-block Gram sum with the literal one on the diagonal, when the blocks of each value of the
first grid coordinate are added up separately and the two partial sums are then added. -/
theorem blocks_gsum_sym_halves (x : Fin 8192 → κ → ℝ) (t : Fin 2 → ℝ)
    (ht : ∀ c : Fin 2, t c = ∑ i : Fin 16, ∑ j : Fin 2, ∑ a : Fin 512, ∑ b : Fin 2048,
        (if i.val * 512 + a.val = (c.val * 2 + j.val) * 2048 + b.val then (1 : ℝ)
         else gram (atNat x (i.val * 512 + a.val)) (atNat x ((c.val * 2 + j.val) * 2048 + b.val)))) :
    t 0 + t 1 = gsum x x := by
  rw [← blocks_gsum_sym, Fin.sum_univ_two, ht 0, ht 1]

end Cert.Mmd

end
-- ==== Proof.Ki.KernelValue.lean ====
/-
  The kernel program's final value on real data. When the two argument arrays hold real numbers, each of the three
  regions leaves in its result array two partial sums of Gaussian Gram entries, one per value of the first grid
  coordinate (the first two regions with the literal one on the diagonal); the last host operations add each pair,
  divide by the number of pairs, combine the three means and take the square root of the clamped combination. The
  pairs of partial sums are the Gram sums of the specification, the combination is its squared discrepancy, and the
  clamp is idle because the discrepancy is nonnegative.
-/
import proofs.«171171_j81080392613941_2_alg».proof.Proof.Ki.Pd
import proofs.«171171_j81080392613941_2_alg».proof.Proof.HostGlue
import proofs.«171171_j81080392613941_2_alg».proof.Proof.LibMmdBlocks

noncomputable section

namespace Cert.KernelIdeal.Hand

open Cert.KernelIdeal Cert.KernelIdeal.Gen Cert.KernelIdeal.HostGlue Cert.Mmd
open Idealize.ShloMosaic Idealize.ShloMosaic.TcCoe Idealize.SL.Sem
open Idealize.ShloMosaic.ValueIdx
open scoped BigOperators

/-- The coercion of the reals into the extended reals commutes with finite sums. -/
private theorem coe_sum' {ι : Type} (s : Finset ι) (f : ι → ℝ) :
    ((∑ i ∈ s, f i : ℝ) : EReal) = ∑ i ∈ s, ((f i : ℝ) : EReal) :=
  map_sum (⟨⟨fun r : ℝ => (r : EReal), EReal.coe_zero⟩, EReal.coe_add⟩ : ℝ →+ EReal) f s

/-- The sum of the symmetric Gram entries, the literal one on the diagonal, over the blocks of value `e` of the first
    grid coordinate. -/
def symHalf (x : Fin 8192 → Fin 256 → ℝ) (e : Fin 2) : ℝ :=
  ∑ i : Fin 16, ∑ j : Fin 2, ∑ a : Fin 512, ∑ b : Fin 2048,
    (if i.val * 512 + a.val = (e.val * 2 + j.val) * 2048 + b.val then (1 : ℝ)
     else gram (atNat x (i.val * 512 + a.val)) (atNat x ((e.val * 2 + j.val) * 2048 + b.val)))

/-- The sum of the Gram entries of two families over the blocks of value `e` of the first grid coordinate. -/
def crossHalf (x y : Fin 8192 → Fin 256 → ℝ) (e : Fin 2) : ℝ :=
  ∑ i : Fin 16, ∑ j : Fin 2, ∑ a : Fin 512, ∑ b : Fin 2048,
    gram (atNat x (i.val * 512 + a.val)) (atNat y ((e.val * 2 + j.val) * 2048 + b.val))

/-- A row's sum of squares of real entries is the real sum of squares. -/
theorem rowsq_real (N : S8192x256.Idx → EReal) (x : Fin 8192 → Fin 256 → ℝ)
    (hN : ∀ p q, N (ix2 p q) = ((x p q : ℝ) : EReal)) (r : Fin 8192) :
    (∑ k : Fin 256, N (ix2 r k) * N (ix2 r k)) = ((∑ k, x r k * x r k : ℝ) : EReal) := by
  rw [coe_sum']
  exact Finset.sum_congr rfl fun k _ => by rw [hN r k, EReal.coe_mul]

/-- THE KERNEL PROGRAM'S VALUE, given what each region leaves in its result array (for any entry contents `V` that hold
    real points and their row sums of squares, the entry under value `e` of the first grid coordinate is the sum of the
    Gram entries over that value's blocks): on real data the program's result is the square root of the squared
    discrepancy of the two samples. -/
theorem kernel_value_of (m : (ℓ : Loc nD τ sig) → Buf (Elt Ideal) ℓ) (c : Dev nD) (x y : Fin 8192 → Fin 256 → ℝ)
    (hN : ∀ p q, (m ((c : Thread nD τ).loc main_arg0) : S8192x256.Idx → EReal) (ix2 p q) = ((x p q : ℝ) : EReal))
    (hR : ∀ p q, (m ((c : Thread nD τ).loc main_arg1) : S8192x256.Idx → EReal) (ix2 p q) = ((y p q : ℝ) : EReal))
    (hres0 : ∀ (V : (c : Dev nD) → (b : Ref sig .tc) → Buf (Elt Ideal) ((c : Thread nD τ).loc b)) (c : Dev nD)
      (x : Fin 8192 → Fin 256 → ℝ),
      (∀ p q, (V c main_arg0 : S8192x256.Idx → EReal) (ix2 p q) = ((x p q : ℝ) : EReal)) →
      (∀ r : Fin 8192, (V c main_v2 : S8192x1.Idx → EReal) (ix2 r 0) = ((∑ k, x r k * x r k : ℝ) : EReal)) →
      (∀ s : Fin 8192, (V c main_v6 : S1x8192.Idx → EReal) (ix2 0 s) = ((∑ k, x s k * x s k : ℝ) : EReal)) →
      ∀ e : Fin 2, ((dat0 V c).arrAt 4 cfg0.N : S2x1x1.Idx → EReal) (ix3 e 0 0)
        = ((∑ i : Fin 16, ∑ j : Fin 2, ∑ a : Fin 512, ∑ b : Fin 2048,
            (if i.val * 512 + a.val = (e.val * 2 + j.val) * 2048 + b.val then (1 : ℝ)
             else gram (atNat x (i.val * 512 + a.val)) (atNat x ((e.val * 2 + j.val) * 2048 + b.val))) : ℝ) : EReal))
    (hres1 : ∀ (V : (c : Dev nD) → (b : Ref sig .tc) → Buf (Elt Ideal) ((c : Thread nD τ).loc b)) (c : Dev nD)
      (y : Fin 8192 → Fin 256 → ℝ),
      (∀ p q, (V c main_arg1 : S8192x256.Idx → EReal) (ix2 p q) = ((y p q : ℝ) : EReal)) →
      (∀ r : Fin 8192, (V c main_v12 : S8192x1.Idx → EReal) (ix2 r 0) = ((∑ k, y r k * y r k : ℝ) : EReal)) →
      (∀ s : Fin 8192, (V c main_v16 : S1x8192.Idx → EReal) (ix2 0 s) = ((∑ k, y s k * y s k : ℝ) : EReal)) →
      ∀ e : Fin 2, ((dat1 V c).arrAt 4 cfg1.N : S2x1x1.Idx → EReal) (ix3 e 0 0)
        = ((∑ i : Fin 16, ∑ j : Fin 2, ∑ a : Fin 512, ∑ b : Fin 2048,
            (if i.val * 512 + a.val = (e.val * 2 + j.val) * 2048 + b.val then (1 : ℝ)
             else gram (atNat y (i.val * 512 + a.val)) (atNat y ((e.val * 2 + j.val) * 2048 + b.val))) : ℝ) : EReal))
    (hres2 : ∀ (V : (c : Dev nD) → (b : Ref sig .tc) → Buf (Elt Ideal) ((c : Thread nD τ).loc b)) (c : Dev nD)
      (x y : Fin 8192 → Fin 256 → ℝ),
      (∀ p q, (V c main_arg0 : S8192x256.Idx → EReal) (ix2 p q) = ((x p q : ℝ) : EReal)) →
      (∀ p q, (V c main_arg1 : S8192x256.Idx → EReal) (ix2 p q) = ((y p q : ℝ) : EReal)) →
      (∀ r : Fin 8192, (V c main_v22 : S8192x1.Idx → EReal) (ix2 r 0) = ((∑ k, x r k * x r k : ℝ) : EReal)) →
      (∀ s : Fin 8192, (V c main_v26 : S1x8192.Idx → EReal) (ix2 0 s) = ((∑ k, y s k * y s k : ℝ) : EReal)) →
      ∀ e : Fin 2, ((dat2 V c).arrAt 4 cfg2.N : S2x1x1.Idx → EReal) (ix3 e 0 0)
        = ((∑ i : Fin 16, ∑ j : Fin 2, ∑ a : Fin 512, ∑ b : Fin 2048,
            gram (atNat x (i.val * 512 + a.val)) (atNat y ((e.val * 2 + j.val) * 2048 + b.val)) : ℝ) : EReal)) :
    (V7 (F := Ideal) m (outs m) c main_v34 : S_.Idx → EReal)
      = fun _ => Ideal.sqrt ((Cert.Mmd.mmd x y : ℝ) : EReal) := by
  -- the rows' sums of squares, over the reals
  have sqN : ∀ r : Fin 8192, (∑ k : Fin 256, argN m c (ix2 r k) * argN m c (ix2 r k)) = ((∑ k, x r k * x r k : ℝ) : EReal) :=
    rowsq_real (argN m c) x hN
  have sqR : ∀ r : Fin 8192, (∑ k : Fin 256, argR m c (ix2 r k) * argR m c (ix2 r k)) = ((∑ k, y r k * y r k : ℝ) : EReal) :=
    rowsq_real (argR m c) y hR
  -- what the three regions leave
  have h0 : ∀ e : Fin 2, (outs m 2 main_v7 c : S2x1x1.Idx → EReal) (ix3 e 0 0) = ((symHalf x e : ℝ) : EReal) := fun e => by
    rw [outs_2]
    exact hres0 (Vr1 m) c x (fun p q => (congrFun (V1_arg0 m c) (ix2 p q)).trans (hN p q))
      (fun r => (V1_v2 m c r).trans (sqN r)) (fun s => (V1_v6 m c s).trans (sqN s)) e
  have h1 : ∀ e : Fin 2, (outs m 4 main_v17 c : S2x1x1.Idx → EReal) (ix3 e 0 0) = ((symHalf y e : ℝ) : EReal) := fun e => by
    rw [outs_4]
    exact hres1 (Vr3 m) c y (fun p q => (congrFun (V3_arg1 m (outsA m) c) (ix2 p q)).trans (hR p q))
      (fun r => (V3_v12 m (outsA m) c r).trans (sqR r)) (fun s => (V3_v16 m (outsA m) c s).trans (sqR s)) e
  have h2 : ∀ e : Fin 2, (outs m 6 main_v27 c : S2x1x1.Idx → EReal) (ix3 e 0 0) = ((crossHalf x y e : ℝ) : EReal) := fun e => by
    rw [outs_6]
    exact hres2 (Vr5 m) c x y (fun p q => (congrFun (V5_arg0 m (outsB m) c) (ix2 p q)).trans (hN p q))
      (fun p q => (congrFun (V5_arg1 m (outsB m) c) (ix2 p q)).trans (hR p q))
      (fun r => (V5_v22 m (outsB m) c r).trans (sqN r)) (fun s => (V5_v26 m (outsB m) c s).trans (sqR s)) e
  -- the pairs of partial sums are the Gram sums
  have g0 : symHalf x 0 + symHalf x 1 = gsum x x := blocks_gsum_sym_halves x (symHalf x) (fun _ => rfl)
  have g1 : symHalf y 0 + symHalf y 1 = gsum y y := blocks_gsum_sym_halves y (symHalf y) (fun _ => rfl)
  have g2 : crossHalf x y 0 + crossHalf x y 1 = gsum x y := blocks_gsum_halves x y (crossHalf x y) (fun _ => rfl)
  rw [V7_v34 m (outs m) c (symHalf x) (symHalf y) (crossHalf x y) h0 h1 h2, g0, g1, g2]
  funext _
  show Ideal.sqrt ((max (Cert.Mmd.mmd x y) 0 : ℝ) : EReal) = _
  rw [max_eq_left (mmd_nonneg x y)]

end Cert.KernelIdeal.Hand

end
-- ==== Proof.Ki.OutValue.lean ====
/-
  What the three kernels' bodies leave in the one-element accumulator block, as the bodies' own arithmetic.

  A body stores into the accumulator block through the whole block. At a point that opens an accumulation run it first
  stores the zero block, reads it back and stores the zero block plus the sum of the point's Gram block; at any other
  point it stores what it found plus that sum. Reading the stores back gives the block after the point as the body's
  last stored value; over the grid the block after a point is therefore that value over the zero block or over the
  block after the point before, and the result array holds, under each value of grid coordinate 0, the block after
  the last point of that value.
-/
import proofs.«171171_j81080392613941_2_alg».proof.Proof.Ki.Dat0
import proofs.«171171_j81080392613941_2_alg».proof.Proof.Ki.Dat1
import proofs.«171171_j81080392613941_2_alg».proof.Proof.Ki.Dat2
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

/-- The zero offsets of the accumulator block's one store rectangle. -/
theorem hz3 : (![0, 0, 0] : Fin 3 → Nat) = fun _ => 0 := funext fun a => by fin_cases a <;> rfl
/-- The zero offsets of an input block's load rectangle. -/
theorem hz2 : (![0, 0] : Fin 2 → Nat) = fun _ => 0 := funext fun a => by fin_cases a <;> rfl

/-! ## Kernel 0: what one point leaves -/

/-- At a point inside an accumulation run the block ends at the body's sum over what the point found there: the one
    store covers the block, and its loads read the whole input blocks and the whole accumulator block. -/
theorem out0_B_eq (c : Dev nD) (i : grid0.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : ¬cond0 i)
    (x0 : Vec F S512x256 .f32) (x1 : Vec F S2048x256 .f32) (x2 : Vec F S512x1 .f32) (x3 : Vec F S1x2048 .f32) (xo : Vec F S1x1x1 .f32) :
    out0_B c i arg3 harg3 arg4 harg4 arg5 harg5 arg6 harg6 arg7 harg7 hc x0 x1 x2 x3 xo
      = k0_pay1 (k0_pay3 x0 x1 x2 x3) (k0_pay4 i) (k0_pay5 (F := F)) xo := by
  unfold out0_B
  rw [View.read_writes_eq_canon _ _ _ (cover0_B c i arg3 harg3 arg4 harg4 arg5 harg5 arg6 harg6 arg7 harg7 hc x0 x1 x2 x3 xo)]
  unfold kernelRun0_B
  dsimp only
  sl_unfold_words
  rw [View.canon_unit_zero (S := S1x1x1) hz3]
  simp only [View.readAt_eq_ld, harg3.read_unread, harg4.read_unread, harg5.read_unread, harg6.read_unread,
    harg7.read_unread, View.ld_unit_zero (S := S512x256) hz2, View.ld_unit_zero (S := S2048x256) hz2,
    View.ld_unit_zero (S := S512x1) hz2, View.ld_unit_zero (S := S1x2048) hz2, View.ld_unit_zero (S := S1x1x1) hz3]

/-- At a point that opens an accumulation run the block ends at the body's sum over the zero block: the last store
    covers the block, and the accumulator it loads is the zero block the first store left. -/
theorem out0_A_eq (c : Dev nD) (i : grid0.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : cond0 i)
    (x0 : Vec F S512x256 .f32) (x1 : Vec F S2048x256 .f32) (x2 : Vec F S512x1 .f32) (x3 : Vec F S1x2048 .f32) :
    out0_A c i arg3 harg3 arg4 harg4 arg5 harg5 arg6 harg6 arg7 harg7 hc x0 x1 x2 x3
      = k0_pay1 (k0_pay3 x0 x1 x2 x3) (k0_pay4 i) (k0_pay5 (F := F)) (k0_pay2 (F := F)) := by
  unfold out0_A
  rw [View.read_writes_eq_canon _ _ _ (cover0_A c i arg3 harg3 arg4 harg4 arg5 harg5 arg6 harg6 arg7 harg7 hc x0 x1 x2 x3)]
  unfold kernelRun0_A
  dsimp only
  sl_unfold_words
  rw [View.canon_cons_unit_zero (S := S1x1x1) hz3, View.readCov_unit_zero (S := S1x1x1) _ hz3]
  simp only [View.readAt_eq_ld, harg3.read_unread, harg4.read_unread, harg5.read_unread, harg6.read_unread,
    View.ld_unit_zero (S := S512x256) hz2, View.ld_unit_zero (S := S2048x256) hz2,
    View.ld_unit_zero (S := S512x1) hz2, View.ld_unit_zero (S := S1x2048) hz2]

/-! ## Kernel 1: what one point leaves -/

/-- At a point inside an accumulation run the block ends at the body's sum over what the point found there: the one
    store covers the block, and its loads read the whole input blocks and the whole accumulator block. -/
theorem out1_B_eq (c : Dev nD) (i : grid1.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : ¬cond1 i)
    (x0 : Vec F S512x256 .f32) (x1 : Vec F S2048x256 .f32) (x2 : Vec F S512x1 .f32) (x3 : Vec F S1x2048 .f32) (xo : Vec F S1x1x1 .f32) :
    out1_B c i arg3 harg3 arg4 harg4 arg5 harg5 arg6 harg6 arg7 harg7 hc x0 x1 x2 x3 xo
      = k1_pay1 (k1_pay3 x0 x1 x2 x3) (k1_pay4 i) (k1_pay5 (F := F)) xo := by
  unfold out1_B
  rw [View.read_writes_eq_canon _ _ _ (cover1_B c i arg3 harg3 arg4 harg4 arg5 harg5 arg6 harg6 arg7 harg7 hc x0 x1 x2 x3 xo)]
  unfold kernelRun1_B
  dsimp only
  sl_unfold_words
  rw [View.canon_unit_zero (S := S1x1x1) hz3]
  simp only [View.readAt_eq_ld, harg3.read_unread, harg4.read_unread, harg5.read_unread, harg6.read_unread,
    harg7.read_unread, View.ld_unit_zero (S := S512x256) hz2, View.ld_unit_zero (S := S2048x256) hz2,
    View.ld_unit_zero (S := S512x1) hz2, View.ld_unit_zero (S := S1x2048) hz2, View.ld_unit_zero (S := S1x1x1) hz3]

/-- At a point that opens an accumulation run the block ends at the body's sum over the zero block: the last store
    covers the block, and the accumulator it loads is the zero block the first store left. -/
theorem out1_A_eq (c : Dev nD) (i : grid1.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : cond1 i)
    (x0 : Vec F S512x256 .f32) (x1 : Vec F S2048x256 .f32) (x2 : Vec F S512x1 .f32) (x3 : Vec F S1x2048 .f32) :
    out1_A c i arg3 harg3 arg4 harg4 arg5 harg5 arg6 harg6 arg7 harg7 hc x0 x1 x2 x3
      = k1_pay1 (k1_pay3 x0 x1 x2 x3) (k1_pay4 i) (k1_pay5 (F := F)) (k1_pay2 (F := F)) := by
  unfold out1_A
  rw [View.read_writes_eq_canon _ _ _ (cover1_A c i arg3 harg3 arg4 harg4 arg5 harg5 arg6 harg6 arg7 harg7 hc x0 x1 x2 x3)]
  unfold kernelRun1_A
  dsimp only
  sl_unfold_words
  rw [View.canon_cons_unit_zero (S := S1x1x1) hz3, View.readCov_unit_zero (S := S1x1x1) _ hz3]
  simp only [View.readAt_eq_ld, harg3.read_unread, harg4.read_unread, harg5.read_unread, harg6.read_unread,
    View.ld_unit_zero (S := S512x256) hz2, View.ld_unit_zero (S := S2048x256) hz2,
    View.ld_unit_zero (S := S512x1) hz2, View.ld_unit_zero (S := S1x2048) hz2]

/-! ## Kernel 2: what one point leaves -/

/-- At a point inside an accumulation run the block ends at the body's sum over what the point found there: the one
    store covers the block, and its loads read the whole input blocks and the whole accumulator block. -/
theorem out2_B_eq (c : Dev nD) (i : grid2.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : ¬cond2 i)
    (x0 : Vec F S512x256 .f32) (x1 : Vec F S2048x256 .f32) (x2 : Vec F S512x1 .f32) (x3 : Vec F S1x2048 .f32) (xo : Vec F S1x1x1 .f32) :
    out2_B c i arg3 harg3 arg4 harg4 arg5 harg5 arg6 harg6 arg7 harg7 hc x0 x1 x2 x3 xo
      = k2_pay2 x0 x1 x2 x3 xo := by
  unfold out2_B
  rw [View.read_writes_eq_canon _ _ _ (cover2_B c i arg3 harg3 arg4 harg4 arg5 harg5 arg6 harg6 arg7 harg7 hc x0 x1 x2 x3 xo)]
  unfold kernelRun2_B
  dsimp only
  sl_unfold_words
  rw [View.canon_unit_zero (S := S1x1x1) hz3]
  simp only [View.readAt_eq_ld, harg3.read_unread, harg4.read_unread, harg5.read_unread, harg6.read_unread,
    harg7.read_unread, View.ld_unit_zero (S := S512x256) hz2, View.ld_unit_zero (S := S2048x256) hz2,
    View.ld_unit_zero (S := S512x1) hz2, View.ld_unit_zero (S := S1x2048) hz2, View.ld_unit_zero (S := S1x1x1) hz3]

/-- At a point that opens an accumulation run the block ends at the body's sum over the zero block: the last store
    covers the block, and the accumulator it loads is the zero block the first store left. -/
theorem out2_A_eq (c : Dev nD) (i : grid2.Coords) (arg3 : Memref sig .tc .vmem S512x256 .f32) (harg3 : arg3.IsWhole) (arg4 : Memref sig .tc .vmem S2048x256 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S1x1x1 .f32) (harg7 : arg7.IsWhole) (hc : cond2 i)
    (x0 : Vec F S512x256 .f32) (x1 : Vec F S2048x256 .f32) (x2 : Vec F S512x1 .f32) (x3 : Vec F S1x2048 .f32) :
    out2_A c i arg3 harg3 arg4 harg4 arg5 harg5 arg6 harg6 arg7 harg7 hc x0 x1 x2 x3
      = k2_pay2 x0 x1 x2 x3 (k2_pay1 (F := F)) := by
  unfold out2_A
  rw [View.read_writes_eq_canon _ _ _ (cover2_A c i arg3 harg3 arg4 harg4 arg5 harg5 arg6 harg6 arg7 harg7 hc x0 x1 x2 x3)]
  unfold kernelRun2_A
  dsimp only
  sl_unfold_words
  rw [View.canon_cons_unit_zero (S := S1x1x1) hz3, View.readCov_unit_zero (S := S1x1x1) _ hz3]
  simp only [View.readAt_eq_ld, harg3.read_unread, harg4.read_unread, harg5.read_unread, harg6.read_unread,
    View.ld_unit_zero (S := S512x256) hz2, View.ld_unit_zero (S := S2048x256) hz2,
    View.ld_unit_zero (S := S512x1) hz2, View.ld_unit_zero (S := S1x2048) hz2]

variable (V : (c : Dev nD) → (b : Ref sig .tc) → Buf (Elt F) ((c : Thread nD τ).loc b))

/-! ## Kernel 0: the result array after the region -/

/-- The last point of value `e` of grid coordinate 0 is at position `32 e + 31`. -/
theorem last_lt0 (e : Fin 2) : 32 * e.val + 31 < cfg0.N := by
  have := e.isLt; rw [show cfg0.N = 64 from N_0]; omega

/-- The accumulation at equal positions. -/
theorem outsAt0_congr (c : Dev nD) {n n' : ℕ} (h : n = n') (hn : n < cfg0.N) (hn' : n' < cfg0.N) :
    outsAt0 V c n hn = outsAt0 V c n' hn' := by
  subst h; rfl

/-- The output window's block index at the point of position `t` is `(t / 32, 0, 0)`: coordinate 0 of the grid. -/
theorem out_index0 : ∀ t : Fin cfg0.N, win0_4.index t = ![t.val / 32, 0, 0] :=
  (by decide +kernel : ∀ t : Fin grid0.N, win0_4.index t = ![t.val / 32, 0, 0])

/-- What the result array ends holding: under value `e` of grid coordinate 0, the accumulator block after the last
    point of that value. -/
def res0 (c : Dev nD) : Buf (Elt F) ((c : Thread nD τ).loc main_v7) := fun idx =>
  outsAt0 V c (32 * (idx 0).val + 31) (last_lt0 ⟨(idx 0).val, (idx 0).isLt⟩) (ValueIdx.ix3 0 0 0)

/-- What a point that writes the block back writes is its block of `res0`. -/
theorem flushed_eq0 (c : Dev nD) (t : Fin cfg0.N) (hf : (cfg0.win 4).flush t = true) :
    (dat0 V c).flushed 4 t = ((cfg0.win 4).blk t).view.read (Elt F) (res0 V c) := by
  have h31 : t.val % 32 = 31 := (flush0_4 t).mp hf
  have hi : win0_4.index t 0 = t.val / 32 := congrFun (out_index0 t) 0
  show (cfg0.win 4).cut (grid0.coords t) ((dat0 V c).after 4 t) = _
  rw [after0_4]
  funext y
  have hy0 : (y 0).val < 1 := (y 0).isLt
  have hy1 : (y 1).val < 1 := (y 1).isLt
  have hy2 : (y 2).val < 1 := (y 2).isLt
  have e0 : t.val = 32 * ((((cfg0.win 4).blk t).view.emb y) 0 : Nat) + 31 := by
    show t.val = 32 * (win0_4.index t 0 * 1 + 1 * (y 0).val) + 31
    rw [hi]; omega
  have ey : (cfg0.win 4).xinj (grid0.coords t) y = ValueIdx.ix3 0 0 0 := by
    funext a; apply Fin.ext
    match a with
    | ⟨0, _⟩ => show (y 0).val = 0; omega
    | ⟨1, _⟩ => show (y 1).val = 0; omega
    | ⟨2, _⟩ => show (y 2).val = 0; omega
  show outsAt0 V c t.val t.isLt ((cfg0.win 4).xinj (grid0.coords t) y)
    = outsAt0 V c (32 * ((((cfg0.win 4).blk t).view.emb y) 0 : Nat) + 31) _ (ValueIdx.ix3 0 0 0)
  rw [ey]
  exact congrFun (outsAt0_congr V c e0 _ _) _

/-- Every index of the result array is in the block of the last point of its value of grid coordinate 0. -/
theorem cover0_out (c : Dev nD) (i : ((cfg0.win 4).arr.view.loc (c.tc : Thread nD τ)).2.ty.Idx) :
    ∃ t : Fin cfg0.N, (cfg0.win 4).flush t = true ∧ i ∈ ((cfg0.win 4).blk t).view.set := by
  have hi0 : (i 0).val < 2 := (i 0).isLt
  have hi1 : (i 1).val < 1 := (i 1).isLt
  have hi2 : (i 2).val < 1 := (i 2).isLt
  refine ⟨⟨32 * (i 0).val + 31, last_lt0 ⟨(i 0).val, hi0⟩⟩, (flush0_4 _).mpr (by show (32 * (i 0).val + 31) % 32 = 31; omega), ?_⟩
  have hx := out_index0 ⟨32 * (i 0).val + 31, last_lt0 ⟨(i 0).val, hi0⟩⟩
  have hx0 : win0_4.index ⟨32 * (i 0).val + 31, last_lt0 ⟨(i 0).val, hi0⟩⟩ 0 = (32 * (i 0).val + 31) / 32 := congrFun hx 0
  have hx1 : win0_4.index ⟨32 * (i 0).val + 31, last_lt0 ⟨(i 0).val, hi0⟩⟩ 1 = 0 := congrFun hx 1
  have hx2 : win0_4.index ⟨32 * (i 0).val + 31, last_lt0 ⟨(i 0).val, hi0⟩⟩ 2 = 0 := congrFun hx 2
  show i ∈ ((View.whole main_v7).slice (win0_4.rect ⟨32 * (i 0).val + 31, last_lt0 ⟨(i 0).val, hi0⟩⟩)).set
  rw [View.set_slice_whole, Rect.mem_set_unit]
  intro a
  match a with
  | ⟨0, _⟩ =>
    show win0_4.index ⟨32 * (i 0).val + 31, _⟩ 0 * 1 ≤ (i 0).val ∧ (i 0).val < win0_4.index ⟨32 * (i 0).val + 31, _⟩ 0 * 1 + 1
    rw [hx0]; omega
  | ⟨1, _⟩ =>
    show win0_4.index ⟨32 * (i 0).val + 31, _⟩ 1 * 1 ≤ (i 1).val ∧ (i 1).val < win0_4.index ⟨32 * (i 0).val + 31, _⟩ 1 * 1 + 1
    rw [hx1]; omega
  | ⟨2, _⟩ =>
    show win0_4.index ⟨32 * (i 0).val + 31, _⟩ 2 * 1 ≤ (i 2).val ∧ (i 2).val < win0_4.index ⟨32 * (i 0).val + 31, _⟩ 2 * 1 + 1
    rw [hx2]; omega

/-- The result array after the region: under value `e` of grid coordinate 0, the accumulator block after the last
    point of that value. -/
theorem arrAt0_out (c : Dev nD) (e : Fin 2) :
    (dat0 V c).arrAt 4 cfg0.N (ValueIdx.ix3 e 0 0)
      = outsAt0 V c (32 * e.val + 31) (last_lt0 e) (ValueIdx.ix3 0 0 0) :=
  congrFun ((dat0 V c).arrAt_eq_of_cover 4 (res0 V c) (flushed_eq0 V c) (cover0_out c)) (ValueIdx.ix3 e 0 0)

/-! ## Kernel 1: the result array after the region -/

/-- The last point of value `e` of grid coordinate 0 is at position `32 e + 31`. -/
theorem last_lt1 (e : Fin 2) : 32 * e.val + 31 < cfg1.N := by
  have := e.isLt; rw [show cfg1.N = 64 from N_1]; omega

/-- The accumulation at equal positions. -/
theorem outsAt1_congr (c : Dev nD) {n n' : ℕ} (h : n = n') (hn : n < cfg1.N) (hn' : n' < cfg1.N) :
    outsAt1 V c n hn = outsAt1 V c n' hn' := by
  subst h; rfl

/-- The output window's block index at the point of position `t` is `(t / 32, 0, 0)`: coordinate 0 of the grid. -/
theorem out_index1 : ∀ t : Fin cfg1.N, win1_4.index t = ![t.val / 32, 0, 0] :=
  (by decide +kernel : ∀ t : Fin grid1.N, win1_4.index t = ![t.val / 32, 0, 0])

/-- What the result array ends holding: under value `e` of grid coordinate 0, the accumulator block after the last
    point of that value. -/
def res1 (c : Dev nD) : Buf (Elt F) ((c : Thread nD τ).loc main_v17) := fun idx =>
  outsAt1 V c (32 * (idx 0).val + 31) (last_lt1 ⟨(idx 0).val, (idx 0).isLt⟩) (ValueIdx.ix3 0 0 0)

/-- What a point that writes the block back writes is its block of `res1`. -/
theorem flushed_eq1 (c : Dev nD) (t : Fin cfg1.N) (hf : (cfg1.win 4).flush t = true) :
    (dat1 V c).flushed 4 t = ((cfg1.win 4).blk t).view.read (Elt F) (res1 V c) := by
  have h31 : t.val % 32 = 31 := (flush1_4 t).mp hf
  have hi : win1_4.index t 0 = t.val / 32 := congrFun (out_index1 t) 0
  show (cfg1.win 4).cut (grid1.coords t) ((dat1 V c).after 4 t) = _
  rw [after1_4]
  funext y
  have hy0 : (y 0).val < 1 := (y 0).isLt
  have hy1 : (y 1).val < 1 := (y 1).isLt
  have hy2 : (y 2).val < 1 := (y 2).isLt
  have e0 : t.val = 32 * ((((cfg1.win 4).blk t).view.emb y) 0 : Nat) + 31 := by
    show t.val = 32 * (win1_4.index t 0 * 1 + 1 * (y 0).val) + 31
    rw [hi]; omega
  have ey : (cfg1.win 4).xinj (grid1.coords t) y = ValueIdx.ix3 0 0 0 := by
    funext a; apply Fin.ext
    match a with
    | ⟨0, _⟩ => show (y 0).val = 0; omega
    | ⟨1, _⟩ => show (y 1).val = 0; omega
    | ⟨2, _⟩ => show (y 2).val = 0; omega
  show outsAt1 V c t.val t.isLt ((cfg1.win 4).xinj (grid1.coords t) y)
    = outsAt1 V c (32 * ((((cfg1.win 4).blk t).view.emb y) 0 : Nat) + 31) _ (ValueIdx.ix3 0 0 0)
  rw [ey]
  exact congrFun (outsAt1_congr V c e0 _ _) _

/-- Every index of the result array is in the block of the last point of its value of grid coordinate 0. -/
theorem cover1_out (c : Dev nD) (i : ((cfg1.win 4).arr.view.loc (c.tc : Thread nD τ)).2.ty.Idx) :
    ∃ t : Fin cfg1.N, (cfg1.win 4).flush t = true ∧ i ∈ ((cfg1.win 4).blk t).view.set := by
  have hi0 : (i 0).val < 2 := (i 0).isLt
  have hi1 : (i 1).val < 1 := (i 1).isLt
  have hi2 : (i 2).val < 1 := (i 2).isLt
  refine ⟨⟨32 * (i 0).val + 31, last_lt1 ⟨(i 0).val, hi0⟩⟩, (flush1_4 _).mpr (by show (32 * (i 0).val + 31) % 32 = 31; omega), ?_⟩
  have hx := out_index1 ⟨32 * (i 0).val + 31, last_lt1 ⟨(i 0).val, hi0⟩⟩
  have hx0 : win1_4.index ⟨32 * (i 0).val + 31, last_lt1 ⟨(i 0).val, hi0⟩⟩ 0 = (32 * (i 0).val + 31) / 32 := congrFun hx 0
  have hx1 : win1_4.index ⟨32 * (i 0).val + 31, last_lt1 ⟨(i 0).val, hi0⟩⟩ 1 = 0 := congrFun hx 1
  have hx2 : win1_4.index ⟨32 * (i 0).val + 31, last_lt1 ⟨(i 0).val, hi0⟩⟩ 2 = 0 := congrFun hx 2
  show i ∈ ((View.whole main_v17).slice (win1_4.rect ⟨32 * (i 0).val + 31, last_lt1 ⟨(i 0).val, hi0⟩⟩)).set
  rw [View.set_slice_whole, Rect.mem_set_unit]
  intro a
  match a with
  | ⟨0, _⟩ =>
    show win1_4.index ⟨32 * (i 0).val + 31, _⟩ 0 * 1 ≤ (i 0).val ∧ (i 0).val < win1_4.index ⟨32 * (i 0).val + 31, _⟩ 0 * 1 + 1
    rw [hx0]; omega
  | ⟨1, _⟩ =>
    show win1_4.index ⟨32 * (i 0).val + 31, _⟩ 1 * 1 ≤ (i 1).val ∧ (i 1).val < win1_4.index ⟨32 * (i 0).val + 31, _⟩ 1 * 1 + 1
    rw [hx1]; omega
  | ⟨2, _⟩ =>
    show win1_4.index ⟨32 * (i 0).val + 31, _⟩ 2 * 1 ≤ (i 2).val ∧ (i 2).val < win1_4.index ⟨32 * (i 0).val + 31, _⟩ 2 * 1 + 1
    rw [hx2]; omega

/-- The result array after the region: under value `e` of grid coordinate 0, the accumulator block after the last
    point of that value. -/
theorem arrAt1_out (c : Dev nD) (e : Fin 2) :
    (dat1 V c).arrAt 4 cfg1.N (ValueIdx.ix3 e 0 0)
      = outsAt1 V c (32 * e.val + 31) (last_lt1 e) (ValueIdx.ix3 0 0 0) :=
  congrFun ((dat1 V c).arrAt_eq_of_cover 4 (res1 V c) (flushed_eq1 V c) (cover1_out c)) (ValueIdx.ix3 e 0 0)

/-! ## Kernel 2: the result array after the region -/

/-- The last point of value `e` of grid coordinate 0 is at position `32 e + 31`. -/
theorem last_lt2 (e : Fin 2) : 32 * e.val + 31 < cfg2.N := by
  have := e.isLt; rw [show cfg2.N = 64 from N_2]; omega

/-- The accumulation at equal positions. -/
theorem outsAt2_congr (c : Dev nD) {n n' : ℕ} (h : n = n') (hn : n < cfg2.N) (hn' : n' < cfg2.N) :
    outsAt2 V c n hn = outsAt2 V c n' hn' := by
  subst h; rfl

/-- The output window's block index at the point of position `t` is `(t / 32, 0, 0)`: coordinate 0 of the grid. -/
theorem out_index2 : ∀ t : Fin cfg2.N, win2_4.index t = ![t.val / 32, 0, 0] :=
  (by decide +kernel : ∀ t : Fin grid2.N, win2_4.index t = ![t.val / 32, 0, 0])

/-- What the result array ends holding: under value `e` of grid coordinate 0, the accumulator block after the last
    point of that value. -/
def res2 (c : Dev nD) : Buf (Elt F) ((c : Thread nD τ).loc main_v27) := fun idx =>
  outsAt2 V c (32 * (idx 0).val + 31) (last_lt2 ⟨(idx 0).val, (idx 0).isLt⟩) (ValueIdx.ix3 0 0 0)

/-- What a point that writes the block back writes is its block of `res2`. -/
theorem flushed_eq2 (c : Dev nD) (t : Fin cfg2.N) (hf : (cfg2.win 4).flush t = true) :
    (dat2 V c).flushed 4 t = ((cfg2.win 4).blk t).view.read (Elt F) (res2 V c) := by
  have h31 : t.val % 32 = 31 := (flush2_4 t).mp hf
  have hi : win2_4.index t 0 = t.val / 32 := congrFun (out_index2 t) 0
  show (cfg2.win 4).cut (grid2.coords t) ((dat2 V c).after 4 t) = _
  rw [after2_4]
  funext y
  have hy0 : (y 0).val < 1 := (y 0).isLt
  have hy1 : (y 1).val < 1 := (y 1).isLt
  have hy2 : (y 2).val < 1 := (y 2).isLt
  have e0 : t.val = 32 * ((((cfg2.win 4).blk t).view.emb y) 0 : Nat) + 31 := by
    show t.val = 32 * (win2_4.index t 0 * 1 + 1 * (y 0).val) + 31
    rw [hi]; omega
  have ey : (cfg2.win 4).xinj (grid2.coords t) y = ValueIdx.ix3 0 0 0 := by
    funext a; apply Fin.ext
    match a with
    | ⟨0, _⟩ => show (y 0).val = 0; omega
    | ⟨1, _⟩ => show (y 1).val = 0; omega
    | ⟨2, _⟩ => show (y 2).val = 0; omega
  show outsAt2 V c t.val t.isLt ((cfg2.win 4).xinj (grid2.coords t) y)
    = outsAt2 V c (32 * ((((cfg2.win 4).blk t).view.emb y) 0 : Nat) + 31) _ (ValueIdx.ix3 0 0 0)
  rw [ey]
  exact congrFun (outsAt2_congr V c e0 _ _) _

/-- Every index of the result array is in the block of the last point of its value of grid coordinate 0. -/
theorem cover2_out (c : Dev nD) (i : ((cfg2.win 4).arr.view.loc (c.tc : Thread nD τ)).2.ty.Idx) :
    ∃ t : Fin cfg2.N, (cfg2.win 4).flush t = true ∧ i ∈ ((cfg2.win 4).blk t).view.set := by
  have hi0 : (i 0).val < 2 := (i 0).isLt
  have hi1 : (i 1).val < 1 := (i 1).isLt
  have hi2 : (i 2).val < 1 := (i 2).isLt
  refine ⟨⟨32 * (i 0).val + 31, last_lt2 ⟨(i 0).val, hi0⟩⟩, (flush2_4 _).mpr (by show (32 * (i 0).val + 31) % 32 = 31; omega), ?_⟩
  have hx := out_index2 ⟨32 * (i 0).val + 31, last_lt2 ⟨(i 0).val, hi0⟩⟩
  have hx0 : win2_4.index ⟨32 * (i 0).val + 31, last_lt2 ⟨(i 0).val, hi0⟩⟩ 0 = (32 * (i 0).val + 31) / 32 := congrFun hx 0
  have hx1 : win2_4.index ⟨32 * (i 0).val + 31, last_lt2 ⟨(i 0).val, hi0⟩⟩ 1 = 0 := congrFun hx 1
  have hx2 : win2_4.index ⟨32 * (i 0).val + 31, last_lt2 ⟨(i 0).val, hi0⟩⟩ 2 = 0 := congrFun hx 2
  show i ∈ ((View.whole main_v27).slice (win2_4.rect ⟨32 * (i 0).val + 31, last_lt2 ⟨(i 0).val, hi0⟩⟩)).set
  rw [View.set_slice_whole, Rect.mem_set_unit]
  intro a
  match a with
  | ⟨0, _⟩ =>
    show win2_4.index ⟨32 * (i 0).val + 31, _⟩ 0 * 1 ≤ (i 0).val ∧ (i 0).val < win2_4.index ⟨32 * (i 0).val + 31, _⟩ 0 * 1 + 1
    rw [hx0]; omega
  | ⟨1, _⟩ =>
    show win2_4.index ⟨32 * (i 0).val + 31, _⟩ 1 * 1 ≤ (i 1).val ∧ (i 1).val < win2_4.index ⟨32 * (i 0).val + 31, _⟩ 1 * 1 + 1
    rw [hx1]; omega
  | ⟨2, _⟩ =>
    show win2_4.index ⟨32 * (i 0).val + 31, _⟩ 2 * 1 ≤ (i 2).val ∧ (i 2).val < win2_4.index ⟨32 * (i 0).val + 31, _⟩ 2 * 1 + 1
    rw [hx2]; omega

/-- The result array after the region: under value `e` of grid coordinate 0, the accumulator block after the last
    point of that value. -/
theorem arrAt2_out (c : Dev nD) (e : Fin 2) :
    (dat2 V c).arrAt 4 cfg2.N (ValueIdx.ix3 e 0 0)
      = outsAt2 V c (32 * e.val + 31) (last_lt2 e) (ValueIdx.ix3 0 0 0) :=
  congrFun ((dat2 V c).arrAt_eq_of_cover 4 (res2 V c) (flushed_eq2 V c) (cover2_out c)) (ValueIdx.ix3 e 0 0)

/-! ## Kernel 0: the accumulation, one point at a time -/

/-- The accumulator block after a point is the body's sum over the zero block, at the first point of an accumulation
    run, or over the block after the point before. -/
theorem outsAt0_step (c : Dev nD) (t : Fin cfg0.N) :
    outsAt0 V c t.val t.isLt
      = k0_pay1 (k0_pay3 (iblk0 V c 0 t) (iblk0 V c 1 t) (iblk0 V c 2 t) (iblk0 V c 3 t)) (k0_pay4 (grid0.coords t)) k0_pay5 (if t.val % 32 = 0 then k0_pay2 else outsAt0 V c (t.val - 1) (Nat.lt_of_le_of_lt (Nat.sub_le _ _) t.isLt)) := by
  by_cases h0 : t.val % 32 = 0
  · rw [if_pos h0]
    exact (outsAt0_A V c t h0).trans
      (out0_A_eq c (grid0.coords t) (ms0_0 t) (hs0_0 t) (ms0_1 t) (hs0_1 t) (ms0_2 t) (hs0_2 t) (ms0_3 t) (hs0_3 t) (ms0_4 t) (hs0_4 t) ((hcond0 t).mpr h0) (iblk0 V c 0 t) (iblk0 V c 1 t) (iblk0 V c 2 t) (iblk0 V c 3 t))
  · rw [if_neg h0]
    exact (outsAt0_B V c t h0).trans
      (out0_B_eq c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk0 V c 0 t) (iblk0 V c 1 t) (iblk0 V c 2 t) (iblk0 V c 3 t)
        (outsAt0 V c (t.val - 1) (Nat.lt_of_le_of_lt (Nat.sub_le _ _) t.isLt)))

/-! ## Kernel 1: the accumulation, one point at a time -/

/-- The accumulator block after a point is the body's sum over the zero block, at the first point of an accumulation
    run, or over the block after the point before. -/
theorem outsAt1_step (c : Dev nD) (t : Fin cfg1.N) :
    outsAt1 V c t.val t.isLt
      = k1_pay1 (k1_pay3 (iblk1 V c 0 t) (iblk1 V c 1 t) (iblk1 V c 2 t) (iblk1 V c 3 t)) (k1_pay4 (grid1.coords t)) k1_pay5 (if t.val % 32 = 0 then k1_pay2 else outsAt1 V c (t.val - 1) (Nat.lt_of_le_of_lt (Nat.sub_le _ _) t.isLt)) := by
  by_cases h0 : t.val % 32 = 0
  · rw [if_pos h0]
    exact (outsAt1_A V c t h0).trans
      (out1_A_eq c (grid1.coords t) (ms1_0 t) (hs1_0 t) (ms1_1 t) (hs1_1 t) (ms1_2 t) (hs1_2 t) (ms1_3 t) (hs1_3 t) (ms1_4 t) (hs1_4 t) ((hcond1 t).mpr h0) (iblk1 V c 0 t) (iblk1 V c 1 t) (iblk1 V c 2 t) (iblk1 V c 3 t))
  · rw [if_neg h0]
    exact (outsAt1_B V c t h0).trans
      (out1_B_eq c (grid1.coords t) (ms1_0 t) (hs1_0 t) (ms1_1 t) (hs1_1 t) (ms1_2 t) (hs1_2 t) (ms1_3 t) (hs1_3 t) (ms1_4 t) (hs1_4 t) (fun h => h0 ((hcond1 t).mp h)) (iblk1 V c 0 t) (iblk1 V c 1 t) (iblk1 V c 2 t) (iblk1 V c 3 t)
        (outsAt1 V c (t.val - 1) (Nat.lt_of_le_of_lt (Nat.sub_le _ _) t.isLt)))

/-! ## Kernel 2: the accumulation, one point at a time -/

/-- The accumulator block after a point is the body's sum over the zero block, at the first point of an accumulation
    run, or over the block after the point before. -/
theorem outsAt2_step (c : Dev nD) (t : Fin cfg2.N) :
    outsAt2 V c t.val t.isLt
      = k2_pay2 (iblk2 V c 0 t) (iblk2 V c 1 t) (iblk2 V c 2 t) (iblk2 V c 3 t) (if t.val % 32 = 0 then k2_pay1 else outsAt2 V c (t.val - 1) (Nat.lt_of_le_of_lt (Nat.sub_le _ _) t.isLt)) := by
  by_cases h0 : t.val % 32 = 0
  · rw [if_pos h0]
    exact (outsAt2_A V c t h0).trans
      (out2_A_eq c (grid2.coords t) (ms2_0 t) (hs2_0 t) (ms2_1 t) (hs2_1 t) (ms2_2 t) (hs2_2 t) (ms2_3 t) (hs2_3 t) (ms2_4 t) (hs2_4 t) ((hcond2 t).mpr h0) (iblk2 V c 0 t) (iblk2 V c 1 t) (iblk2 V c 2 t) (iblk2 V c 3 t))
  · rw [if_neg h0]
    exact (outsAt2_B V c t h0).trans
      (out2_B_eq c (grid2.coords t) (ms2_0 t) (hs2_0 t) (ms2_1 t) (hs2_1 t) (ms2_2 t) (hs2_2 t) (ms2_3 t) (hs2_3 t) (ms2_4 t) (hs2_4 t) (fun h => h0 ((hcond2 t).mp h)) (iblk2 V c 0 t) (iblk2 V c 1 t) (iblk2 V c 2 t) (iblk2 V c 3 t)
        (outsAt2 V c (t.val - 1) (Nat.lt_of_le_of_lt (Nat.sub_le _ _) t.isLt)))

end Cert.KernelIdeal.Hand

end
-- ==== Proof.PayloadValue.lean ====
/-
  What the kernel's body computes at one grid point, at the ideal instance, on real-valued data.

  Each of the three calls tiles the 8192 × 8192 pairs of points into blocks of 512 × 2048. At a grid point the body
  holds a block `X` of 512 points and a block `Y` of 2048 points (256 coordinates each) with their squared norms `x2`,
  `y2`, forms the Gram entries `exp ((-1) · max (x2 a + y2 b - 2 · Σ_k X a k · Y b k) 0)` of the block, and adds their
  sum to a one-entry accumulator. The first two calls (a sample against itself) first replace by the literal `1` the
  entries on the diagonal of the whole matrix: those whose global row `i₁ · 512 + a` equals the global column
  `(i₀ · 2 + i₂) · 2048 + b`. The third call (one sample against the other) replaces nothing.

  At the ideal instance every operation is exact on the extended reals and a change of float format is the identity, so
  on real-valued data each stored value is the coercion of a real number: the old accumulator plus a double sum over the
  block. The lemmas below read the body's operations at an index one by one — the matrix product as a sum over the 256
  coordinates, the two broadcasts, the mask as an equation between naturals, the two lane sums with the keep-dims casts
  between them — and then assemble them.
-/
import proofs.«171171_j81080392613941_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadValue

open Cert.KernelIdeal Cert.KernelIdeal.Gen Idealize.ShloMosaic Idealize.ShloMosaic.ValueIdx
open scoped BigOperators

/-! ## The literals -/

/-- The word `0x3F800000` denotes the real `1`. -/
theorem ofBits_one : Ideal.ofBits .f32 0x3F800000#32 = ((1 : ℝ) : EReal) := by
  simp [Ideal.ofBits, Ideal.ieee, -EReal.coe_mul]; norm_num

/-- The word `0x40000000` denotes the real `2`. -/
theorem ofBits_two : Ideal.ofBits .f32 0x40000000#32 = ((2 : ℝ) : EReal) := by
  simp [Ideal.ofBits, Ideal.ieee, -EReal.coe_mul]; norm_num

/-- The word `0xBF800000` denotes the real `-1`. -/
theorem ofBits_negOne : Ideal.ofBits .f32 0xBF800000#32 = ((-1 : ℝ) : EReal) := by
  simp [Ideal.ofBits, Ideal.ieee, -EReal.coe_mul]; norm_num

/-- The zero word denotes the real `0`. -/
theorem ofBits_zero : Ideal.ofBits .f32 0x00000000#32 = ((0 : ℝ) : EReal) := by
  rw [Ideal.ofBits_zero_f32, EReal.coe_zero]

/-- The coercion of the reals into the extended reals commutes with finite sums. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion of the reals into the extended reals commutes with `max`. -/
theorem coe_max (x y : ℝ) : ((max x y : ℝ) : EReal) = max (x : EReal) (y : EReal) :=
  EReal.coe_strictMono.monotone.map_max

/-! ## The layout operations of the body, read at an index -/

/-- A column `[512, 1]` broadcast to `[512, 2048]` reads, at `(a, b)`, the column's entry `a`. -/
theorem broadcastTo_a1_ab_apply {α : Type} (v : S512x1.Idx → α) (h : S512x1.Broadcasts S512x2048)
    (a : Fin 512) (b : Fin 2048) : broadcastTo S512x2048 v h (ix2 a b) = v (ix2 a (0 : Fin 1)) := by
  refine broadcastTo_apply v h (ix2 a b) (ix2 a (0 : Fin 1)) fun ax => ?_
  match ax with
  | ⟨0, _⟩ => rfl
  | ⟨1, _⟩ => rfl

/-- The left operand's index of the product at an output index: its row is the output's row. -/
theorem lhs_row (i : S512x2048.Idx) (q : dot_S512x256_S2048x256_S512x2048_1_1_0_0_n_n.contr.Idx) :
    (dot_S512x256_S2048x256_S512x2048_1_1_0_0_n_n.lhsIdx i q 0).val = (i 0).val := by
  unfold DotDims.lhsIdx
  rw [dif_neg (show ¬(0 : Fin S512x256.rank) ∈ dot_S512x256_S2048x256_S512x2048_1_1_0_0_n_n.lhsBatch by decide),
    dif_pos (show (0 : Fin S512x256.rank) ∈ dot_S512x256_S2048x256_S512x2048_1_1_0_0_n_n.lhsNonContracting by decide)]
  rfl

/-- The right operand's index of the product at an output index: its row is the output's column. -/
theorem rhs_row (i : S512x2048.Idx) (q : dot_S512x256_S2048x256_S512x2048_1_1_0_0_n_n.contr.Idx) :
    (dot_S512x256_S2048x256_S512x2048_1_1_0_0_n_n.rhsIdx i q 0).val = (i 1).val := by
  unfold DotDims.rhsIdx
  rw [dif_neg (show ¬(0 : Fin S2048x256.rank) ∈ dot_S512x256_S2048x256_S512x2048_1_1_0_0_n_n.rhsBatch by decide),
    dif_pos (show (0 : Fin S2048x256.rank) ∈ dot_S512x256_S2048x256_S512x2048_1_1_0_0_n_n.rhsNonContracting by decide)]
  rfl

/-- The product of the two blocks' rows: the matrix product into a zero accumulator, both operands contracted along
    their second axis, read at `(a, b)`, is the sum over the 256 coordinates of the products. -/
theorem matmul_rows_apply (X : FVec Ideal S512x256 .bf16) (Y : FVec Ideal S2048x256 .bf16) (a : Fin 512) (b : Fin 2048) :
    matmul dot_S512x256_S2048x256_S512x2048_1_1_0_0_n_n none X Y (constant (F := Ideal) S512x2048 .f32 0x00000000#32) (ix2 a b)
      = ∑ k : Fin 256, X (ix2 a k) * Y (ix2 b k) := by
  simp only [matmul]
  rw [Ideal.matmul_constant_zero_apply,
    ← Equiv.sum_comp (ValueIdx.contrEquiv1 dot_S512x256_S2048x256_S512x2048_1_1_0_0_n_n 256 rfl rfl).symm]
  refine Finset.sum_congr rfl fun k _ => ?_
  have hk := ValueIdx.contrEquiv1_symm_val dot_S512x256_S2048x256_S512x2048_1_1_0_0_n_n 256 rfl rfl k
  have el : dot_S512x256_S2048x256_S512x2048_1_1_0_0_n_n.lhsIdx (ix2 a b)
      ((ValueIdx.contrEquiv1 dot_S512x256_S2048x256_S512x2048_1_1_0_0_n_n 256 rfl rfl).symm k) = ix2 a k :=
    funext fun c => Fin.ext (by
      match c with
      | ⟨0, _⟩ => exact lhs_row _ _
      | ⟨1, _⟩ => exact (dot_S512x256_S2048x256_S512x2048_1_1_0_0_n_n.lhsIdx_val_of_single rfl (ix2 a b) _).trans hk)
  have er : dot_S512x256_S2048x256_S512x2048_1_1_0_0_n_n.rhsIdx (ix2 a b)
      ((ValueIdx.contrEquiv1 dot_S512x256_S2048x256_S512x2048_1_1_0_0_n_n 256 rfl rfl).symm k) = ix2 b k :=
    funext fun c => Fin.ext (by
      match c with
      | ⟨0, _⟩ => exact rhs_row _ _
      | ⟨1, _⟩ => exact (dot_S512x256_S2048x256_S512x2048_1_1_0_0_n_n.rhsIdx_val_of_single rfl (ix2 a b) _).trans hk)
  rw [el, er]

/-! ## The Gram entries of a block -/

/-- The body's exponential term read at `(a, b)` of the block, over the extended reals. -/
theorem pay3_apply (X : Vec Ideal S512x256 .f32) (Y : Vec Ideal S2048x256 .f32) (x2 : Vec Ideal S512x1 .f32)
    (y2 : Vec Ideal S1x2048 .f32) (a : Fin 512) (b : Fin 2048) :
    k0_pay3 (F := Ideal) X Y x2 y2 (ix2 a b)
      = Ideal.exp (Ideal.ofBits .f32 0xBF800000#32
          * max (x2 (ix2 a (0 : Fin 1)) + y2 (ix2 (0 : Fin 1) b)
              - Ideal.ofBits .f32 0x40000000#32 * ∑ k : Fin 256, X (ix2 a k) * Y (ix2 b k))
            (Ideal.ofBits .f32 0x00000000#32)) := by
  have hm := matmul_rows_apply (truncf .bf16 X bitsLt_bf16_f32) (truncf .bf16 Y bitsLt_bf16_f32) a b
  have hx := broadcastTo_a1_ab_apply (shapeCast S512x1 x2 shapeCasts_S512x1_S512x1) broadcasts_S512x1_S512x2048 a b
  have hy := broadcastTo_1b_ab_apply (shapeCast S1x2048 y2 shapeCasts_S1x2048_S1x2048) broadcasts_S1x2048_S512x2048 a b
  rw [shapeCast_self] at hx hy
  unfold k0_pay3
  show Ideal.exp (Ideal.ofBits .f32 0xBF800000#32
      * max (broadcastTo S512x2048 (shapeCast S512x1 x2 shapeCasts_S512x1_S512x1) broadcasts_S512x1_S512x2048 (ix2 a b)
          + broadcastTo S512x2048 (shapeCast S1x2048 y2 shapeCasts_S1x2048_S1x2048) broadcasts_S1x2048_S512x2048 (ix2 a b)
          - Ideal.ofBits .f32 0x40000000#32
            * matmul dot_S512x256_S2048x256_S512x2048_1_1_0_0_n_n none (truncf .bf16 X bitsLt_bf16_f32)
                (truncf .bf16 Y bitsLt_bf16_f32) (constant (F := Ideal) S512x2048 .f32 0x00000000#32) (ix2 a b))
        (Ideal.ofBits .f32 0x00000000#32)) = _
  rw [hm, shapeCast_self x2, shapeCast_self y2, hx, hy]
  rfl

/-- On real-valued data the exponential term is the real Gram entry `exp ((-1) · max (x2 + y2 - 2 x·y) 0)`. -/
theorem pay3_real (X : Vec Ideal S512x256 .f32) (Y : Vec Ideal S2048x256 .f32) (x2 : Vec Ideal S512x1 .f32)
    (y2 : Vec Ideal S1x2048 .f32)
    (xr : Fin 512 → Fin 256 → ℝ) (yr : Fin 2048 → Fin 256 → ℝ) (x2r : Fin 512 → ℝ) (y2r : Fin 2048 → ℝ)
    (hX : ∀ a k, X (ix2 a k) = ((xr a k : ℝ) : EReal)) (hY : ∀ b k, Y (ix2 b k) = ((yr b k : ℝ) : EReal))
    (hx2 : ∀ a, x2 (ix2 a (0 : Fin 1)) = ((x2r a : ℝ) : EReal)) (hy2 : ∀ b, y2 (ix2 (0 : Fin 1) b) = ((y2r b : ℝ) : EReal))
    (a : Fin 512) (b : Fin 2048) :
    k0_pay3 (F := Ideal) X Y x2 y2 (ix2 a b)
      = ((Real.exp (-1 * max (x2r a + y2r b - 2 * ∑ k : Fin 256, xr a k * yr b k) 0) : ℝ) : EReal) := by
  rw [pay3_apply, hx2, hy2, ofBits_negOne, ofBits_two, ofBits_zero]
  simp only [hX, hY]
  simp only [← EReal.coe_mul, ← coe_sum, ← EReal.coe_add, ← EReal.coe_sub, ← coe_max, Ideal.exp_coe]

/-! ## The diagonal mask -/

/-- Two 32-bit words of small naturals are equal exactly when the naturals are. -/
theorem ofBool_beq_ofNat (n m : ℕ) (hn : n < 2 ^ 32) (hm : m < 2 ^ 32) :
    BitVec.ofBool (BitVec.ofNat 32 n == BitVec.ofNat 32 m) = if n = m then 1#1 else 0#1 := by
  by_cases h : n = m
  · subst h; simp
  · rw [if_neg h]
    have hne : BitVec.ofNat 32 n ≠ BitVec.ofNat 32 m := fun e => h (by
      have := congrArg BitVec.toNat e
      rwa [BitVec.toNat_ofNat, BitVec.toNat_ofNat, Nat.mod_eq_of_lt hn, Nat.mod_eq_of_lt hm] at this)
    rw [beq_false_of_ne hne]
    rfl

/-- The mask read at `(a, b)` of the block at grid point `i`: set exactly where the global row
    `i₁ · 512 + a` is the global column `(i₀ · 2 + i₂) · 2048 + b`. -/
theorem pay4_apply (i : grid0.Coords) (a : Fin 512) (b : Fin 2048) :
    k0_pay4 i (ix2 a b)
      = if (i 1).val * 512 + a.val = ((i 0).val * 2 + (i 2).val) * 2048 + b.val then 1#1 else 0#1 := by
  have h0 : (i 0).val < 2 := (i 0).isLt
  have h1 : (i 1).val < 16 := (i 1).isLt
  have h2 : (i 2).val < 2 := (i 2).isLt
  have ha : a.val < 512 := a.isLt
  have hb : b.val < 2048 := b.isLt
  unfold k0_pay4
  show BitVec.ofBool ((BitVec.ofNat 32 (i 1).val * 512#32 + iota .tc S512x2048 32 [0] iota_S512x2048_d0_w32 (ix2 a b))
      == ((BitVec.ofNat 32 (i 0).val * 2#32 + BitVec.ofNat 32 (i 2).val) * 2048#32
          + iota .tc S512x2048 32 [1] iota_S512x2048_d1_w32 (ix2 a b))) = _
  rw [iota_single_apply, iota_single_apply]
  show BitVec.ofBool ((BitVec.ofNat 32 (i 1).val * BitVec.ofNat 32 512 + BitVec.ofNat 32 a.val)
      == ((BitVec.ofNat 32 (i 0).val * BitVec.ofNat 32 2 + BitVec.ofNat 32 (i 2).val) * BitVec.ofNat 32 2048
          + BitVec.ofNat 32 b.val)) = _
  rw [← BitVec.ofNat_mul, ← BitVec.ofNat_add, ← BitVec.ofNat_mul, ← BitVec.ofNat_add, ← BitVec.ofNat_mul, ← BitVec.ofNat_add]
  exact ofBool_beq_ofNat _ _ (by omega) (by omega)

/-! ## The two sums -/

/-- A vector `[512]` cast to a column `[512, 1]` reads, at `(a, 0)`, the vector's entry `a`. -/
theorem shapeCast_a_a1_apply {α : Type} (x : S512.Idx → α) (h : S512.ShapeCasts S512x1) (a : Fin 512) (u : Fin 1) :
    shapeCast S512x1 x h (ix2 a u) = x (ix1 a) :=
  shapeCast_apply x h _ _ (by
    have hu : u.val = 0 := by omega
    rw [Shape.rowMajor_val_one, Shape.rowMajor_val_two]
    show a.val = a.val * 1 + u.val
    rw [hu, Nat.mul_one, Nat.add_zero])

/-- The sum of a `[512, 2048]` block along its columns, read at row `a`. -/
theorem reduce_cols (src : FVec Ideal S512x2048 .f32) (h : S512x2048.Reduces [1] S512) (hφ : FKind.Formats .f32)
    (hacc : (0x00000000#32 : BitVec 32) = 0x00000000#32) (a : Fin 512) :
    multiReduction (F := Ideal) .add [1] S512 src 0x00000000#32 h hφ hacc (ix1 a) = ∑ b : Fin 2048, src (ix2 a b) := by
  refine (Ideal.multiReduction_add_single src 0x00000000#32 h hφ hacc (ix1 a)).trans ?_
  refine Finset.sum_congr rfl fun k _ => congrArg src ?_
  funext c
  apply Fin.ext
  match c with
  | ⟨0, _⟩ => rfl
  | ⟨1, _⟩ => rfl

/-- The sum of a `[512, 1]` column along its rows, read at its one entry. -/
theorem reduce_rows (src : FVec Ideal S512x1 .f32) (h : S512x1.Reduces [0] S1) (hφ : FKind.Formats .f32)
    (hacc : (0x00000000#32 : BitVec 32) = 0x00000000#32) :
    multiReduction (F := Ideal) .add [0] S1 src 0x00000000#32 h hφ hacc (ix1 (0 : Fin 1)) = ∑ a : Fin 512, src (ix2 a (0 : Fin 1)) := by
  refine (Ideal.multiReduction_add_single src 0x00000000#32 h hφ hacc (ix1 (0 : Fin 1))).trans ?_
  refine Finset.sum_congr rfl fun k _ => congrArg src ?_
  funext c
  apply Fin.ext
  match c with
  | ⟨0, _⟩ => rfl
  | ⟨1, _⟩ => rfl

/-- What the body adds to its accumulator: the accumulator's old value plus the sum of a `[512, 2048]` block of terms,
    first along the columns, then along the rows, with the keep-dims layout casts between. -/
def total (v : FVec Ideal S512x2048 .f32) (acc : Vec Ideal S1x1x1 .f32) : FVec Ideal S1x1x1 .f32 :=
  addf (shapeCast S1x1x1 acc shapeCasts_S1x1x1_S1x1x1)
    (shapeCast S1x1x1
      (shapeCast S1x1
        (multiReduction (F := Ideal) .add [0] S1
          (shapeCast S512x1
            (multiReduction (F := Ideal) .add [1] S512 v 0x00000000#32 reduces_S512x2048_S512 (.inl rfl) rfl)
            shapeCasts_S512_S512x1)
          0x00000000#32 reduces_S512x1_S1 (.inl rfl) rfl)
        shapeCasts_S1_S1x1)
      shapeCasts_S1x1_S1x1x1)

/-- Its one entry: the old value plus the double sum over the block. -/
theorem total_apply (v : FVec Ideal S512x2048 .f32) (acc : Vec Ideal S1x1x1 .f32) :
    total v acc (ix3 (0 : Fin 1) (0 : Fin 1) (0 : Fin 1))
      = acc (ix3 (0 : Fin 1) (0 : Fin 1) (0 : Fin 1)) + ∑ a : Fin 512, ∑ b : Fin 2048, v (ix2 a b) := by
  unfold total
  refine (addf_apply _ _ _).trans ?_
  rw [shapeCast_self]
  refine congrArg (acc (ix3 (0 : Fin 1) (0 : Fin 1) (0 : Fin 1)) + ·) ?_
  refine (shapeCast_ab_1ab_apply _ _ (0 : Fin 1) (0 : Fin 1) (0 : Fin 1)).trans ?_
  refine (shapeCast_a_1a_apply _ _ (0 : Fin 1) (0 : Fin 1)).trans ?_
  refine (reduce_rows _ _ _ rfl).trans ?_
  refine Finset.sum_congr rfl fun a _ => ?_
  refine (shapeCast_a_a1_apply _ _ a (0 : Fin 1)).trans ?_
  exact reduce_cols _ _ _ rfl a

/-! ## The body's stored value -/

/-- The one index of the `[1, 1, 1]` accumulator. -/
theorem idx_eq_zero (j : S1x1x1.Idx) : j = ix3 (0 : Fin 1) (0 : Fin 1) (0 : Fin 1) :=
  funext fun c => match c with
    | ⟨0, _⟩ => Subsingleton.elim (α := Fin 1) _ _
    | ⟨1, _⟩ => Subsingleton.elim (α := Fin 1) _ _
    | ⟨2, _⟩ => Subsingleton.elim (α := Fin 1) _ _

/-- The value stored by the bodies that replace the diagonal: `total` of the masked block. -/
theorem pay1_eq_total (v24 : FVec Ideal S512x2048 .f32) (v35 : IVec S512x2048 1) (v36 : FVec Ideal S512x2048 .f32)
    (acc : Vec Ideal S1x1x1 .f32) : k0_pay1 (F := Ideal) v24 v35 v36 acc = total (select v35 v36 v24) acc := rfl

/-- The body of the first call at grid point `i`, on real-valued data: the accumulator's old value plus the sum over
    the block of the Gram entries, with the literal `1` where the global row is the global column. -/
theorem pay0_value (i : grid0.Coords) (X : Vec Ideal S512x256 .f32) (Y : Vec Ideal S2048x256 .f32)
    (x2 : Vec Ideal S512x1 .f32) (y2 : Vec Ideal S1x2048 .f32) (acc : Vec Ideal S1x1x1 .f32)
    (xr : Fin 512 → Fin 256 → ℝ) (yr : Fin 2048 → Fin 256 → ℝ) (x2r : Fin 512 → ℝ) (y2r : Fin 2048 → ℝ) (s : ℝ)
    (hX : ∀ a k, X (ix2 a k) = ((xr a k : ℝ) : EReal)) (hY : ∀ b k, Y (ix2 b k) = ((yr b k : ℝ) : EReal))
    (hx2 : ∀ a, x2 (ix2 a (0 : Fin 1)) = ((x2r a : ℝ) : EReal)) (hy2 : ∀ b, y2 (ix2 (0 : Fin 1) b) = ((y2r b : ℝ) : EReal))
    (hacc : acc (ix3 (0 : Fin 1) (0 : Fin 1) (0 : Fin 1)) = ((s : ℝ) : EReal)) :
    k0_pay1 (k0_pay3 X Y x2 y2) (k0_pay4 i) (k0_pay5 (F := Ideal)) acc
      = fun _ => (((s + ∑ a : Fin 512, ∑ b : Fin 2048,
          (if (i 1).val * 512 + a.val = ((i 0).val * 2 + (i 2).val) * 2048 + b.val then (1 : ℝ)
           else Real.exp (-1 * max (x2r a + y2r b - 2 * ∑ k : Fin 256, xr a k * yr b k) 0))) : ℝ) : EReal) := by
  funext j
  rw [idx_eq_zero j, pay1_eq_total, total_apply, hacc, EReal.coe_add, coe_sum]
  refine congrArg (((s : ℝ) : EReal) + ·) (Finset.sum_congr rfl fun a _ => ?_)
  rw [coe_sum]
  refine Finset.sum_congr rfl fun b _ => ?_
  rw [select_apply, pay4_apply, pay3_real X Y x2 y2 xr yr x2r y2r hX hY hx2 hy2 a b]
  show Scalar.select _ (Ideal.ofBits .f32 0x3F800000#32) _ = _
  rw [ofBits_one]
  by_cases h : (i 1).val * 512 + a.val = ((i 0).val * 2 + (i 2).val) * 2048 + b.val
  · rw [if_pos h, if_pos h, select_one]
  · rw [if_neg h, if_neg h, select_zero]

/-- The value the first call's body stores at the first point of a reduction: zero. -/
theorem pay0_zero : (k0_pay2 (F := Ideal)) = fun _ => ((0 : ℝ) : EReal) :=
  funext fun _ => ofBits_zero

/-- The second call's body is the first's text over its own grid. -/
theorem pay1_value (i : grid1.Coords) (X : Vec Ideal S512x256 .f32) (Y : Vec Ideal S2048x256 .f32)
    (x2 : Vec Ideal S512x1 .f32) (y2 : Vec Ideal S1x2048 .f32) (acc : Vec Ideal S1x1x1 .f32)
    (xr : Fin 512 → Fin 256 → ℝ) (yr : Fin 2048 → Fin 256 → ℝ) (x2r : Fin 512 → ℝ) (y2r : Fin 2048 → ℝ) (s : ℝ)
    (hX : ∀ a k, X (ix2 a k) = ((xr a k : ℝ) : EReal)) (hY : ∀ b k, Y (ix2 b k) = ((yr b k : ℝ) : EReal))
    (hx2 : ∀ a, x2 (ix2 a (0 : Fin 1)) = ((x2r a : ℝ) : EReal)) (hy2 : ∀ b, y2 (ix2 (0 : Fin 1) b) = ((y2r b : ℝ) : EReal))
    (hacc : acc (ix3 (0 : Fin 1) (0 : Fin 1) (0 : Fin 1)) = ((s : ℝ) : EReal)) :
    k1_pay1 (k1_pay3 X Y x2 y2) (k1_pay4 i) (k1_pay5 (F := Ideal)) acc
      = fun _ => (((s + ∑ a : Fin 512, ∑ b : Fin 2048,
          (if (i 1).val * 512 + a.val = ((i 0).val * 2 + (i 2).val) * 2048 + b.val then (1 : ℝ)
           else Real.exp (-1 * max (x2r a + y2r b - 2 * ∑ k : Fin 256, xr a k * yr b k) 0))) : ℝ) : EReal) :=
  pay0_value i X Y x2 y2 acc xr yr x2r y2r s hX hY hx2 hy2 hacc

/-- The value the second call's body stores at the first point of a reduction: zero. -/
theorem pay1_zero : (k1_pay2 (F := Ideal)) = fun _ => ((0 : ℝ) : EReal) :=
  funext fun _ => ofBits_zero

/-- The third call's body: no diagonal replacement, the plain sum of the block's Gram entries. -/
theorem pay2_eq_total (X : Vec Ideal S512x256 .f32) (Y : Vec Ideal S2048x256 .f32)
    (x2 : Vec Ideal S512x1 .f32) (y2 : Vec Ideal S1x2048 .f32) (acc : Vec Ideal S1x1x1 .f32) :
    k2_pay2 (F := Ideal) X Y x2 y2 acc = total (k0_pay3 X Y x2 y2) acc := rfl

/-- The body of the third call, on real-valued data: the accumulator's old value plus the sum over the block of the
    Gram entries. -/
theorem pay2_value (X : Vec Ideal S512x256 .f32) (Y : Vec Ideal S2048x256 .f32)
    (x2 : Vec Ideal S512x1 .f32) (y2 : Vec Ideal S1x2048 .f32) (acc : Vec Ideal S1x1x1 .f32)
    (xr : Fin 512 → Fin 256 → ℝ) (yr : Fin 2048 → Fin 256 → ℝ) (x2r : Fin 512 → ℝ) (y2r : Fin 2048 → ℝ) (s : ℝ)
    (hX : ∀ a k, X (ix2 a k) = ((xr a k : ℝ) : EReal)) (hY : ∀ b k, Y (ix2 b k) = ((yr b k : ℝ) : EReal))
    (hx2 : ∀ a, x2 (ix2 a (0 : Fin 1)) = ((x2r a : ℝ) : EReal)) (hy2 : ∀ b, y2 (ix2 (0 : Fin 1) b) = ((y2r b : ℝ) : EReal))
    (hacc : acc (ix3 (0 : Fin 1) (0 : Fin 1) (0 : Fin 1)) = ((s : ℝ) : EReal)) :
    k2_pay2 X Y x2 y2 acc
      = fun _ => (((s + ∑ a : Fin 512, ∑ b : Fin 2048,
          Real.exp (-1 * max (x2r a + y2r b - 2 * ∑ k : Fin 256, xr a k * yr b k) 0)) : ℝ) : EReal) := by
  funext j
  rw [idx_eq_zero j, pay2_eq_total, total_apply, hacc, EReal.coe_add, coe_sum]
  refine congrArg (((s : ℝ) : EReal) + ·) (Finset.sum_congr rfl fun a _ => ?_)
  rw [coe_sum]
  exact Finset.sum_congr rfl fun b _ => pay3_real X Y x2 y2 xr yr x2r y2r hX hY hx2 hy2 a b

/-- The value the third call's body stores at the first point of a reduction: zero. -/
theorem pay2_zero : (k2_pay1 (F := Ideal)) = fun _ => ((0 : ℝ) : EReal) :=
  funext fun _ => ofBits_zero

end Cert.KernelIdeal.PayloadValue

end
-- ==== Proof.Ki.AccValue.lean ====
/-
  What each of the three calls accumulates over its grid, at the ideal instance, on real-valued data.

  A call runs over the 64 positions of a `2 × 16 × 2` grid; position `t` is the grid point `(t / 32, t % 32 / 2, t % 2)`.
  At grid point `(e, i, j)` the body reads the 512 points of rows `i · 512 + a` of one array and the 2048 points of rows
  `(e · 2 + j) · 2048 + b` of the other, with their squared norms from a column and a row of 8192 entries, and adds the
  block's sum of Gram entries to a one-entry accumulator that is cleared at the first position of each run of 32
  (a value of `e`). So after the last position of a run the accumulator holds the sum, over the 32 blocks of the run, of
  the blocks' sums: the Gram sum over the rows `0 … 8191` against the columns `e · 4096 … e · 4096 + 4095`.

  First the input blocks are read at an index (where a block's entry sits in its array); then one position's step is
  read off the body's stores and stated on real-valued data through the body's value; then the 32 steps of a run are added up by induction, and the
  positions are regrouped as pairs `(i, j)`.
-/
import proofs.«171171_j81080392613941_2_alg».proof.Proof.Ki.OutValue
import proofs.«171171_j81080392613941_2_alg».proof.Proof.PayloadValue
import proofs.«171171_j81080392613941_2_alg».proof.Proof.LibMmdBlocks
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

/-! ## Kernel 0: the input blocks read at an index -/

section Blocks0
variable {F : FTy → Type} [FloatOps F]
variable (V : (c : Dev nD) → (b : Ref sig .tc) → Buf (Elt F) ((c : Thread nD τ).loc b))

/-- The grid point of the first call at a position, decided over the grid: position `t` is `(t / 32, t % 32 / 2, t % 2)`. -/
theorem coords0 : ∀ t : Fin cfg0.N, (grid0.coords t 0).val = t.val / 32 ∧ (grid0.coords t 1).val = t.val % 32 / 2
    ∧ (grid0.coords t 2).val = t.val % 2 :=
  (by decide +kernel : ∀ t : Fin grid0.N, _)

/-- The first call's index maps, decided over the grid: the row blocks follow grid coordinate 1, the column blocks
    follow `2 ·` coordinate 0 `+` coordinate 2. -/
theorem idx_facts0 : ∀ t : Fin cfg0.N,
    win0_0.index t (0 : Fin 2) = (grid0.coords t 1).val ∧ win0_0.index t (1 : Fin 2) = 0
    ∧ win0_1.index t (0 : Fin 2) = (grid0.coords t 0).val * 2 + (grid0.coords t 2).val ∧ win0_1.index t (1 : Fin 2) = 0
    ∧ win0_2.index t (0 : Fin 2) = (grid0.coords t 1).val ∧ win0_2.index t (1 : Fin 2) = 0
    ∧ win0_3.index t (0 : Fin 2) = 0 ∧ win0_3.index t (1 : Fin 2) = (grid0.coords t 0).val * 2 + (grid0.coords t 2).val :=
  (by decide +kernel : ∀ t : Fin grid0.N, _)

/-- The global row of row `a` of the block at position `t` is in range. -/
theorem row_lt0 (t : Fin cfg0.N) (a : Fin 512) : (grid0.coords t 1).val * 512 + a.val < 8192 := by
  have h1 : (grid0.coords t 1).val < 16 := (grid0.coords t 1).isLt
  have ha : a.val < 512 := a.isLt
  omega

/-- The global column of column `b` of the block at position `t` is in range. -/
theorem col_lt0 (t : Fin cfg0.N) (b : Fin 2048) :
    ((grid0.coords t 0).val * 2 + (grid0.coords t 2).val) * 2048 + b.val < 8192 := by
  have h0 : (grid0.coords t 0).val < 2 := (grid0.coords t 0).isLt
  have h2 : (grid0.coords t 2).val < 2 := (grid0.coords t 2).isLt
  have hb : b.val < 2048 := b.isLt
  omega

/-- Window 0's block: the rows `i₁ · 512 + a` of its array. -/
theorem iblk0_0_apply (c : Dev nD) (t : Fin cfg0.N) (a : Fin 512) (k : Fin 256) :
    iblk0 V c 0 t (ix2 a k)
      = (V c main_arg0 : S8192x256.Idx → Elt F .f32) (ix2 ⟨(grid0.coords t 1).val * 512 + a.val, row_lt0 t a⟩ k) := by
  obtain ⟨e0, e1, -⟩ := idx_facts0 t
  show (V c main_arg0 : S8192x256.Idx → Elt F .f32) (((cfg0.win 0).blk t).view.emb (ix2 a k)) = _
  refine congrArg (V c main_arg0 : S8192x256.Idx → Elt F .f32) (funext fun ax => Fin.ext ?_)
  match ax with
  | ⟨0, _⟩ => show win0_0.index t (0 : Fin 2) * 512 + 1 * a.val = (grid0.coords t 1).val * 512 + a.val; omega
  | ⟨1, _⟩ => show win0_0.index t (1 : Fin 2) * 256 + 1 * k.val = k.val; omega

/-- Window 1's block: the rows `(i₀ · 2 + i₂) · 2048 + b` of its array. -/
theorem iblk0_1_apply (c : Dev nD) (t : Fin cfg0.N) (b : Fin 2048) (k : Fin 256) :
    iblk0 V c 1 t (ix2 b k)
      = (V c main_arg0 : S8192x256.Idx → Elt F .f32)
          (ix2 ⟨((grid0.coords t 0).val * 2 + (grid0.coords t 2).val) * 2048 + b.val, col_lt0 t b⟩ k) := by
  obtain ⟨-, -, e2, e3, -⟩ := idx_facts0 t
  show (V c main_arg0 : S8192x256.Idx → Elt F .f32) (((cfg0.win 1).blk t).view.emb (ix2 b k)) = _
  refine congrArg (V c main_arg0 : S8192x256.Idx → Elt F .f32) (funext fun ax => Fin.ext ?_)
  match ax with
  | ⟨0, _⟩ =>
    show win0_1.index t (0 : Fin 2) * 2048 + 1 * b.val = ((grid0.coords t 0).val * 2 + (grid0.coords t 2).val) * 2048 + b.val
    rw [e2]; omega
  | ⟨1, _⟩ => show win0_1.index t (1 : Fin 2) * 256 + 1 * k.val = k.val; omega

/-- Window 2's block: the entries `i₁ · 512 + a` of the column of squared norms. -/
theorem iblk0_2_apply (c : Dev nD) (t : Fin cfg0.N) (a : Fin 512) :
    iblk0 V c 2 t (ix2 a (0 : Fin 1))
      = (V c main_v2 : S8192x1.Idx → Elt F .f32) (ix2 ⟨(grid0.coords t 1).val * 512 + a.val, row_lt0 t a⟩ (0 : Fin 1)) := by
  obtain ⟨-, -, -, -, e4, e5, -⟩ := idx_facts0 t
  show (V c main_v2 : S8192x1.Idx → Elt F .f32) (((cfg0.win 2).blk t).view.emb (ix2 a (0 : Fin 1))) = _
  refine congrArg (V c main_v2 : S8192x1.Idx → Elt F .f32) (funext fun ax => Fin.ext ?_)
  match ax with
  | ⟨0, _⟩ => show win0_2.index t (0 : Fin 2) * 512 + 1 * a.val = (grid0.coords t 1).val * 512 + a.val; omega
  | ⟨1, _⟩ => show win0_2.index t (1 : Fin 2) * 1 + 1 * 0 = 0; omega

/-- Window 3's block: the entries `(i₀ · 2 + i₂) · 2048 + b` of the row of squared norms. -/
theorem iblk0_3_apply (c : Dev nD) (t : Fin cfg0.N) (b : Fin 2048) :
    iblk0 V c 3 t (ix2 (0 : Fin 1) b)
      = (V c main_v6 : S1x8192.Idx → Elt F .f32)
          (ix2 (0 : Fin 1) ⟨((grid0.coords t 0).val * 2 + (grid0.coords t 2).val) * 2048 + b.val, col_lt0 t b⟩) := by
  obtain ⟨-, -, -, -, -, -, e6, e7⟩ := idx_facts0 t
  show (V c main_v6 : S1x8192.Idx → Elt F .f32) (((cfg0.win 3).blk t).view.emb (ix2 (0 : Fin 1) b)) = _
  refine congrArg (V c main_v6 : S1x8192.Idx → Elt F .f32) (funext fun ax => Fin.ext ?_)
  match ax with
  | ⟨0, _⟩ => show win0_3.index t (0 : Fin 2) * 1 + 1 * 0 = 0; omega
  | ⟨1, _⟩ =>
    show win0_3.index t (1 : Fin 2) * 2048 + 1 * b.val = ((grid0.coords t 0).val * 2 + (grid0.coords t 2).val) * 2048 + b.val
    rw [e7]; omega

end Blocks0

/-! ## Kernel 1: the input blocks read at an index -/

section Blocks1
variable {F : FTy → Type} [FloatOps F]
variable (V : (c : Dev nD) → (b : Ref sig .tc) → Buf (Elt F) ((c : Thread nD τ).loc b))

/-- The grid point of the second call at a position, decided over the grid: position `t` is `(t / 32, t % 32 / 2, t % 2)`. -/
theorem coords1 : ∀ t : Fin cfg1.N, (grid1.coords t 0).val = t.val / 32 ∧ (grid1.coords t 1).val = t.val % 32 / 2
    ∧ (grid1.coords t 2).val = t.val % 2 :=
  (by decide +kernel : ∀ t : Fin grid1.N, _)

/-- The second call's index maps, decided over the grid: the row blocks follow grid coordinate 1, the column blocks
    follow `2 ·` coordinate 0 `+` coordinate 2. -/
theorem idx_facts1 : ∀ t : Fin cfg1.N,
    win1_0.index t (0 : Fin 2) = (grid1.coords t 1).val ∧ win1_0.index t (1 : Fin 2) = 0
    ∧ win1_1.index t (0 : Fin 2) = (grid1.coords t 0).val * 2 + (grid1.coords t 2).val ∧ win1_1.index t (1 : Fin 2) = 0
    ∧ win1_2.index t (0 : Fin 2) = (grid1.coords t 1).val ∧ win1_2.index t (1 : Fin 2) = 0
    ∧ win1_3.index t (0 : Fin 2) = 0 ∧ win1_3.index t (1 : Fin 2) = (grid1.coords t 0).val * 2 + (grid1.coords t 2).val :=
  (by decide +kernel : ∀ t : Fin grid1.N, _)

/-- The global row of row `a` of the block at position `t` is in range. -/
theorem row_lt1 (t : Fin cfg1.N) (a : Fin 512) : (grid1.coords t 1).val * 512 + a.val < 8192 := by
  have h1 : (grid1.coords t 1).val < 16 := (grid1.coords t 1).isLt
  have ha : a.val < 512 := a.isLt
  omega

/-- The global column of column `b` of the block at position `t` is in range. -/
theorem col_lt1 (t : Fin cfg1.N) (b : Fin 2048) :
    ((grid1.coords t 0).val * 2 + (grid1.coords t 2).val) * 2048 + b.val < 8192 := by
  have h0 : (grid1.coords t 0).val < 2 := (grid1.coords t 0).isLt
  have h2 : (grid1.coords t 2).val < 2 := (grid1.coords t 2).isLt
  have hb : b.val < 2048 := b.isLt
  omega

/-- Window 0's block: the rows `i₁ · 512 + a` of its array. -/
theorem iblk1_0_apply (c : Dev nD) (t : Fin cfg1.N) (a : Fin 512) (k : Fin 256) :
    iblk1 V c 0 t (ix2 a k)
      = (V c main_arg1 : S8192x256.Idx → Elt F .f32) (ix2 ⟨(grid1.coords t 1).val * 512 + a.val, row_lt1 t a⟩ k) := by
  obtain ⟨e0, e1, -⟩ := idx_facts1 t
  show (V c main_arg1 : S8192x256.Idx → Elt F .f32) (((cfg1.win 0).blk t).view.emb (ix2 a k)) = _
  refine congrArg (V c main_arg1 : S8192x256.Idx → Elt F .f32) (funext fun ax => Fin.ext ?_)
  match ax with
  | ⟨0, _⟩ => show win1_0.index t (0 : Fin 2) * 512 + 1 * a.val = (grid1.coords t 1).val * 512 + a.val; omega
  | ⟨1, _⟩ => show win1_0.index t (1 : Fin 2) * 256 + 1 * k.val = k.val; omega

/-- Window 1's block: the rows `(i₀ · 2 + i₂) · 2048 + b` of its array. -/
theorem iblk1_1_apply (c : Dev nD) (t : Fin cfg1.N) (b : Fin 2048) (k : Fin 256) :
    iblk1 V c 1 t (ix2 b k)
      = (V c main_arg1 : S8192x256.Idx → Elt F .f32)
          (ix2 ⟨((grid1.coords t 0).val * 2 + (grid1.coords t 2).val) * 2048 + b.val, col_lt1 t b⟩ k) := by
  obtain ⟨-, -, e2, e3, -⟩ := idx_facts1 t
  show (V c main_arg1 : S8192x256.Idx → Elt F .f32) (((cfg1.win 1).blk t).view.emb (ix2 b k)) = _
  refine congrArg (V c main_arg1 : S8192x256.Idx → Elt F .f32) (funext fun ax => Fin.ext ?_)
  match ax with
  | ⟨0, _⟩ =>
    show win1_1.index t (0 : Fin 2) * 2048 + 1 * b.val = ((grid1.coords t 0).val * 2 + (grid1.coords t 2).val) * 2048 + b.val
    rw [e2]; omega
  | ⟨1, _⟩ => show win1_1.index t (1 : Fin 2) * 256 + 1 * k.val = k.val; omega

/-- Window 2's block: the entries `i₁ · 512 + a` of the column of squared norms. -/
theorem iblk1_2_apply (c : Dev nD) (t : Fin cfg1.N) (a : Fin 512) :
    iblk1 V c 2 t (ix2 a (0 : Fin 1))
      = (V c main_v12 : S8192x1.Idx → Elt F .f32) (ix2 ⟨(grid1.coords t 1).val * 512 + a.val, row_lt1 t a⟩ (0 : Fin 1)) := by
  obtain ⟨-, -, -, -, e4, e5, -⟩ := idx_facts1 t
  show (V c main_v12 : S8192x1.Idx → Elt F .f32) (((cfg1.win 2).blk t).view.emb (ix2 a (0 : Fin 1))) = _
  refine congrArg (V c main_v12 : S8192x1.Idx → Elt F .f32) (funext fun ax => Fin.ext ?_)
  match ax with
  | ⟨0, _⟩ => show win1_2.index t (0 : Fin 2) * 512 + 1 * a.val = (grid1.coords t 1).val * 512 + a.val; omega
  | ⟨1, _⟩ => show win1_2.index t (1 : Fin 2) * 1 + 1 * 0 = 0; omega

/-- Window 3's block: the entries `(i₀ · 2 + i₂) · 2048 + b` of the row of squared norms. -/
theorem iblk1_3_apply (c : Dev nD) (t : Fin cfg1.N) (b : Fin 2048) :
    iblk1 V c 3 t (ix2 (0 : Fin 1) b)
      = (V c main_v16 : S1x8192.Idx → Elt F .f32)
          (ix2 (0 : Fin 1) ⟨((grid1.coords t 0).val * 2 + (grid1.coords t 2).val) * 2048 + b.val, col_lt1 t b⟩) := by
  obtain ⟨-, -, -, -, -, -, e6, e7⟩ := idx_facts1 t
  show (V c main_v16 : S1x8192.Idx → Elt F .f32) (((cfg1.win 3).blk t).view.emb (ix2 (0 : Fin 1) b)) = _
  refine congrArg (V c main_v16 : S1x8192.Idx → Elt F .f32) (funext fun ax => Fin.ext ?_)
  match ax with
  | ⟨0, _⟩ => show win1_3.index t (0 : Fin 2) * 1 + 1 * 0 = 0; omega
  | ⟨1, _⟩ =>
    show win1_3.index t (1 : Fin 2) * 2048 + 1 * b.val = ((grid1.coords t 0).val * 2 + (grid1.coords t 2).val) * 2048 + b.val
    rw [e7]; omega

end Blocks1

/-! ## Kernel 2: the input blocks read at an index -/

section Blocks2
variable {F : FTy → Type} [FloatOps F]
variable (V : (c : Dev nD) → (b : Ref sig .tc) → Buf (Elt F) ((c : Thread nD τ).loc b))

/-- The grid point of the third call at a position, decided over the grid: position `t` is `(t / 32, t % 32 / 2, t % 2)`. -/
theorem coords2 : ∀ t : Fin cfg2.N, (grid2.coords t 0).val = t.val / 32 ∧ (grid2.coords t 1).val = t.val % 32 / 2
    ∧ (grid2.coords t 2).val = t.val % 2 :=
  (by decide +kernel : ∀ t : Fin grid2.N, _)

/-- The third call's index maps, decided over the grid: the row blocks follow grid coordinate 1, the column blocks
    follow `2 ·` coordinate 0 `+` coordinate 2. -/
theorem idx_facts2 : ∀ t : Fin cfg2.N,
    win2_0.index t (0 : Fin 2) = (grid2.coords t 1).val ∧ win2_0.index t (1 : Fin 2) = 0
    ∧ win2_1.index t (0 : Fin 2) = (grid2.coords t 0).val * 2 + (grid2.coords t 2).val ∧ win2_1.index t (1 : Fin 2) = 0
    ∧ win2_2.index t (0 : Fin 2) = (grid2.coords t 1).val ∧ win2_2.index t (1 : Fin 2) = 0
    ∧ win2_3.index t (0 : Fin 2) = 0 ∧ win2_3.index t (1 : Fin 2) = (grid2.coords t 0).val * 2 + (grid2.coords t 2).val :=
  (by decide +kernel : ∀ t : Fin grid2.N, _)

/-- The global row of row `a` of the block at position `t` is in range. -/
theorem row_lt2 (t : Fin cfg2.N) (a : Fin 512) : (grid2.coords t 1).val * 512 + a.val < 8192 := by
  have h1 : (grid2.coords t 1).val < 16 := (grid2.coords t 1).isLt
  have ha : a.val < 512 := a.isLt
  omega

/-- The global column of column `b` of the block at position `t` is in range. -/
theorem col_lt2 (t : Fin cfg2.N) (b : Fin 2048) :
    ((grid2.coords t 0).val * 2 + (grid2.coords t 2).val) * 2048 + b.val < 8192 := by
  have h0 : (grid2.coords t 0).val < 2 := (grid2.coords t 0).isLt
  have h2 : (grid2.coords t 2).val < 2 := (grid2.coords t 2).isLt
  have hb : b.val < 2048 := b.isLt
  omega

/-- Window 0's block: the rows `i₁ · 512 + a` of its array. -/
theorem iblk2_0_apply (c : Dev nD) (t : Fin cfg2.N) (a : Fin 512) (k : Fin 256) :
    iblk2 V c 0 t (ix2 a k)
      = (V c main_arg0 : S8192x256.Idx → Elt F .f32) (ix2 ⟨(grid2.coords t 1).val * 512 + a.val, row_lt2 t a⟩ k) := by
  obtain ⟨e0, e1, -⟩ := idx_facts2 t
  show (V c main_arg0 : S8192x256.Idx → Elt F .f32) (((cfg2.win 0).blk t).view.emb (ix2 a k)) = _
  refine congrArg (V c main_arg0 : S8192x256.Idx → Elt F .f32) (funext fun ax => Fin.ext ?_)
  match ax with
  | ⟨0, _⟩ => show win2_0.index t (0 : Fin 2) * 512 + 1 * a.val = (grid2.coords t 1).val * 512 + a.val; omega
  | ⟨1, _⟩ => show win2_0.index t (1 : Fin 2) * 256 + 1 * k.val = k.val; omega

/-- Window 1's block: the rows `(i₀ · 2 + i₂) · 2048 + b` of its array. -/
theorem iblk2_1_apply (c : Dev nD) (t : Fin cfg2.N) (b : Fin 2048) (k : Fin 256) :
    iblk2 V c 1 t (ix2 b k)
      = (V c main_arg1 : S8192x256.Idx → Elt F .f32)
          (ix2 ⟨((grid2.coords t 0).val * 2 + (grid2.coords t 2).val) * 2048 + b.val, col_lt2 t b⟩ k) := by
  obtain ⟨-, -, e2, e3, -⟩ := idx_facts2 t
  show (V c main_arg1 : S8192x256.Idx → Elt F .f32) (((cfg2.win 1).blk t).view.emb (ix2 b k)) = _
  refine congrArg (V c main_arg1 : S8192x256.Idx → Elt F .f32) (funext fun ax => Fin.ext ?_)
  match ax with
  | ⟨0, _⟩ =>
    show win2_1.index t (0 : Fin 2) * 2048 + 1 * b.val = ((grid2.coords t 0).val * 2 + (grid2.coords t 2).val) * 2048 + b.val
    rw [e2]; omega
  | ⟨1, _⟩ => show win2_1.index t (1 : Fin 2) * 256 + 1 * k.val = k.val; omega

/-- Window 2's block: the entries `i₁ · 512 + a` of the column of squared norms. -/
theorem iblk2_2_apply (c : Dev nD) (t : Fin cfg2.N) (a : Fin 512) :
    iblk2 V c 2 t (ix2 a (0 : Fin 1))
      = (V c main_v22 : S8192x1.Idx → Elt F .f32) (ix2 ⟨(grid2.coords t 1).val * 512 + a.val, row_lt2 t a⟩ (0 : Fin 1)) := by
  obtain ⟨-, -, -, -, e4, e5, -⟩ := idx_facts2 t
  show (V c main_v22 : S8192x1.Idx → Elt F .f32) (((cfg2.win 2).blk t).view.emb (ix2 a (0 : Fin 1))) = _
  refine congrArg (V c main_v22 : S8192x1.Idx → Elt F .f32) (funext fun ax => Fin.ext ?_)
  match ax with
  | ⟨0, _⟩ => show win2_2.index t (0 : Fin 2) * 512 + 1 * a.val = (grid2.coords t 1).val * 512 + a.val; omega
  | ⟨1, _⟩ => show win2_2.index t (1 : Fin 2) * 1 + 1 * 0 = 0; omega

/-- Window 3's block: the entries `(i₀ · 2 + i₂) · 2048 + b` of the row of squared norms. -/
theorem iblk2_3_apply (c : Dev nD) (t : Fin cfg2.N) (b : Fin 2048) :
    iblk2 V c 3 t (ix2 (0 : Fin 1) b)
      = (V c main_v26 : S1x8192.Idx → Elt F .f32)
          (ix2 (0 : Fin 1) ⟨((grid2.coords t 0).val * 2 + (grid2.coords t 2).val) * 2048 + b.val, col_lt2 t b⟩) := by
  obtain ⟨-, -, -, -, -, -, e6, e7⟩ := idx_facts2 t
  show (V c main_v26 : S1x8192.Idx → Elt F .f32) (((cfg2.win 3).blk t).view.emb (ix2 (0 : Fin 1) b)) = _
  refine congrArg (V c main_v26 : S1x8192.Idx → Elt F .f32) (funext fun ax => Fin.ext ?_)
  match ax with
  | ⟨0, _⟩ => show win2_3.index t (0 : Fin 2) * 1 + 1 * 0 = 0; omega
  | ⟨1, _⟩ =>
    show win2_3.index t (1 : Fin 2) * 2048 + 1 * b.val = ((grid2.coords t 0).val * 2 + (grid2.coords t 2).val) * 2048 + b.val
    rw [e7]; omega

end Blocks2

/-! ## Adding up a run of 32 positions -/

section Run

/-- A family indexed by a position and its bound does not depend on how the position is written. -/
theorem out_congr {α : Type} {N : ℕ} (out : (n : ℕ) → n < N → α) {n n' : ℕ} (h : n = n') (hn : n < N) (hn' : n' < N) :
    out n hn = out n' hn' := by
  subst h; rfl

/-- An accumulator that holds the real `T t` after a position `t` that opens a run of 32, and the real it held before plus
    `T t` after any other position, holds after position `n` of run `e` the sum of `T` over the run's positions up to `n`. -/
theorem run_total {N : ℕ} (out : (n : ℕ) → n < N → S1x1x1.Idx → EReal) (T : ℕ → ℝ)
    (hA : ∀ t : Fin N, t.val % 32 = 0 → out t.val t.isLt = fun _ => ((T t.val : ℝ) : EReal))
    (hB : ∀ (t : Fin N) (s : ℝ), ¬t.val % 32 = 0 →
        out (t.val - 1) (Nat.lt_of_le_of_lt (Nat.sub_le _ _) t.isLt) = (fun _ => ((s : ℝ) : EReal)) →
        out t.val t.isLt = fun _ => ((s + T t.val : ℝ) : EReal))
    (e n : ℕ) (hn : n < 32) (h : 32 * e + n < N) :
    out (32 * e + n) h = fun _ => ((∑ m ∈ Finset.range (n + 1), T (32 * e + m) : ℝ) : EReal) := by
  induction n with
  | zero =>
    refine (hA ⟨32 * e + 0, h⟩ (by show (32 * e + 0) % 32 = 0; omega)).trans ?_
    rw [Finset.sum_range_one]
  | succ n ih =>
    have hp : 32 * e + n < N := by omega
    refine (hB ⟨32 * e + (n + 1), h⟩ (∑ m ∈ Finset.range (n + 1), T (32 * e + m))
      (by show ¬(32 * e + (n + 1)) % 32 = 0; omega)
      ((out_congr out (by show 32 * e + (n + 1) - 1 = 32 * e + n; omega) _ hp).trans (ih (by omega) hp))).trans ?_
    rw [Finset.sum_range_succ (fun m => T (32 * e + m)) (n + 1)]

/-- The 32 positions of a run, regrouped as the pairs `(i, j)` with position `i · 2 + j`. -/
theorem sum_run (g : ℕ → ℕ → ℝ) :
    (∑ m ∈ Finset.range 32, g (m / 2) (m % 2)) = ∑ i : Fin 16, ∑ j : Fin 2, g i.val j.val := by
  rw [Finset.sum_range]
  refine ((Cert.Mmd.sum_fin_mul 16 2 (fun m => g (m / 2) (m % 2))).symm).trans ?_
  refine Finset.sum_congr rfl fun i _ => Finset.sum_congr rfl fun j _ => ?_
  have hj : j.val < 2 := j.isLt
  rw [show (i.val * 2 + j.val) / 2 = i.val by omega, show (i.val * 2 + j.val) % 2 = j.val by omega]

end Run

/-! ## The blocks' sums over the reals -/

/-- The sum of the Gram entries of block `(e, i, j)` of a family against itself, with the literal one on the diagonal. -/
def blockSumSym (x : Fin 8192 → Fin 256 → ℝ) (e i j : ℕ) : ℝ :=
  ∑ a : Fin 512, ∑ b : Fin 2048,
    (if i * 512 + a.val = (e * 2 + j) * 2048 + b.val then (1 : ℝ)
     else Cert.Mmd.gram (Cert.Mmd.atNat x (i * 512 + a.val)) (Cert.Mmd.atNat x ((e * 2 + j) * 2048 + b.val)))

/-- The sum of the Gram entries of block `(e, i, j)` of one family against another. -/
def blockSum (x y : Fin 8192 → Fin 256 → ℝ) (e i j : ℕ) : ℝ :=
  ∑ a : Fin 512, ∑ b : Fin 2048,
    Cert.Mmd.gram (Cert.Mmd.atNat x (i * 512 + a.val)) (Cert.Mmd.atNat y ((e * 2 + j) * 2048 + b.val))

/-! ## Kernel 0 over a run -/

section Acc0
variable (V : (c : Dev nD) → (b : Ref sig .tc) → Buf (Elt Ideal) ((c : Thread nD τ).loc b)) (c : Dev nD)
variable (x : Fin 8192 → Fin 256 → ℝ)

/-- One position's step of the first call on real-valued data: the body adds the block's sum, with the literal one on the
    diagonal, to what the accumulator held. -/
theorem step0 (hx : ∀ p q, (V c main_arg0 : S8192x256.Idx → EReal) (ix2 p q) = ((x p q : ℝ) : EReal))
    (hx2 : ∀ r : Fin 8192, (V c main_v2 : S8192x1.Idx → EReal) (ix2 r (0 : Fin 1)) = ((∑ k, x r k * x r k : ℝ) : EReal))
    (hy2 : ∀ s : Fin 8192, (V c main_v6 : S1x8192.Idx → EReal) (ix2 (0 : Fin 1) s) = ((∑ k, x s k * x s k : ℝ) : EReal))
    (t : Fin cfg0.N) (acc : Vec Ideal S1x1x1 .f32) (s : ℝ)
    (hacc : acc (ix3 (0 : Fin 1) (0 : Fin 1) (0 : Fin 1)) = ((s : ℝ) : EReal)) :
    k0_pay1 (k0_pay3 (iblk0 V c 0 t) (iblk0 V c 1 t) (iblk0 V c 2 t) (iblk0 V c 3 t)) (k0_pay4 (grid0.coords t))
        (k0_pay5 (F := Ideal)) acc
      = fun _ => ((s + blockSumSym x (t.val / 32) (t.val % 32 / 2) (t.val % 2) : ℝ) : EReal) := by
  obtain ⟨c0, c1, c2⟩ := coords0 t
  have h := PayloadValue.pay0_value (grid0.coords t) (iblk0 V c 0 t) (iblk0 V c 1 t) (iblk0 V c 2 t) (iblk0 V c 3 t) acc
    (fun a k => Cert.Mmd.atNat x ((grid0.coords t 1).val * 512 + a.val) k)
    (fun b k => Cert.Mmd.atNat x (((grid0.coords t 0).val * 2 + (grid0.coords t 2).val) * 2048 + b.val) k)
    (fun a => ∑ k, Cert.Mmd.atNat x ((grid0.coords t 1).val * 512 + a.val) k
        * Cert.Mmd.atNat x ((grid0.coords t 1).val * 512 + a.val) k)
    (fun b => ∑ k, Cert.Mmd.atNat x (((grid0.coords t 0).val * 2 + (grid0.coords t 2).val) * 2048 + b.val) k
        * Cert.Mmd.atNat x (((grid0.coords t 0).val * 2 + (grid0.coords t 2).val) * 2048 + b.val) k) s
    (fun a k => by rw [iblk0_0_apply V c t a k, hx, Cert.Mmd.atNat, dif_pos (row_lt0 t a)])
    (fun b k => by rw [iblk0_1_apply V c t b k, hx, Cert.Mmd.atNat, dif_pos (col_lt0 t b)])
    (fun a => by rw [iblk0_2_apply V c t a, hx2, Cert.Mmd.atNat, dif_pos (row_lt0 t a)])
    (fun b => by rw [iblk0_3_apply V c t b, hy2, Cert.Mmd.atNat, dif_pos (col_lt0 t b)])
    hacc
  rw [c0, c1, c2] at h
  exact h

/-- After position `n` of run `e` the accumulator holds the sum of the run's blocks up to that position. -/
theorem acc0_run (hstep : ∀ t : Fin cfg0.N, outsAt0 V c t.val t.isLt
        = k0_pay1 (k0_pay3 (iblk0 V c 0 t) (iblk0 V c 1 t) (iblk0 V c 2 t) (iblk0 V c 3 t)) (k0_pay4 (grid0.coords t))
            (k0_pay5 (F := Ideal))
            (if t.val % 32 = 0 then k0_pay2 (F := Ideal)
             else outsAt0 V c (t.val - 1) (Nat.lt_of_le_of_lt (Nat.sub_le _ _) t.isLt)))
    (hx : ∀ p q, (V c main_arg0 : S8192x256.Idx → EReal) (ix2 p q) = ((x p q : ℝ) : EReal))
    (hx2 : ∀ r : Fin 8192, (V c main_v2 : S8192x1.Idx → EReal) (ix2 r (0 : Fin 1)) = ((∑ k, x r k * x r k : ℝ) : EReal))
    (hy2 : ∀ s : Fin 8192, (V c main_v6 : S1x8192.Idx → EReal) (ix2 (0 : Fin 1) s) = ((∑ k, x s k * x s k : ℝ) : EReal))
    (e n : ℕ) (hn : n < 32) (h : 32 * e + n < cfg0.N) :
    outsAt0 V c (32 * e + n) h = fun _ => ((∑ m ∈ Finset.range (n + 1),
        blockSumSym x ((32 * e + m) / 32) ((32 * e + m) % 32 / 2) ((32 * e + m) % 2) : ℝ) : EReal) :=
  run_total (outsAt0 V c) (fun t => blockSumSym x (t / 32) (t % 32 / 2) (t % 2))
    (fun t h0 => by
      refine (hstep t).trans ?_
      rw [if_pos h0]
      refine (step0 V c x hx hx2 hy2 t (k0_pay2 (F := Ideal)) 0 (congrFun PayloadValue.pay0_zero _)).trans ?_
      rw [zero_add])
    (fun t s h0 hprev => by
      refine (hstep t).trans ?_
      rw [if_neg h0]
      exact step0 V c x hx hx2 hy2 t _ s (congrFun hprev _))
    e n hn h

/-- THE FIRST CALL'S RUN `e`: after its last position the accumulator holds the sum over the run's 32 blocks of the
    Gram entries of the family against itself, with the literal one on the diagonal. -/
theorem acc0_value_of (hstep : ∀ t : Fin cfg0.N, outsAt0 V c t.val t.isLt
        = k0_pay1 (k0_pay3 (iblk0 V c 0 t) (iblk0 V c 1 t) (iblk0 V c 2 t) (iblk0 V c 3 t)) (k0_pay4 (grid0.coords t))
            (k0_pay5 (F := Ideal))
            (if t.val % 32 = 0 then k0_pay2 (F := Ideal)
             else outsAt0 V c (t.val - 1) (Nat.lt_of_le_of_lt (Nat.sub_le _ _) t.isLt)))
    (hx : ∀ p q, (V c main_arg0 : S8192x256.Idx → EReal) (ix2 p q) = ((x p q : ℝ) : EReal))
    (hx2 : ∀ r : Fin 8192, (V c main_v2 : S8192x1.Idx → EReal) (ix2 r (0 : Fin 1)) = ((∑ k, x r k * x r k : ℝ) : EReal))
    (hy2 : ∀ s : Fin 8192, (V c main_v6 : S1x8192.Idx → EReal) (ix2 (0 : Fin 1) s) = ((∑ k, x s k * x s k : ℝ) : EReal))
    (e : Fin 2) :
    outsAt0 V c (32 * e.val + 31) (last_lt0 e) (ix3 (0 : Fin 1) (0 : Fin 1) (0 : Fin 1))
      = (((∑ i : Fin 16, ∑ j : Fin 2, ∑ a : Fin 512, ∑ b : Fin 2048,
          (if i.val * 512 + a.val = (e.val * 2 + j.val) * 2048 + b.val then (1 : ℝ)
           else Cert.Mmd.gram (Cert.Mmd.atNat x (i.val * 512 + a.val))
             (Cert.Mmd.atNat x ((e.val * 2 + j.val) * 2048 + b.val)))) : ℝ) : EReal) := by
  rw [acc0_run V c x hstep hx hx2 hy2 e.val 31 (by omega) (last_lt0 e)]
  refine congrArg (fun r : ℝ => (r : EReal)) ?_
  refine (Finset.sum_congr rfl fun m hm => ?_).trans (sum_run (fun i j => blockSumSym x e.val i j))
  have hm' : m < 32 := Finset.mem_range.mp hm
  rw [show (32 * e.val + m) / 32 = e.val by omega, show (32 * e.val + m) % 32 / 2 = m / 2 by omega,
    show (32 * e.val + m) % 2 = m % 2 by omega]

/-- The same with the step read off the body's stores: the accumulator after the last position of run `e`. -/
theorem acc0_value (hx : ∀ p q, (V c main_arg0 : S8192x256.Idx → EReal) (ix2 p q) = ((x p q : ℝ) : EReal))
    (hx2 : ∀ r : Fin 8192, (V c main_v2 : S8192x1.Idx → EReal) (ix2 r (0 : Fin 1)) = ((∑ k, x r k * x r k : ℝ) : EReal))
    (hy2 : ∀ s : Fin 8192, (V c main_v6 : S1x8192.Idx → EReal) (ix2 (0 : Fin 1) s) = ((∑ k, x s k * x s k : ℝ) : EReal))
    (e : Fin 2) :
    outsAt0 V c (32 * e.val + 31) (last_lt0 e) (ix3 (0 : Fin 1) (0 : Fin 1) (0 : Fin 1))
      = (((∑ i : Fin 16, ∑ j : Fin 2, ∑ a : Fin 512, ∑ b : Fin 2048,
          (if i.val * 512 + a.val = (e.val * 2 + j.val) * 2048 + b.val then (1 : ℝ)
           else Cert.Mmd.gram (Cert.Mmd.atNat x (i.val * 512 + a.val))
             (Cert.Mmd.atNat x ((e.val * 2 + j.val) * 2048 + b.val)))) : ℝ) : EReal) :=
  acc0_value_of V c x (outsAt0_step V c) hx hx2 hy2 e

/-- WHAT THE FIRST CALL LEAVES IN ITS RESULT ARRAY: under value `e` of the first grid coordinate, the sum over that value's
    32 blocks of the Gram entries of the family against itself, with the literal one on the diagonal. -/
theorem res0_value (hx : ∀ p q, (V c main_arg0 : S8192x256.Idx → EReal) (ix2 p q) = ((x p q : ℝ) : EReal))
    (hx2 : ∀ r : Fin 8192, (V c main_v2 : S8192x1.Idx → EReal) (ix2 r (0 : Fin 1)) = ((∑ k, x r k * x r k : ℝ) : EReal))
    (hy2 : ∀ s : Fin 8192, (V c main_v6 : S1x8192.Idx → EReal) (ix2 (0 : Fin 1) s) = ((∑ k, x s k * x s k : ℝ) : EReal))
    (e : Fin 2) :
    ((dat0 V c).arrAt 4 cfg0.N : S2x1x1.Idx → EReal) (ix3 e (0 : Fin 1) (0 : Fin 1))
      = (((∑ i : Fin 16, ∑ j : Fin 2, ∑ a : Fin 512, ∑ b : Fin 2048,
          (if i.val * 512 + a.val = (e.val * 2 + j.val) * 2048 + b.val then (1 : ℝ)
           else Cert.Mmd.gram (Cert.Mmd.atNat x (i.val * 512 + a.val))
             (Cert.Mmd.atNat x ((e.val * 2 + j.val) * 2048 + b.val)))) : ℝ) : EReal) :=
  (arrAt0_out V c e).trans (acc0_value V c x hx hx2 hy2 e)

end Acc0

/-! ## Kernel 1 over a run -/

section Acc1
variable (V : (c : Dev nD) → (b : Ref sig .tc) → Buf (Elt Ideal) ((c : Thread nD τ).loc b)) (c : Dev nD)
variable (y : Fin 8192 → Fin 256 → ℝ)

/-- One position's step of the second call on real-valued data: the body adds the block's sum, with the literal one on the
    diagonal, to what the accumulator held. -/
theorem step1 (hx : ∀ p q, (V c main_arg1 : S8192x256.Idx → EReal) (ix2 p q) = ((y p q : ℝ) : EReal))
    (hx2 : ∀ r : Fin 8192, (V c main_v12 : S8192x1.Idx → EReal) (ix2 r (0 : Fin 1)) = ((∑ k, y r k * y r k : ℝ) : EReal))
    (hy2 : ∀ s : Fin 8192, (V c main_v16 : S1x8192.Idx → EReal) (ix2 (0 : Fin 1) s) = ((∑ k, y s k * y s k : ℝ) : EReal))
    (t : Fin cfg1.N) (acc : Vec Ideal S1x1x1 .f32) (s : ℝ)
    (hacc : acc (ix3 (0 : Fin 1) (0 : Fin 1) (0 : Fin 1)) = ((s : ℝ) : EReal)) :
    k1_pay1 (k1_pay3 (iblk1 V c 0 t) (iblk1 V c 1 t) (iblk1 V c 2 t) (iblk1 V c 3 t)) (k1_pay4 (grid1.coords t))
        (k1_pay5 (F := Ideal)) acc
      = fun _ => ((s + blockSumSym y (t.val / 32) (t.val % 32 / 2) (t.val % 2) : ℝ) : EReal) := by
  obtain ⟨c0, c1, c2⟩ := coords1 t
  have h := PayloadValue.pay1_value (grid1.coords t) (iblk1 V c 0 t) (iblk1 V c 1 t) (iblk1 V c 2 t) (iblk1 V c 3 t) acc
    (fun a k => Cert.Mmd.atNat y ((grid1.coords t 1).val * 512 + a.val) k)
    (fun b k => Cert.Mmd.atNat y (((grid1.coords t 0).val * 2 + (grid1.coords t 2).val) * 2048 + b.val) k)
    (fun a => ∑ k, Cert.Mmd.atNat y ((grid1.coords t 1).val * 512 + a.val) k
        * Cert.Mmd.atNat y ((grid1.coords t 1).val * 512 + a.val) k)
    (fun b => ∑ k, Cert.Mmd.atNat y (((grid1.coords t 0).val * 2 + (grid1.coords t 2).val) * 2048 + b.val) k
        * Cert.Mmd.atNat y (((grid1.coords t 0).val * 2 + (grid1.coords t 2).val) * 2048 + b.val) k) s
    (fun a k => by rw [iblk1_0_apply V c t a k, hx, Cert.Mmd.atNat, dif_pos (row_lt1 t a)])
    (fun b k => by rw [iblk1_1_apply V c t b k, hx, Cert.Mmd.atNat, dif_pos (col_lt1 t b)])
    (fun a => by rw [iblk1_2_apply V c t a, hx2, Cert.Mmd.atNat, dif_pos (row_lt1 t a)])
    (fun b => by rw [iblk1_3_apply V c t b, hy2, Cert.Mmd.atNat, dif_pos (col_lt1 t b)])
    hacc
  rw [c0, c1, c2] at h
  exact h

/-- After position `n` of run `e` the accumulator holds the sum of the run's blocks up to that position. -/
theorem acc1_run (hstep : ∀ t : Fin cfg1.N, outsAt1 V c t.val t.isLt
        = k1_pay1 (k1_pay3 (iblk1 V c 0 t) (iblk1 V c 1 t) (iblk1 V c 2 t) (iblk1 V c 3 t)) (k1_pay4 (grid1.coords t))
            (k1_pay5 (F := Ideal))
            (if t.val % 32 = 0 then k1_pay2 (F := Ideal)
             else outsAt1 V c (t.val - 1) (Nat.lt_of_le_of_lt (Nat.sub_le _ _) t.isLt)))
    (hx : ∀ p q, (V c main_arg1 : S8192x256.Idx → EReal) (ix2 p q) = ((y p q : ℝ) : EReal))
    (hx2 : ∀ r : Fin 8192, (V c main_v12 : S8192x1.Idx → EReal) (ix2 r (0 : Fin 1)) = ((∑ k, y r k * y r k : ℝ) : EReal))
    (hy2 : ∀ s : Fin 8192, (V c main_v16 : S1x8192.Idx → EReal) (ix2 (0 : Fin 1) s) = ((∑ k, y s k * y s k : ℝ) : EReal))
    (e n : ℕ) (hn : n < 32) (h : 32 * e + n < cfg1.N) :
    outsAt1 V c (32 * e + n) h = fun _ => ((∑ m ∈ Finset.range (n + 1),
        blockSumSym y ((32 * e + m) / 32) ((32 * e + m) % 32 / 2) ((32 * e + m) % 2) : ℝ) : EReal) :=
  run_total (outsAt1 V c) (fun t => blockSumSym y (t / 32) (t % 32 / 2) (t % 2))
    (fun t h0 => by
      refine (hstep t).trans ?_
      rw [if_pos h0]
      refine (step1 V c y hx hx2 hy2 t (k1_pay2 (F := Ideal)) 0 (congrFun PayloadValue.pay1_zero _)).trans ?_
      rw [zero_add])
    (fun t s h0 hprev => by
      refine (hstep t).trans ?_
      rw [if_neg h0]
      exact step1 V c y hx hx2 hy2 t _ s (congrFun hprev _))
    e n hn h

/-- THE SECOND CALL'S RUN `e`: after its last position the accumulator holds the sum over the run's 32 blocks of the
    Gram entries of the family against itself, with the literal one on the diagonal. -/
theorem acc1_value_of (hstep : ∀ t : Fin cfg1.N, outsAt1 V c t.val t.isLt
        = k1_pay1 (k1_pay3 (iblk1 V c 0 t) (iblk1 V c 1 t) (iblk1 V c 2 t) (iblk1 V c 3 t)) (k1_pay4 (grid1.coords t))
            (k1_pay5 (F := Ideal))
            (if t.val % 32 = 0 then k1_pay2 (F := Ideal)
             else outsAt1 V c (t.val - 1) (Nat.lt_of_le_of_lt (Nat.sub_le _ _) t.isLt)))
    (hx : ∀ p q, (V c main_arg1 : S8192x256.Idx → EReal) (ix2 p q) = ((y p q : ℝ) : EReal))
    (hx2 : ∀ r : Fin 8192, (V c main_v12 : S8192x1.Idx → EReal) (ix2 r (0 : Fin 1)) = ((∑ k, y r k * y r k : ℝ) : EReal))
    (hy2 : ∀ s : Fin 8192, (V c main_v16 : S1x8192.Idx → EReal) (ix2 (0 : Fin 1) s) = ((∑ k, y s k * y s k : ℝ) : EReal))
    (e : Fin 2) :
    outsAt1 V c (32 * e.val + 31) (last_lt1 e) (ix3 (0 : Fin 1) (0 : Fin 1) (0 : Fin 1))
      = (((∑ i : Fin 16, ∑ j : Fin 2, ∑ a : Fin 512, ∑ b : Fin 2048,
          (if i.val * 512 + a.val = (e.val * 2 + j.val) * 2048 + b.val then (1 : ℝ)
           else Cert.Mmd.gram (Cert.Mmd.atNat y (i.val * 512 + a.val))
             (Cert.Mmd.atNat y ((e.val * 2 + j.val) * 2048 + b.val)))) : ℝ) : EReal) := by
  rw [acc1_run V c y hstep hx hx2 hy2 e.val 31 (by omega) (last_lt1 e)]
  refine congrArg (fun r : ℝ => (r : EReal)) ?_
  refine (Finset.sum_congr rfl fun m hm => ?_).trans (sum_run (fun i j => blockSumSym y e.val i j))
  have hm' : m < 32 := Finset.mem_range.mp hm
  rw [show (32 * e.val + m) / 32 = e.val by omega, show (32 * e.val + m) % 32 / 2 = m / 2 by omega,
    show (32 * e.val + m) % 2 = m % 2 by omega]

/-- The same with the step read off the body's stores: the accumulator after the last position of run `e`. -/
theorem acc1_value (hx : ∀ p q, (V c main_arg1 : S8192x256.Idx → EReal) (ix2 p q) = ((y p q : ℝ) : EReal))
    (hx2 : ∀ r : Fin 8192, (V c main_v12 : S8192x1.Idx → EReal) (ix2 r (0 : Fin 1)) = ((∑ k, y r k * y r k : ℝ) : EReal))
    (hy2 : ∀ s : Fin 8192, (V c main_v16 : S1x8192.Idx → EReal) (ix2 (0 : Fin 1) s) = ((∑ k, y s k * y s k : ℝ) : EReal))
    (e : Fin 2) :
    outsAt1 V c (32 * e.val + 31) (last_lt1 e) (ix3 (0 : Fin 1) (0 : Fin 1) (0 : Fin 1))
      = (((∑ i : Fin 16, ∑ j : Fin 2, ∑ a : Fin 512, ∑ b : Fin 2048,
          (if i.val * 512 + a.val = (e.val * 2 + j.val) * 2048 + b.val then (1 : ℝ)
           else Cert.Mmd.gram (Cert.Mmd.atNat y (i.val * 512 + a.val))
             (Cert.Mmd.atNat y ((e.val * 2 + j.val) * 2048 + b.val)))) : ℝ) : EReal) :=
  acc1_value_of V c y (outsAt1_step V c) hx hx2 hy2 e

/-- WHAT THE SECOND CALL LEAVES IN ITS RESULT ARRAY: under value `e` of the first grid coordinate, the sum over that value's
    32 blocks of the Gram entries of the family against itself, with the literal one on the diagonal. -/
theorem res1_value (hx : ∀ p q, (V c main_arg1 : S8192x256.Idx → EReal) (ix2 p q) = ((y p q : ℝ) : EReal))
    (hx2 : ∀ r : Fin 8192, (V c main_v12 : S8192x1.Idx → EReal) (ix2 r (0 : Fin 1)) = ((∑ k, y r k * y r k : ℝ) : EReal))
    (hy2 : ∀ s : Fin 8192, (V c main_v16 : S1x8192.Idx → EReal) (ix2 (0 : Fin 1) s) = ((∑ k, y s k * y s k : ℝ) : EReal))
    (e : Fin 2) :
    ((dat1 V c).arrAt 4 cfg1.N : S2x1x1.Idx → EReal) (ix3 e (0 : Fin 1) (0 : Fin 1))
      = (((∑ i : Fin 16, ∑ j : Fin 2, ∑ a : Fin 512, ∑ b : Fin 2048,
          (if i.val * 512 + a.val = (e.val * 2 + j.val) * 2048 + b.val then (1 : ℝ)
           else Cert.Mmd.gram (Cert.Mmd.atNat y (i.val * 512 + a.val))
             (Cert.Mmd.atNat y ((e.val * 2 + j.val) * 2048 + b.val)))) : ℝ) : EReal) :=
  (arrAt1_out V c e).trans (acc1_value V c y hx hx2 hy2 e)

end Acc1

/-! ## Kernel 2 over a run -/

section Acc2
variable (V : (c : Dev nD) → (b : Ref sig .tc) → Buf (Elt Ideal) ((c : Thread nD τ).loc b)) (c : Dev nD)
variable (x y : Fin 8192 → Fin 256 → ℝ)

/-- One position's step of the third call on real-valued data: the body adds the block's sum to what the accumulator
    held. -/
theorem step2 (hx : ∀ p q, (V c main_arg0 : S8192x256.Idx → EReal) (ix2 p q) = ((x p q : ℝ) : EReal))
    (hy : ∀ p q, (V c main_arg1 : S8192x256.Idx → EReal) (ix2 p q) = ((y p q : ℝ) : EReal))
    (hx2 : ∀ r : Fin 8192, (V c main_v22 : S8192x1.Idx → EReal) (ix2 r (0 : Fin 1)) = ((∑ k, x r k * x r k : ℝ) : EReal))
    (hy2 : ∀ s : Fin 8192, (V c main_v26 : S1x8192.Idx → EReal) (ix2 (0 : Fin 1) s) = ((∑ k, y s k * y s k : ℝ) : EReal))
    (t : Fin cfg2.N) (acc : Vec Ideal S1x1x1 .f32) (s : ℝ)
    (hacc : acc (ix3 (0 : Fin 1) (0 : Fin 1) (0 : Fin 1)) = ((s : ℝ) : EReal)) :
    k2_pay2 (iblk2 V c 0 t) (iblk2 V c 1 t) (iblk2 V c 2 t) (iblk2 V c 3 t) acc
      = fun _ => ((s + blockSum x y (t.val / 32) (t.val % 32 / 2) (t.val % 2) : ℝ) : EReal) := by
  obtain ⟨c0, c1, c2⟩ := coords2 t
  have h := PayloadValue.pay2_value (iblk2 V c 0 t) (iblk2 V c 1 t) (iblk2 V c 2 t) (iblk2 V c 3 t) acc
    (fun a k => Cert.Mmd.atNat x ((grid2.coords t 1).val * 512 + a.val) k)
    (fun b k => Cert.Mmd.atNat y (((grid2.coords t 0).val * 2 + (grid2.coords t 2).val) * 2048 + b.val) k)
    (fun a => ∑ k, Cert.Mmd.atNat x ((grid2.coords t 1).val * 512 + a.val) k
        * Cert.Mmd.atNat x ((grid2.coords t 1).val * 512 + a.val) k)
    (fun b => ∑ k, Cert.Mmd.atNat y (((grid2.coords t 0).val * 2 + (grid2.coords t 2).val) * 2048 + b.val) k
        * Cert.Mmd.atNat y (((grid2.coords t 0).val * 2 + (grid2.coords t 2).val) * 2048 + b.val) k) s
    (fun a k => by rw [iblk2_0_apply V c t a k, hx, Cert.Mmd.atNat, dif_pos (row_lt2 t a)])
    (fun b k => by rw [iblk2_1_apply V c t b k, hy, Cert.Mmd.atNat, dif_pos (col_lt2 t b)])
    (fun a => by rw [iblk2_2_apply V c t a, hx2, Cert.Mmd.atNat, dif_pos (row_lt2 t a)])
    (fun b => by rw [iblk2_3_apply V c t b, hy2, Cert.Mmd.atNat, dif_pos (col_lt2 t b)])
    hacc
  rw [c0, c1, c2] at h
  exact h

/-- After position `n` of run `e` the accumulator holds the sum of the run's blocks up to that position. -/
theorem acc2_run (hstep : ∀ t : Fin cfg2.N, outsAt2 V c t.val t.isLt
        = k2_pay2 (iblk2 V c 0 t) (iblk2 V c 1 t) (iblk2 V c 2 t) (iblk2 V c 3 t)
            (if t.val % 32 = 0 then k2_pay1 (F := Ideal)
             else outsAt2 V c (t.val - 1) (Nat.lt_of_le_of_lt (Nat.sub_le _ _) t.isLt)))
    (hx : ∀ p q, (V c main_arg0 : S8192x256.Idx → EReal) (ix2 p q) = ((x p q : ℝ) : EReal))
    (hy : ∀ p q, (V c main_arg1 : S8192x256.Idx → EReal) (ix2 p q) = ((y p q : ℝ) : EReal))
    (hx2 : ∀ r : Fin 8192, (V c main_v22 : S8192x1.Idx → EReal) (ix2 r (0 : Fin 1)) = ((∑ k, x r k * x r k : ℝ) : EReal))
    (hy2 : ∀ s : Fin 8192, (V c main_v26 : S1x8192.Idx → EReal) (ix2 (0 : Fin 1) s) = ((∑ k, y s k * y s k : ℝ) : EReal))
    (e n : ℕ) (hn : n < 32) (h : 32 * e + n < cfg2.N) :
    outsAt2 V c (32 * e + n) h = fun _ => ((∑ m ∈ Finset.range (n + 1),
        blockSum x y ((32 * e + m) / 32) ((32 * e + m) % 32 / 2) ((32 * e + m) % 2) : ℝ) : EReal) :=
  run_total (outsAt2 V c) (fun t => blockSum x y (t / 32) (t % 32 / 2) (t % 2))
    (fun t h0 => by
      refine (hstep t).trans ?_
      rw [if_pos h0]
      refine (step2 V c x y hx hy hx2 hy2 t (k2_pay1 (F := Ideal)) 0 (congrFun PayloadValue.pay2_zero _)).trans ?_
      rw [zero_add])
    (fun t s h0 hprev => by
      refine (hstep t).trans ?_
      rw [if_neg h0]
      exact step2 V c x y hx hy hx2 hy2 t _ s (congrFun hprev _))
    e n hn h

/-- THE THIRD CALL'S RUN `e`: after its last position the accumulator holds the sum over the run's 32 blocks of the Gram
    entries of the first family against the second. -/
theorem acc2_value_of (hstep : ∀ t : Fin cfg2.N, outsAt2 V c t.val t.isLt
        = k2_pay2 (iblk2 V c 0 t) (iblk2 V c 1 t) (iblk2 V c 2 t) (iblk2 V c 3 t)
            (if t.val % 32 = 0 then k2_pay1 (F := Ideal)
             else outsAt2 V c (t.val - 1) (Nat.lt_of_le_of_lt (Nat.sub_le _ _) t.isLt)))
    (hx : ∀ p q, (V c main_arg0 : S8192x256.Idx → EReal) (ix2 p q) = ((x p q : ℝ) : EReal))
    (hy : ∀ p q, (V c main_arg1 : S8192x256.Idx → EReal) (ix2 p q) = ((y p q : ℝ) : EReal))
    (hx2 : ∀ r : Fin 8192, (V c main_v22 : S8192x1.Idx → EReal) (ix2 r (0 : Fin 1)) = ((∑ k, x r k * x r k : ℝ) : EReal))
    (hy2 : ∀ s : Fin 8192, (V c main_v26 : S1x8192.Idx → EReal) (ix2 (0 : Fin 1) s) = ((∑ k, y s k * y s k : ℝ) : EReal))
    (e : Fin 2) :
    outsAt2 V c (32 * e.val + 31) (last_lt2 e) (ix3 (0 : Fin 1) (0 : Fin 1) (0 : Fin 1))
      = (((∑ i : Fin 16, ∑ j : Fin 2, ∑ a : Fin 512, ∑ b : Fin 2048,
          Cert.Mmd.gram (Cert.Mmd.atNat x (i.val * 512 + a.val))
            (Cert.Mmd.atNat y ((e.val * 2 + j.val) * 2048 + b.val))) : ℝ) : EReal) := by
  rw [acc2_run V c x y hstep hx hy hx2 hy2 e.val 31 (by omega) (last_lt2 e)]
  refine congrArg (fun r : ℝ => (r : EReal)) ?_
  refine (Finset.sum_congr rfl fun m hm => ?_).trans (sum_run (fun i j => blockSum x y e.val i j))
  have hm' : m < 32 := Finset.mem_range.mp hm
  rw [show (32 * e.val + m) / 32 = e.val by omega, show (32 * e.val + m) % 32 / 2 = m / 2 by omega,
    show (32 * e.val + m) % 2 = m % 2 by omega]

/-- The same with the step read off the body's stores: the accumulator after the last position of run `e`. -/
theorem acc2_value (hx : ∀ p q, (V c main_arg0 : S8192x256.Idx → EReal) (ix2 p q) = ((x p q : ℝ) : EReal))
    (hy : ∀ p q, (V c main_arg1 : S8192x256.Idx → EReal) (ix2 p q) = ((y p q : ℝ) : EReal))
    (hx2 : ∀ r : Fin 8192, (V c main_v22 : S8192x1.Idx → EReal) (ix2 r (0 : Fin 1)) = ((∑ k, x r k * x r k : ℝ) : EReal))
    (hy2 : ∀ s : Fin 8192, (V c main_v26 : S1x8192.Idx → EReal) (ix2 (0 : Fin 1) s) = ((∑ k, y s k * y s k : ℝ) : EReal))
    (e : Fin 2) :
    outsAt2 V c (32 * e.val + 31) (last_lt2 e) (ix3 (0 : Fin 1) (0 : Fin 1) (0 : Fin 1))
      = (((∑ i : Fin 16, ∑ j : Fin 2, ∑ a : Fin 512, ∑ b : Fin 2048,
          Cert.Mmd.gram (Cert.Mmd.atNat x (i.val * 512 + a.val))
            (Cert.Mmd.atNat y ((e.val * 2 + j.val) * 2048 + b.val))) : ℝ) : EReal) :=
  acc2_value_of V c x y (outsAt2_step V c) hx hy hx2 hy2 e

/-- WHAT THE THIRD CALL LEAVES IN ITS RESULT ARRAY: under value `e` of the first grid coordinate, the sum over that value's
    32 blocks of the Gram entries of the first family against the second. -/
theorem res2_value (hx : ∀ p q, (V c main_arg0 : S8192x256.Idx → EReal) (ix2 p q) = ((x p q : ℝ) : EReal))
    (hy : ∀ p q, (V c main_arg1 : S8192x256.Idx → EReal) (ix2 p q) = ((y p q : ℝ) : EReal))
    (hx2 : ∀ r : Fin 8192, (V c main_v22 : S8192x1.Idx → EReal) (ix2 r (0 : Fin 1)) = ((∑ k, x r k * x r k : ℝ) : EReal))
    (hy2 : ∀ s : Fin 8192, (V c main_v26 : S1x8192.Idx → EReal) (ix2 (0 : Fin 1) s) = ((∑ k, y s k * y s k : ℝ) : EReal))
    (e : Fin 2) :
    ((dat2 V c).arrAt 4 cfg2.N : S2x1x1.Idx → EReal) (ix3 e (0 : Fin 1) (0 : Fin 1))
      = (((∑ i : Fin 16, ∑ j : Fin 2, ∑ a : Fin 512, ∑ b : Fin 2048,
          Cert.Mmd.gram (Cert.Mmd.atNat x (i.val * 512 + a.val))
            (Cert.Mmd.atNat y ((e.val * 2 + j.val) * 2048 + b.val))) : ℝ) : EReal) :=
  (arrAt2_out V c e).trans (acc2_value V c x y hx hy hx2 hy2 e)

end Acc2

end Cert.KernelIdeal.Hand

end
-- ==== Proof.Ki.KernelValueFinal.lean ====
/-
  The kernel program's final value on real data, with nothing left assumed: what each of the three regions leaves in
  its result array (the sums of the Gaussian Gram entries over the blocks of each value of the first grid coordinate)
  is put into the value of the last host operations, which is the square root of the squared discrepancy of the two
  samples.
-/
import proofs.«171171_j81080392613941_2_alg».proof.Proof.Ki.KernelValue
import proofs.«171171_j81080392613941_2_alg».proof.Proof.Ki.AccValue

noncomputable section

namespace Cert.KernelIdeal.Hand

open Cert.KernelIdeal Cert.KernelIdeal.Gen Cert.KernelIdeal.HostGlue Cert.Mmd
open Idealize.ShloMosaic Idealize.ShloMosaic.TcCoe Idealize.SL.Sem

/-- THE KERNEL PROGRAM'S VALUE: when the two argument arrays hold the real points `x` and `y`, the program's result is
    the square root of their squared maximum mean discrepancy. -/
theorem kernel_value (m : (ℓ : Loc nD τ sig) → Buf (Elt Ideal) ℓ) (c : Dev nD) (x y : Fin 8192 → Fin 256 → ℝ)
    (hN : ∀ p q, m ((c : Thread nD τ).loc main_arg0) (ValueIdx.ix2 p q) = ((x p q : ℝ) : EReal))
    (hR : ∀ p q, m ((c : Thread nD τ).loc main_arg1) (ValueIdx.ix2 p q) = ((y p q : ℝ) : EReal)) :
    (V7 (F := Ideal) m (outs m) c main_v34 : S_.Idx → EReal)
      = fun _ => Ideal.sqrt (((Cert.Mmd.mmd x y : ℝ)) : EReal) :=
  kernel_value_of m c x y hN hR res0_value res1_value res2_value

end Cert.KernelIdeal.Hand

end
-- ==== Proof.RefValue.lean ====
/-
  The value of the reference program at the ideal instance.

  On inputs that are real matrices the reference computes, for each of the three pairs of samples, the mean over all
  pairs of rows of the Gaussian Gram entry `exp ((-1) · max (|u|² + |v|² - 2 u·v) 0)`, combines the three means as
  `xx + yy - 2 xy` and takes the square root. Every intermediate is a real number, so each extended-real operation is
  the corresponding real one; the statement reads the program's result as the square root of the coerced real
  `Cert.Mmd.mmd x y`.
-/
import proofs.«171171_j81080392613941_2_alg».proof.Proof.Gen.ReferenceIdeal.Read
import proofs.«171171_j81080392613941_2_alg».proof.Proof.MmdSpec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open scoped BigOperators

/-! ## Coerced reals -/

/-- A finite sum of coerced reals is the coerced sum. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The maximum of two coerced reals is the coerced maximum. -/
theorem coe_max (a b : ℝ) : ((max a b : ℝ) : EReal) = max (a : EReal) (b : EReal) :=
  EReal.coe_strictMono.monotone.map_max

/-! ## The four float literals of the program -/

/-- The word `0x40000000` denotes `2`. -/
theorem ofBits_two : Ideal.ofBits .f32 0x40000000#32 = ((2 : ℝ) : EReal) := by
  simp [Ideal.ofBits, Ideal.ieee, -EReal.coe_mul]; norm_num

/-- The word `0xBF800000` denotes `-1`. -/
theorem ofBits_neg_one : Ideal.ofBits .f32 0xBF800000#32 = ((-1 : ℝ) : EReal) := by
  simp [Ideal.ofBits, Ideal.ieee, -EReal.coe_mul]; norm_num

/-- The word `0x4C800000` denotes `67108864 = 8192²`. -/
theorem ofBits_count : Ideal.ofBits .f32 0x4C800000#32 = ((67108864 : ℝ) : EReal) := by
  simp [Ideal.ofBits, Ideal.ieee, -EReal.coe_mul]; norm_num

/-! ## One Gram part, for a generic pair of inputs

The third part of the program (`val_main_v42` … `val_main_v62`) takes its rows from its first argument and its columns
from its second; the other two parts are the same term at a repeated argument. -/

section Part

variable (X Y : (⟨S8192x256, .f32⟩ : BufTy).Contents (Elt Ideal)) (x y : Fin 8192 → Fin 256 → ℝ)
  (hX : ∀ (p : Fin 8192) (q : Fin 256), X (ix2 p q) = ((x p q : ℝ) : EReal))
  (hY : ∀ (p : Fin 8192) (q : Fin 256), Y (ix2 p q) = ((y p q : ℝ) : EReal))

include hX in
/-- The row sums of squares of the first argument. -/
theorem rows_apply (i : Fin 8192) :
    val_main_v43 (F := Ideal) X (ix1 i) = ((Cert.Mmd.sq (x i) : ℝ) : EReal) := by
  have h : ∀ k : Fin 256, val_main_v42 (F := Ideal) X (idx_main_v43 (ix1 i) k) = ((x i k * x i k : ℝ) : EReal) := fun k => by
    rw [val_main_v42_apply,
      show idx_main_v43 (ix1 i) k = ix2 i k from
        funext fun a => Fin.ext (by match a with | ⟨0, _⟩ => rfl | ⟨1, _⟩ => rfl),
      hX, Ideal.mulf_def, EReal.coe_mul]
  rw [val_main_v43_apply, val_main_cst_13_apply, Ideal.ofBits_def, Ideal.ofBits_zero_f32, zero_add]
  simp only [h]
  rw [← coe_sum]
  rfl

include hY in
/-- The row sums of squares of the second argument. -/
theorem cols_apply (j : Fin 8192) :
    val_main_v45 (F := Ideal) Y (ix1 j) = ((Cert.Mmd.sq (y j) : ℝ) : EReal) := by
  have h : ∀ k : Fin 256, val_main_v44 (F := Ideal) Y (idx_main_v45 (ix1 j) k) = ((y j k * y j k : ℝ) : EReal) := fun k => by
    rw [val_main_v44_apply,
      show idx_main_v45 (ix1 j) k = ix2 j k from
        funext fun a => Fin.ext (by match a with | ⟨0, _⟩ => rfl | ⟨1, _⟩ => rfl),
      hY, Ideal.mulf_def, EReal.coe_mul]
  rw [val_main_v45_apply, val_main_cst_14_apply, Ideal.ofBits_def, Ideal.ofBits_zero_f32, zero_add]
  simp only [h]
  rw [← coe_sum]
  rfl

include hX hY in
/-- The inner products of a row of the first argument with a row of the second. -/
theorem dots_apply (i j : Fin 8192) :
    val_main_v52 (F := Ideal) X Y (ix2 i j) = ((Cert.Mmd.dot (x i) (y j) : ℝ) : EReal) := by
  have h : ∀ k : Fin 256, X (lidx_main_v52 (ix2 i j) k) * (val_main_v51 (F := Ideal) Y) (ridx_main_v52 (ix2 i j) k)
      = ((x i k * y j k : ℝ) : EReal) := fun k => by
    rw [val_main_v51_apply,
      show lidx_main_v52 (ix2 i j) k = ix2 i k from
        funext fun a => Fin.ext (by match a with | ⟨0, _⟩ => rfl | ⟨1, _⟩ => rfl),
      show idx_main_v51 (ridx_main_v52 (ix2 i j) k) = ix2 j k from
        funext fun a => Fin.ext (by match a with | ⟨0, _⟩ => rfl | ⟨1, _⟩ => rfl),
      hX, hY, EReal.coe_mul]
  rw [val_main_v52_apply]
  simp only [h]
  rw [← coe_sum]
  rfl

end Part

section Part

variable (X Y : (⟨S8192x256, .f32⟩ : BufTy).Contents (Elt Ideal)) (x y : Fin 8192 → Fin 256 → ℝ)
  (hX : ∀ (p : Fin 8192) (q : Fin 256), X (ix2 p q) = ((x p q : ℝ) : EReal))
  (hY : ∀ (p : Fin 8192) (q : Fin 256), Y (ix2 p q) = ((y p q : ℝ) : EReal))

include hX hY in
/-- One Gram entry: the exponential of minus the clamped squared distance of the two rows. -/
theorem entry_apply (i j : Fin 8192) :
    val_main_v60 (F := Ideal) X Y (ix2 i j) = ((Cert.Mmd.gram (x i) (y j) : ℝ) : EReal) := by
  rw [val_main_v60_apply, val_main_v59_apply, val_main_v58_apply, val_main_cst_17_apply, val_main_v57_apply,
    val_main_v56_apply, val_main_cst_16_apply, val_main_v55_apply, val_main_v50_apply, val_main_v48_apply,
    val_main_v46_apply, val_main_v49_apply, val_main_v47_apply, val_main_v54_apply, val_main_v53_apply,
    val_main_cst_15_apply,
    show idx_main_v46 (idx_main_v48 (ix2 i j)) = ix1 i from
      funext fun a => Fin.ext (by match a with | ⟨0, _⟩ => rfl),
    show idx_main_v47 (idx_main_v49 (ix2 i j)) = ix1 j from
      funext fun a => Fin.ext (by match a with | ⟨0, _⟩ => rfl),
    rows_apply X x hX i, cols_apply Y y hY j, dots_apply X Y x y hX hY i j]
  simp only [Ideal.hostUnary_exp_def, Ideal.mulf_def, Ideal.maximumf_def, Ideal.subf_def, Ideal.addf_def,
    Ideal.ofBits_def, ofBits_two, ofBits_neg_one, Ideal.ofBits_zero_f32]
  rw [← EReal.coe_add, ← EReal.coe_mul, ← EReal.coe_sub, ← EReal.coe_zero, ← coe_max, ← EReal.coe_mul,
    Ideal.exp_coe]
  rfl

include hX hY in
/-- One Gram part: the sum of the entries over all pairs of rows, divided by the number of pairs. -/
theorem part_apply (i : S_.Idx) :
    val_main_v62 (F := Ideal) X Y i = ((Cert.Mmd.gsum x y / 67108864 : ℝ) : EReal) := by
  rw [val_main_v62_apply, val_main_v61_apply, val_main_cst_18_apply, val_main_cst_19_apply,
    sum_idx2 (n0 := 8192) (n1 := 8192) (val_main_v60 (F := Ideal) X Y)]
  simp only [entry_apply X Y x y hX hY]
  rw [Ideal.hostDivf_def, Ideal.ofBits_def, Ideal.ofBits_def, Ideal.ofBits_zero_f32, ofBits_count, zero_add,
    Ideal.div_coe (by norm_num)]
  simp only [← coe_sum]
  rw [← EReal.coe_mul, mul_one_div]
  rfl

end Part

/-! ## The other two parts are the same term at a repeated argument -/

/-- The first part is the generic one at `(X, X)`. -/
theorem v20_eq (X : (⟨S8192x256, .f32⟩ : BufTy).Contents (Elt Ideal)) :
    val_main_v20 (F := Ideal) X = val_main_v62 (F := Ideal) X X := by
  unfold val_main_v20 val_main_v19 val_main_cst_5 val_main_v18 val_main_cst_4 val_main_v17 val_main_v16 val_main_cst_3
    val_main_v15 val_main_v14 val_main_cst_2 val_main_v13 val_main_v12 val_main_v11 val_main_cst_1 val_main_v10
    val_main_v9 val_main_v8 val_main_v7 val_main_v5 val_main_v3 val_main_v2 val_main_cst_0 val_main_v6 val_main_v4
    val_main_v1 val_main_v0 val_main_cst
    val_main_v62 val_main_v61 val_main_cst_19 val_main_v60 val_main_cst_18 val_main_v59 val_main_v58 val_main_cst_17
    val_main_v57 val_main_v56 val_main_cst_16 val_main_v55 val_main_v54 val_main_v53 val_main_cst_15 val_main_v52
    val_main_v51 val_main_v50 val_main_v49 val_main_v47 val_main_v45 val_main_v44 val_main_cst_14 val_main_v48
    val_main_v46 val_main_v43 val_main_v42 val_main_cst_13
  rfl

/-- The second part is the generic one at `(X, X)`. -/
theorem v41_eq (X : (⟨S8192x256, .f32⟩ : BufTy).Contents (Elt Ideal)) :
    val_main_v41 (F := Ideal) X = val_main_v62 (F := Ideal) X X := by
  unfold val_main_v41 val_main_v40 val_main_cst_12 val_main_v39 val_main_cst_11 val_main_v38 val_main_v37
    val_main_cst_10 val_main_v36 val_main_v35 val_main_cst_9 val_main_v34 val_main_v33 val_main_v32 val_main_cst_8
    val_main_v31 val_main_v30 val_main_v29 val_main_v28 val_main_v26 val_main_v24 val_main_v23 val_main_cst_7
    val_main_v27 val_main_v25 val_main_v22 val_main_v21 val_main_cst_6
    val_main_v62 val_main_v61 val_main_cst_19 val_main_v60 val_main_cst_18 val_main_v59 val_main_v58 val_main_cst_17
    val_main_v57 val_main_v56 val_main_cst_16 val_main_v55 val_main_v54 val_main_v53 val_main_cst_15 val_main_v52
    val_main_v51 val_main_v50 val_main_v49 val_main_v47 val_main_v45 val_main_v44 val_main_cst_14 val_main_v48
    val_main_v46 val_main_v43 val_main_v42 val_main_cst_13
  rfl

/-! ## The reference's value -/

/-- On real inputs the reference returns the square root of the coerced real `mmd x y`. -/
theorem ref_value (N R : (⟨S8192x256, .f32⟩ : BufTy).Contents (Elt Ideal)) (x y : Fin 8192 → Fin 256 → ℝ)
    (hN : ∀ (p : Fin 8192) (q : Fin 256), N (ValueIdx.ix2 p q) = ((x p q : ℝ) : EReal))
    (hR : ∀ (p : Fin 8192) (q : Fin 256), R (ValueIdx.ix2 p q) = ((y p q : ℝ) : EReal)) :
    Cert.ReferenceIdeal.Read.val_main_v66 (F := Ideal) N R = fun _ => Ideal.sqrt (((Cert.Mmd.mmd x y : ℝ)) : EReal) := by
  funext i
  rw [val_main_v66_apply, val_main_v65_apply, val_main_v63_apply, val_main_v64_apply, val_main_cst_20_apply,
    v20_eq, v41_eq, part_apply N N x x hN hN, part_apply R R y y hR hR, part_apply N R x y hN hR,
    Ideal.hostUnary_sqrt_def, Ideal.subf_def, Ideal.addf_def, Ideal.mulf_def, Ideal.ofBits_def, ofBits_two,
    ← EReal.coe_add, ← EReal.coe_mul, ← EReal.coe_sub]
  rfl

end Cert.ReferenceIdeal.RefValue

end
-- ==== Proof.FiniteInputs.lean ====
/-
  From the certificate's precondition to real-valued inputs. The precondition says that every entry of either input
  array has absolute value below `+∞`; at the ideal instance an entry is an extended real and its absolute value is
  `max x (-x)`, so every entry is a real number, and the two arrays are the images of two real matrices.
-/
import proofs.«171171_j81080392613941_2_alg».proof.Defs
import proofs.«171171_j81080392613941_2_alg».proof.Proof.Gen.Pre_finite_inputs
import Idealize.ShloMosaic.Lib.ReduceAll
import Idealize.ShloMosaic.Lib.ValueIdx
import Idealize.ShloMosaic.PureOps.Ideal

noncomputable section

namespace Cert.Proof.Finite

open Idealize.ShloMosaic

/-- The scalar shape has one index. -/
instance subsingleton_scalar_idx : Subsingleton Cert.Pre_finite_inputs.S_.Idx :=
  ⟨fun a b => funext fun d => d.elim0⟩

/-- An extended real whose absolute value `max x (-x)` is below `+∞` is a real number. -/
theorem real_of_abs_lt_top (x : EReal) (h : max x (-x) < ⊤) : ∃ r : ℝ, x = (r : EReal) := by
  induction x with
  | bot => simp at h
  | coe r => exact ⟨r, rfl⟩
  | top => simp at h

/-- The pattern `0x7F800000` of the 32-bit format denotes `+∞`. -/
theorem ofBits_inf : Ideal.ofBits .f32 0x7F800000#32 = (⊤ : EReal) := by
  simp [Ideal.ofBits, Ideal.ieee]

/-- An entry whose comparison `|x| < +∞` came out true is a real number. -/
theorem real_of_cmp (x : EReal)
    (h : Ideal.cmp .olt (max x (-x)) (Ideal.ofBits .f32 0x7F800000#32) = 1#1) : ∃ r : ℝ, x = (r : EReal) := by
  rw [ofBits_inf] at h
  unfold Ideal.cmp at h
  by_cases hlt : max x (-x) < ⊤
  · exact real_of_abs_lt_top x hlt
  · simp [hlt] at h

/-- Under the precondition (the printed predicate is one) both input arrays are the images of real matrices: the
predicate is the conjunction of two reductions by `and` over all entries of the comparisons `|entry| < +∞`. -/
theorem real_of_pre [hPre_finite_inputs : Cert.Pre_finite_inputs.Facts]
    (N R : (⟨Cert.KernelIdeal.S8192x256, .f32⟩ : BufTy).Contents (Elt Ideal))
    (h : Cert.Pre_finite_inputs.fn (F := Ideal) N R = fun _ => 1#1) :
    ∃ x y : Fin 8192 → Fin 256 → ℝ,
      (∀ p q, N (ValueIdx.ix2 p q) = ((x p q : ℝ) : EReal)) ∧ (∀ p q, R (ValueIdx.ix2 p q) = ((y p q : ℝ) : EReal)) := by
  have h0 := congrFun h ValueIdx.ix0
  dsimp only [Cert.Pre_finite_inputs.fn] at h0
  obtain ⟨hN, hR⟩ := IntOp.andi_eq_one.1 h0
  have eN : ∀ i, ∃ r : ℝ, N i = (r : EReal) := fun i =>
    real_of_cmp (N i) (Host.reduce_andi_all _ _ _ _ _ hN i)
  have eR : ∀ i, ∃ r : ℝ, R i = (r : EReal) := fun i =>
    real_of_cmp (R i) (Host.reduce_andi_all _ _ _ _ _ hR i)
  choose x hx using eN
  choose y hy using eR
  exact ⟨fun p q => x (ValueIdx.ix2 p q), fun p q => y (ValueIdx.ix2 p q), fun p q => hx _, fun p q => hy _⟩

end Cert.Proof.Finite

end
-- ==== Proof.lean ====
/-
  The certificate's claims, assembled (the proof of `Cert.Claim`). Both idealized programs return, on every device, the square root of the
  biased squared maximum mean discrepancy `mmd x y` of the two real input matrices: the reference computes it
  over the whole 8192 × 8192 Gram matrices, the kernel block by block with the literal one on the diagonals of the two
  symmetric Gram matrices and a clamp of the discrepancy at zero, which is idle because the discrepancy of a positive
  semidefinite kernel is nonnegative. The precondition makes every input entry a real number.
-/
import proofs.«171171_j81080392613941_2_alg».proof.Defs
import proofs.«171171_j81080392613941_2_alg».proof.Proof.Ki.Run
import proofs.«171171_j81080392613941_2_alg».proof.Proof.Kb.Run
import proofs.«171171_j81080392613941_2_alg».proof.Proof.Ki.KernelValueFinal
import proofs.«171171_j81080392613941_2_alg».proof.Proof.RefValue
import proofs.«171171_j81080392613941_2_alg».proof.Proof.FiniteInputs
import proofs.«171171_j81080392613941_2_alg».proof.Proof.Gen.Kernel
import proofs.«171171_j81080392613941_2_alg».proof.Proof.Gen.KernelIdeal
import proofs.«171171_j81080392613941_2_alg».proof.Proof.Gen.ReferenceIdeal
import proofs.«171171_j81080392613941_2_alg».proof.Proof.Gen.ReferenceIdeal.Run
import proofs.«171171_j81080392613941_2_alg».proof.Proof.Gen.ReferenceIdeal.Read
import proofs.«171171_j81080392613941_2_alg».proof.Proof.Gen.Pre_finite_inputs

noncomputable section

namespace Cert.Proof

open Idealize.ShloMosaic Idealize.ShloMosaic.TcCoe Idealize.SL.Sem

/-- The word-level kernel runs and leaves its two argument arrays unchanged. -/
theorem frame_p : Cert.frame_Kernel := fun m ρ _ => Cert.Kernel.Hand.frame (F := Bits) m ρ

/-- The idealized kernel runs and leaves its two argument arrays unchanged: its run with the result dropped. -/
theorem frame_pi : Cert.frame_KernelIdeal := fun m ρ _ =>
  (θ_run Cert.KernelIdeal.defs _ _).mono (fun _ h c => (h c).2) (Cert.KernelIdeal.Hand.run_main (F := Ideal) m ρ)

/-- The idealized reference runs and leaves its two argument arrays unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments, both idealized programs end with `sqrt (mmd x y)` in their
    result, `x` and `y` being the real matrices the precondition makes of the two arguments: the reference by its
    value over the whole Gram matrices, the kernel by its value block by block. -/
theorem algebraic : Cert.algebraic_KernelIdeal_ReferenceIdeal := by
  intro m ρ m' ρ' hpre hagree
  refine ⟨fun c => Cert.KernelIdeal.Gen.V7 m (Cert.KernelIdeal.Hand.outs m) c Cert.KernelIdeal.main_v34,
    Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  -- the inputs are real matrices
  obtain ⟨x, y, hN, hR⟩ := Cert.Proof.Finite.real_of_pre _ _ (hpre c)
  -- the reference's term is its last stage, at arguments that agree with the kernel's
  refine (Cert.ReferenceIdeal.Read.val_main_v66_eq (F := Ideal) _ _).trans ?_
  rw [(hagree c).1, (hagree c).2]
  -- both sides are the square root of the discrepancy
  refine (Cert.ReferenceIdeal.RefValue.ref_value _ _ x y hN hR).trans ?_
  exact (Cert.KernelIdeal.Hand.kernel_value m c x y hN hR).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
